-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x12x256x256 : Shape := ⟨4, ![32, 12, 256, 256]⟩
abbrev S12 : Shape := ⟨1, ![12]⟩
abbrev S_ : Shape := ⟨0, ![]⟩

class Facts : Prop where
  bcast_S_S32x12x256x256 : S_.BroadcastsInDim S32x12x256x256 (![] : Fin 0 → Fin S32x12x256x256.rank)
  reducesTo_S32x12x256x256_S_d0_1_2_3 : S32x12x256x256.ReducesTo [0, 1, 2, 3] S_
  h_S_ : 0 < S_.numel
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S12 .f32) (main_arg5 : FVec F S12 .f32) (main_arg6 : FVec F S12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S32x12x256x256 .f32) (main_arg1 : FVec F S12 .f32) (main_arg2 : FVec F S12 .f32) (main_arg3 : FVec F S12 .f32) (main_arg4 : FVec F S12 .f32) (main_arg5 : FVec F S12 .f32) (main_arg6 : FVec F S12 .f32) : IVec S_ 1 :=
  let main_v0 : FVec F S32x12x256x256 .f32 := Host.absf main_arg0
  let main_cst : FVec F S_ .f32 := constant S_ .f32 0x7F800000#32
  let main_v1 : FVec F S32x12x256x256 .f32 := broadcastInDim S32x12x256x256 ![] bcast_S_S32x12x256x256 main_cst
  let main_v2 : IVec S32x12x256x256 1 := cmpf .olt main_v0 main_v1
  let main_c : IVec S_ 1 := constantI S_ 1 1#1
  let main_v3 : IVec S_ 1 := (fun x v => Host.reduce IntOp.andi x v reducesTo_S32x12x256x256_S_d0_1_2_3 h_S_) main_v2 main_c
  let main_v4 : FVec F S12 .f32 := Host.absf main_arg1
  let main_cst_0 : FVec F S_ .f32 := constant S_ .f32 0x7F800000#32
  let main_v5 : FVec F S12 .f32 := broadcastInDim S12 ![] bcast_S_S12 main_cst_0
  let main_v6 : IVec S12 1 := cmpf .olt main_v4 main_v5
  let main_c_1 : IVec S_ 1 := constantI S_ 1 1#1
  let main_v7 : IVec S_ 1 := (fun x v => Host.reduce IntOp.andi x v reducesTo_S12_S_d0 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_v13 main_v16
-- ==== Kernel.lean ====
abbrev S32x12x256x256 : Shape := ⟨4, ![32, 12, 256, 256]⟩
abbrev S12 : Shape := ⟨1, ![12]⟩
abbrev S2x1x12 : Shape := ⟨3, ![2, 1, 12]⟩
abbrev S2x12x256x256 : Shape := ⟨4, ![2, 12, 256, 256]⟩
abbrev S1x1x12 : Shape := ⟨3, ![1, 1, 12]⟩
abbrev S2x12x256 : Shape := ⟨3, ![2, 12, 256]⟩
abbrev S2x12 : Shape := ⟨2, ![2, 12]⟩
abbrev S_ : Shape := ⟨0, ![]⟩
abbrev S1x12 : Shape := ⟨2, ![1, 12]⟩
abbrev S6x12 : Shape := ⟨2, ![6, 12]⟩

abbrev nBuf : Space → Nat
  | .hbm => 95
  | .vmem => 12
  | .smem => 0
  | _ => 0

abbrev bufTy : (tb : Table) → Fin (tcTables nBuf tb) → BufTy
  | .hbm, ⟨0, _⟩ => ⟨S32x12x256x256, .f32⟩
  | .hbm, ⟨1, _⟩ => ⟨S12, .f32⟩
  | .hbm, ⟨2, _⟩ => ⟨S12, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S12, .f32⟩
  | .hbm, ⟨7, _⟩ => ⟨S2x1x12, .f32⟩
  | .hbm, ⟨8, _⟩ => ⟨S2x1x12, .f32⟩
  | .hbm, ⟨9, _⟩ => ⟨S2x1x12, .f32⟩
  | .hbm, ⟨10, _⟩ => ⟨S2x1x12, .f32⟩
  | .hbm, ⟨11, _⟩ => ⟨S2x1x12, .f32⟩
  | .hbm, ⟨12, _⟩ => ⟨S2x12, .f32⟩
  | .hbm, ⟨13, _⟩ => ⟨S_, .f32⟩
  | .hbm, ⟨14, _⟩ => ⟨S12, .f32⟩
  | .hbm, ⟨15, _⟩ => ⟨S2x12, .f32⟩
  | .hbm, ⟨16, _⟩ => ⟨S_, .f32⟩
  | .hbm, ⟨17, _⟩ => ⟨S12, .f32⟩
  | .hbm, ⟨18, _⟩ => ⟨S2x12, .f32⟩
  | .hbm, ⟨19, _⟩ => ⟨S_, .f32⟩
  | .hbm, ⟨20, _⟩ => ⟨S12, .f32⟩
  | .hbm, ⟨21, _⟩ => ⟨S2x12, .f32⟩
  | .hbm, ⟨22, _⟩ => ⟨S_, .f32⟩
  | .hbm, ⟨23, _⟩ => ⟨S12, .f32⟩
  | .hbm, ⟨24, _⟩ => ⟨S2x12, .f32⟩
  | .hbm, ⟨25, _⟩ => ⟨S_, .f32⟩
  | .hbm, ⟨26, _⟩ => ⟨S12, .f32⟩
  | .hbm, ⟨27, _⟩ => ⟨S_, .f32⟩
  | .hbm, ⟨28, _⟩ => ⟨S12, .f32⟩
  | .hbm, ⟨29, _⟩ => ⟨S12, .i1⟩
  | .hbm, ⟨30, _⟩ => ⟨S_, .f32⟩
  | .hbm, ⟨31, _⟩ => ⟨S_, .f32⟩
  | .hbm, ⟨32, _⟩ => ⟨S12, .f32⟩
  | .hbm, ⟨33, _⟩ => ⟨S12, .f32⟩
  | .hbm, ⟨34, _⟩ => ⟨S_, .f32⟩
  | .hbm, ⟨35, _⟩ => ⟨S12, .f32⟩
  | .hbm, ⟨36, _⟩ => ⟨S12, .f32⟩
  | .hbm, ⟨37, _⟩ => ⟨S_, .f32⟩
  | .hbm, ⟨38, _⟩ => ⟨S12, .f32⟩
  | .hbm, ⟨39, _⟩ => ⟨S12, .i1⟩
  | .hbm, ⟨40, _⟩ => ⟨S12, .f32⟩
  | .hbm, ⟨41, _⟩ => ⟨S_, .f32⟩
  | .hbm, ⟨42, _⟩ => ⟨S_, .f32⟩
  | .hbm, ⟨43, _⟩ => ⟨S12, .f32⟩
  | .hbm, ⟨44, _⟩ => ⟨S12, .f32⟩
  | .hbm, ⟨45, _⟩ => ⟨S12, .f32⟩
  | .hbm, ⟨46, _⟩ => ⟨S12, .f32⟩
  | .hbm, ⟨47, _⟩ => ⟨S12, .f32⟩
  | .hbm, ⟨48, _⟩ => ⟨S_, .f32⟩
  | .hbm, ⟨49, _⟩ => ⟨S12, .f32⟩
  | .hbm, ⟨50, _⟩ => ⟨S12, .f32⟩
  | .hbm, ⟨51, _⟩ => ⟨S_, .f32⟩
  | .hbm, ⟨52, _⟩ => ⟨S12, .f32⟩
  | .hbm, ⟨53, _⟩ => ⟨S12, .i1⟩
  | .hbm, ⟨54, _⟩ => ⟨S_, .f32⟩
  | .hbm, ⟨55, _⟩ => ⟨S_, .f32⟩
  | .hbm, ⟨56, _⟩ => ⟨S12, .f32⟩
  | .hbm, ⟨57, _⟩ => ⟨S12, .f32⟩
  | .hbm, ⟨58, _⟩ => ⟨S12, .f32⟩
  | .hbm, ⟨59, _⟩ => ⟨S12, .f32⟩
  | .hbm, ⟨60, _⟩ => ⟨S_, .f32⟩
  | .hbm, ⟨61, _⟩ => ⟨S12, .f32⟩
  | .hbm, ⟨62, _⟩ => ⟨S12, .f32⟩
  | .hbm, ⟨63, _⟩ => ⟨S12, .f32⟩
  | .hbm, ⟨64, _⟩ => ⟨S12, .f32⟩
  | .hbm, ⟨65, _⟩ => ⟨S12, .f32⟩
  | .hbm, ⟨66, _⟩ => ⟨S12, .f32⟩
  | .hbm, ⟨67, _⟩ => ⟨S12, .f32⟩
  | .hbm, ⟨68, _⟩ => ⟨S12, .f32⟩
  | .hbm, ⟨69, _⟩ => ⟨S12, .f32⟩
  | .hbm, ⟨70, _⟩ => ⟨S12, .f32⟩
  | .hbm, ⟨71, _⟩ => ⟨S12, .f32⟩
  | .hbm, ⟨72, _⟩ => ⟨S12, .f32⟩
  | .hbm, ⟨73, _⟩ => ⟨S12, .f32⟩
  | .hbm, ⟨74, _⟩ => ⟨S_, .f32⟩
  | .hbm, ⟨75, _⟩ => ⟨S12, .f32⟩
  | .hbm, ⟨76, _⟩ => ⟨S12, .i1⟩
  | .hbm, ⟨77, _⟩ => ⟨S12, .f32⟩
  | .hbm, ⟨78, _⟩ => ⟨S12, .f32⟩
  | .hbm, ⟨79, _⟩ => ⟨S12, .f32⟩
  | .hbm, ⟨80, _⟩ => ⟨S_, .f32⟩
  | .hbm, ⟨81, _⟩ => ⟨S12, .f32⟩
  | .hbm, ⟨82, _⟩ => ⟨S12, .f32⟩
  | .hbm, ⟨83, _⟩ => ⟨S12, .f32⟩
  | .hbm, ⟨84, _⟩ => ⟨S12, .f32⟩
  | .hbm, ⟨85, _⟩ => ⟨S12, .f32⟩
  | .hbm, ⟨86, _⟩ => ⟨S12, .f32⟩
  | .hbm, ⟨87, _⟩ => ⟨S12, .f32⟩
  | .hbm, ⟨88, _⟩ => ⟨S1x12, .f32⟩
  | .hbm, ⟨89, _⟩ => ⟨S1x12, .f32⟩
  | .hbm, ⟨90, _⟩ => ⟨S1x12, .f32⟩
  | .hbm, ⟨91, _⟩ => ⟨S1x12, .f32⟩
  | .hbm, ⟨92, _⟩ => ⟨S1x12, .f32⟩
  | .hbm, ⟨93, _⟩ => ⟨S1x12, .f32⟩
  | .hbm, ⟨94, _⟩ => ⟨S6x12, .f32⟩
  | .local _ .vmem, ⟨0, _⟩ => ⟨S2x12x256x256, .f32⟩
  | .local _ .vmem, ⟨1, _⟩ => ⟨S2x12x256x256, .f32⟩
  | .local _ .vmem, ⟨2, _⟩ => ⟨S1x1x12, .f32⟩
  | .local _ .vmem, ⟨3, _⟩ => ⟨S1x1x12, .f32⟩
  | .local _ .vmem, ⟨4, _⟩ => ⟨S1x1x12, .f32⟩
  | .local _ .vmem, ⟨5, _⟩ => ⟨S1x1x12, .f32⟩
  | .local _ .vmem, ⟨6, _⟩ => ⟨S1x1x12, .f32⟩
  | .local _ .vmem, ⟨7, _⟩ => ⟨S1x1x12, .f32⟩
  | .local _ .vmem, ⟨8, _⟩ => ⟨S1x1x12, .f32⟩
  | .local _ .vmem, ⟨9, _⟩ => ⟨S1x1x12, .f32⟩
  | .local _ .vmem, ⟨10, _⟩ => ⟨S1x1x12, .f32⟩
  | .local _ .vmem, ⟨11, _⟩ => ⟨S1x1x12, .f32⟩
  | _, _ => ⟨S32x12x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_9 : Ref sig .tc := ⟨.hbm, 48, rfl⟩
abbrev main_v23 : Ref sig .tc := ⟨.hbm, 49, rfl⟩
abbrev main_v24 : Ref sig .tc := ⟨.hbm, 50, rfl⟩
abbrev main_cst_10 : Ref sig .tc := ⟨.hbm, 51, rfl⟩
abbrev main_v25 : Ref sig .tc := ⟨.hbm, 52, rfl⟩
abbrev main_v26 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_12 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_13 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_14 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x12x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x12_S1x1x12_0_0_0 : ∀ a, (![0, 0, 0] : Fin 3 → Nat) a + S1x1x12.size a ≤ S1x1x12.size a
  h_S1x1x12 : 0 < S1x1x12.numel
  inb_S2x12x256x256_S2x12x256x256_0_0_0_0 : ∀ a, (![0, 0, 0, 0] : Fin 4 → Nat) a + S2x12x256x256.size a ≤ S2x12x256x256.size a
  h_S2x12x256x256 : 0 < S2x12x256x256.numel
  natLt_1_32 : 1 < 32
  reduces_S2x12x256x256_S2x12x256 : S2x12x256x256.Reduces [3] S2x12x256
  reduces_S2x12x256_S2x12 : S2x12x256.Reduces [2] S2x12
  reduces_S2x12_S12 : S2x12.Reduces [0] S12
  shapeCasts_S1x1x12_S1x1x12 : S1x1x12.ShapeCasts S1x1x12
  shapeCasts_S12_S1x1x12 : S12.ShapeCasts S1x1x12
  shapeCasts_S2x1x12_S2x12 : S2x1x12.ShapeCasts S2x12
  reducesTo_S2x12_S12_d0 : S2x12.ReducesTo [0] S12
  h_S_ : 0 < S_.numel
  bcast_S_S12 : S_.BroadcastsInDim S12 (![] : Fin 0 → Fin S12.rank)
  bcast_S12_S1x12_1 : S12.BroadcastsInDim S1x12 (![1] : Fin 1 → Fin S1x12.rank)
  concatenates_S1x12_S1x12_S1x12_S1x12_S1x12_S1x12_S6x12_d0 : Shape.Concatenates [S1x12, S1x12, S1x12, S1x12, S1x12, S1x12] S6x12 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x12x256x256.size a ≤ S32x12x256x256.size a
  hwx0_0 : ∀ i : grid0.Coords, EltTy.bits .f32 = 32 ∨ (Rect.block (s := S32x12x256x256) S2x12x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x12.size a ≤ S2x1x12.size a
  hwx0_1 : ∀ i : grid0.Coords, EltTy.bits .f32 = 32 ∨ (Rect.block (s := S2x1x12) S1x1x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12.size a ≤ S2x1x12.size a
  hwx0_2 : ∀ i : grid0.Coords, EltTy.bits .f32 = 32 ∨ (Rect.block (s := S2x1x12) S1x1x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x12.size a ≤ S2x1x12.size a
  hwx0_3 : ∀ i : grid0.Coords, EltTy.bits .f32 = 32 ∨ (Rect.block (s := S2x1x12) S1x1x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x12.size a ≤ S2x1x12.size a
  hwx0_4 : ∀ i : grid0.Coords, EltTy.bits .f32 = 32 ∨ (Rect.block (s := S2x1x12) S1x1x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x12.size a ≤ S2x1x12.size a
  hwx0_5 : ∀ i : grid0.Coords, EltTy.bits .f32 = 32 ∨ (Rect.block (s := S2x1x12) S1x1x12.size (cc0_transform_5 i) (hinb0_5 i)).WholeWords (EltTy.packing .f32)

variable [Facts₀]

abbrev win0_0 : Pipeline.Window sig grid0 :=
  Pipeline.Window.ofSpec (Memref.whole main_arg0) S2x12x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x12.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x12.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x1x12.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x1x12.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x12x256x256 : Shape := ⟨4, ![32, 12, 256, 256]⟩
abbrev S12 : Shape := ⟨1, ![12]⟩
abbrev S_ : Shape := ⟨0, ![]⟩
abbrev S12x32x256x256 : Shape := ⟨4, ![12, 32, 256, 256]⟩
abbrev S12x2097152 : Shape := ⟨2, ![12, 2097152]⟩
abbrev S1x12 : Shape := ⟨2, ![1, 12]⟩
abbrev S6x12 : Shape := ⟨2, ![6, 12]⟩

abbrev nBuf : Space → Nat
  | .hbm => 108
  | .vmem => 0
  | .smem => 0
  | _ => 0

abbrev bufTy : (tb : Table) → Fin (tcTables nBuf tb) → BufTy
  | .hbm, ⟨0, _⟩ => ⟨S32x12x256x256, .f32⟩
  | .hbm, ⟨1, _⟩ => ⟨S12, .f32⟩
  | .hbm, ⟨2, _⟩ => ⟨S12, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S12, .f32⟩
  | .hbm, ⟨7, _⟩ => ⟨S_, .f32⟩
  | .hbm, ⟨8, _⟩ => ⟨S32x12x256x256, .f32⟩
  | .hbm, ⟨9, _⟩ => ⟨S32x12x256x256, .f32⟩
  | .hbm, ⟨10, _⟩ => ⟨S_, .f32⟩
  | .hbm, ⟨11, _⟩ => ⟨S32x12x256x256, .f32⟩
  | .hbm, ⟨12, _⟩ => ⟨S32x12x256x256, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x12x256x256, .f32⟩
  | .hbm, ⟨17, _⟩ => ⟨S32x12x256x256, .f32⟩
  | .hbm, ⟨18, _⟩ => ⟨S_, .f32⟩
  | .hbm, ⟨19, _⟩ => ⟨S32x12x256x256, .f32⟩
  | .hbm, ⟨20, _⟩ => ⟨S32x12x256x256, .f32⟩
  | .hbm, ⟨21, _⟩ => ⟨S12x32x256x256, .f32⟩
  | .hbm, ⟨22, _⟩ => ⟨S12x2097152, .f32⟩
  | .hbm, ⟨23, _⟩ => ⟨S12x32x256x256, .i1⟩
  | .hbm, ⟨24, _⟩ => ⟨S12x2097152, .i1⟩
  | .hbm, ⟨25, _⟩ => ⟨S12x2097152, .f32⟩
  | .hbm, ⟨26, _⟩ => ⟨S_, .f32⟩
  | .hbm, ⟨27, _⟩ => ⟨S12, .f32⟩
  | .hbm, ⟨28, _⟩ => ⟨S12x2097152, .f32⟩
  | .hbm, ⟨29, _⟩ => ⟨S_, .f32⟩
  | .hbm, ⟨30, _⟩ => ⟨S12, .f32⟩
  | .hbm, ⟨31, _⟩ => ⟨S12x2097152, .f32⟩
  | .hbm, ⟨32, _⟩ => ⟨S12x2097152, .f32⟩
  | .hbm, ⟨33, _⟩ => ⟨S_, .f32⟩
  | .hbm, ⟨34, _⟩ => ⟨S12, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S_, .f32⟩
  | .hbm, ⟨39, _⟩ => ⟨S12, .f32⟩
  | .hbm, ⟨40, _⟩ => ⟨S12, .i1⟩
  | .hbm, ⟨41, _⟩ => ⟨S12, .f32⟩
  | .hbm, ⟨42, _⟩ => ⟨S_, .f32⟩
  | .hbm, ⟨43, _⟩ => ⟨S_, .f32⟩
  | .hbm, ⟨44, _⟩ => ⟨S12, .f32⟩
  | .hbm, ⟨45, _⟩ => ⟨S12, .f32⟩
  | .hbm, ⟨46, _⟩ => ⟨S12, .f32⟩
  | .hbm, ⟨47, _⟩ => ⟨S12, .f32⟩
  | .hbm, ⟨48, _⟩ => ⟨S12, .f32⟩
  | .hbm, ⟨49, _⟩ => ⟨S_, .f32⟩
  | .hbm, ⟨50, _⟩ => ⟨S12, .f32⟩
  | .hbm, ⟨51, _⟩ => ⟨S12, .f32⟩
  | .hbm, ⟨52, _⟩ => ⟨S_, .f32⟩
  | .hbm, ⟨53, _⟩ => ⟨S12, .f32⟩
  | .hbm, ⟨54, _⟩ => ⟨S12, .i1⟩
  | .hbm, ⟨55, _⟩ => ⟨S_, .f32⟩
  | .hbm, ⟨56, _⟩ => ⟨S_, .f32⟩
  | .hbm, ⟨57, _⟩ => ⟨S12, .f32⟩
  | .hbm, ⟨58, _⟩ => ⟨S12, .f32⟩
  | .hbm, ⟨59, _⟩ => ⟨S_, .f32⟩
  | .hbm, ⟨60, _⟩ => ⟨S_, .f32⟩
  | .hbm, ⟨61, _⟩ => ⟨S12x2097152, .f32⟩
  | .hbm, ⟨62, _⟩ => ⟨S12x2097152, .f32⟩
  | .hbm, ⟨63, _⟩ => ⟨S_, .f32⟩
  | .hbm, ⟨64, _⟩ => ⟨S12, .f32⟩
  | .hbm, ⟨65, _⟩ => ⟨S_, .f32⟩
  | .hbm, ⟨66, _⟩ => ⟨S_, .f32⟩
  | .hbm, ⟨67, _⟩ => ⟨S12x2097152, .f32⟩
  | .hbm, ⟨68, _⟩ => ⟨S12x2097152, .f32⟩
  | .hbm, ⟨69, _⟩ => ⟨S_, .f32⟩
  | .hbm, ⟨70, _⟩ => ⟨S12, .f32⟩
  | .hbm, ⟨71, _⟩ => ⟨S12, .f32⟩
  | .hbm, ⟨72, _⟩ => ⟨S12, .f32⟩
  | .hbm, ⟨73, _⟩ => ⟨S_, .f32⟩
  | .hbm, ⟨74, _⟩ => ⟨S12, .f32⟩
  | .hbm, ⟨75, _⟩ => ⟨S12, .f32⟩
  | .hbm, ⟨76, _⟩ => ⟨S12, .f32⟩
  | .hbm, ⟨77, _⟩ => ⟨S12, .f32⟩
  | .hbm, ⟨78, _⟩ => ⟨S12, .f32⟩
  | .hbm, ⟨79, _⟩ => ⟨S12, .f32⟩
  | .hbm, ⟨80, _⟩ => ⟨S12, .f32⟩
  | .hbm, ⟨81, _⟩ => ⟨S12, .f32⟩
  | .hbm, ⟨82, _⟩ => ⟨S12, .f32⟩
  | .hbm, ⟨83, _⟩ => ⟨S12, .f32⟩
  | .hbm, ⟨84, _⟩ => ⟨S12, .f32⟩
  | .hbm, ⟨85, _⟩ => ⟨S12, .f32⟩
  | .hbm, ⟨86, _⟩ => ⟨S12, .f32⟩
  | .hbm, ⟨87, _⟩ => ⟨S_, .f32⟩
  | .hbm, ⟨88, _⟩ => ⟨S12, .f32⟩
  | .hbm, ⟨89, _⟩ => ⟨S12, .i1⟩
  | .hbm, ⟨90, _⟩ => ⟨S12, .f32⟩
  | .hbm, ⟨91, _⟩ => ⟨S12, .f32⟩
  | .hbm, ⟨92, _⟩ => ⟨S12, .f32⟩
  | .hbm, ⟨93, _⟩ => ⟨S_, .f32⟩
  | .hbm, ⟨94, _⟩ => ⟨S12, .f32⟩
  | .hbm, ⟨95, _⟩ => ⟨S12, .f32⟩
  | .hbm, ⟨96, _⟩ => ⟨S12, .f32⟩
  | .hbm, ⟨97, _⟩ => ⟨S12, .f32⟩
  | .hbm, ⟨98, _⟩ => ⟨S12, .f32⟩
  | .hbm, ⟨99, _⟩ => ⟨S12, .f32⟩
  | .hbm, ⟨100, _⟩ => ⟨S12, .f32⟩
  | .hbm, ⟨101, _⟩ => ⟨S1x12, .f32⟩
  | .hbm, ⟨102, _⟩ => ⟨S1x12, .f32⟩
  | .hbm, ⟨103, _⟩ => ⟨S1x12, .f32⟩
  | .hbm, ⟨104, _⟩ => ⟨S1x12, .f32⟩
  | .hbm, ⟨105, _⟩ => ⟨S1x12, .f32⟩
  | .hbm, ⟨106, _⟩ => ⟨S1x12, .f32⟩
  | .hbm, ⟨107, _⟩ => ⟨S6x12, .f32⟩
  | _, _ => ⟨S32x12x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_cst_10 : Ref sig .tc := ⟨.hbm, 52, rfl⟩
abbrev main_v27 : Ref sig .tc := ⟨.hbm, 53, rfl⟩
abbrev main_v28 : Ref sig .tc := ⟨.hbm, 54, rfl⟩
abbrev main_cst_11 : Ref sig .tc := ⟨.hbm, 55, rfl⟩
abbrev main_call2_v0 : Ref sig .tc := ⟨.hbm, 56, rfl⟩
abbrev main_call2_v1 : Ref sig .tc := ⟨.hbm, 57, rfl⟩
abbrev main_v29 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v30 : Ref sig .tc := ⟨.hbm, 62, rfl⟩
abbrev main_cst_13 : Ref sig .tc := ⟨.hbm, 63, rfl⟩
abbrev main_v31 : Ref sig .tc := ⟨.hbm, 64, rfl⟩
abbrev main_cst_14 : Ref sig .tc := ⟨.hbm, 65, rfl⟩
abbrev main_call4_v0 : Ref sig .tc := ⟨.hbm, 66, rfl⟩
abbrev main_call4_v1 : Ref sig .tc := ⟨.hbm, 67, rfl⟩
abbrev main_v32 : Ref sig .tc := ⟨.hbm, 68, rfl⟩
abbrev main_cst_15 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_16 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_17 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_18 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  bcast_S_S32x12x256x256 : S_.BroadcastsInDim S32x12x256x256 (![] : Fin 0 → Fin S32x12x256x256.rank)
  transposes_S32x12x256x256_S12x32x256x256_1_0_2_3 : S32x12x256x256.Transposes [1, 0, 2, 3] S12x32x256x256
  shapeCasts_S12x32x256x256_S12x2097152 : S12x32x256x256.ShapeCasts S12x2097152
  reducesTo_S12x2097152_S12_d1 : S12x2097152.ReducesTo [1] S12
  h_S_ : 0 < S_.numel
  bcast_S_S12 : S_.BroadcastsInDim S12 (![] : Fin 0 → Fin S12.rank)
  bcast_S_S12x2097152 : S_.BroadcastsInDim S12x2097152 (![] : Fin 0 → Fin S12x2097152.rank)
  bcast_S12_S1x12_1 : S12.BroadcastsInDim S1x12 (![1] : Fin 1 → Fin S1x12.rank)
  concatenates_S1x12_S1x12_S1x12_S1x12_S1x12_S1x12_S6x12_d0 : Shape.Concatenates [S1x12, S1x12, S1x12, S1x12, S1x12, S1x12] S6x12 0

variable [Facts₀]

class Facts : Prop extends Facts₀ where

variable [Facts]
-- ==== Proof.KBase.lean ====
/-
  The host side of the program around its one pipelined region: the buffers as the region finds them (the program
  starts with the region, so they are the launch contents), the eighty-three host operations after the region as
  thirteen stretches that touch only unscoped buffers, allocate nothing and write none of the region's six arrays,
  and the frame statement read off a run of the region followed by those stretches. Also what the body's runs are
  stated over: the one branch condition of the body (the second grid coordinate is 0, that is, the point's number
  is a multiple of 8), each window's current staging buffer at a point, and the input window's block at a point.
-/
import proofs.«170440_j6811818131595_2_alg».proof.Proof.Gen.Kernel.Launch
import proofs.«170440_j6811818131595_2_alg».proof.Proof.Gen.Kernel.Skeleton
import proofs.«170440_j6811818131595_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- The program is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
/-- And write no array of the region (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The input window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points whose number is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers at a point -/

/-- One staging buffer of output window 1, through which its contents are stated. -/
abbrev VO0_1 : View sig .tc .vmem S1x1x12 .f32 := (Memref.whole cc0_stg1_0 : Memref sig .tc .vmem S1x1x12 .f32).view
/-- One staging buffer of output window 2, through which its contents are stated. -/
abbrev VO0_2 : View sig .tc .vmem S1x1x12 .f32 := (Memref.whole cc0_stg2_0 : Memref sig .tc .vmem S1x1x12 .f32).view
/-- One staging buffer of output window 3, through which its contents are stated. -/
abbrev VO0_3 : View sig .tc .vmem S1x1x12 .f32 := (Memref.whole cc0_stg3_0 : Memref sig .tc .vmem S1x1x12 .f32).view
/-- One staging buffer of output window 4, through which its contents are stated. -/
abbrev VO0_4 : View sig .tc .vmem S1x1x12 .f32 := (Memref.whole cc0_stg4_0 : Memref sig .tc .vmem S1x1x12 .f32).view
/-- One staging buffer of output window 5, through which its contents are stated. -/
abbrev VO0_5 : View sig .tc .vmem S1x1x12 .f32 := (Memref.whole cc0_stg5_0 : Memref sig .tc .vmem S1x1x12 .f32).view
abbrev ms0_0 (t : Fin cfg0.N) : Memref sig .tc .vmem S2x12x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x12 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x12 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x12 .f32 := win0_5.stage (cfg0.slots t 5)
abbrev hs0_5 (t : Fin cfg0.N) : (ms0_5 t).IsWhole := hstage0_5 ((cfg0.slots t 5).cast nbuf0_5)

/-- The region's invariant when the kernel has no scratch: the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.Kernel.Fr

end
-- ==== Proof.KRunA.lean ====
/-
  The kernel body run once, at a point where its conditional is taken (the first point of each half of the batch: the five accumulators are reset, then the block's statistics are folded in):
  from the input block in its staging buffer and the five output buffers at any contents, the body runs to
  the end leaving the input as it was and each output buffer with the stores the run found written into it.
-/
import proofs.«170440_j6811818131595_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output buffer ends with in this case, with the proof that the body runs to them. -/
noncomputable def kernelRun0_A (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Fr

end
-- ==== Proof.KRunB.lean ====
/-
  The kernel body run once, at a point where its conditional is not taken (a later point of a half: the block's statistics are folded into the accumulators as the point before left them):
  from the input block in its staging buffer and the five output buffers at their running contents, the body runs to
  the end leaving the input as it was and each output buffer with the stores the run found written into it.
-/
import proofs.«170440_j6811818131595_2_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output buffer ends with in this case, with the proof that the body runs to them. -/
noncomputable def kernelRun0_B (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Fr

end
-- ==== Proof.KFrame.lean ====
/-
  The frame of the program: what each of the five output buffers holds after the body at each grid point — at the
  first point of a half of the batch the body's result from fresh accumulators, at a later point its result from what
  the point before left (the buffers are not written back in between) —, the proof data of the region built from it,
  the body's obligation at every point, the run of the whole program (the region, then the host operations after it)
  and the statement that the seven argument arrays end unchanged.
-/
import proofs.«170440_j6811818131595_2_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's stores into output 1 cover its block. -/
theorem cover0_A_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).1, y ∈ pc.1.set :=
  View.cover_of_tiledL (kernelRun0_A c i arg2 harg2 arg3 harg3 arg4 harg4 arg5 harg5 arg6 harg6 arg7 harg7 hc0 x0).1 S1x1x12.size (by sl_kernel_rfl) y

/-- What case A leaves in output 1's staging buffer. -/
def out0_A_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_1.read (Elt F) (VO0_1.writes (Elt F) VO0_1.junk (kernelRun0_A c i arg2 harg2 arg3 harg3 arg4 harg4 arg5 harg5 arg6 harg6 arg7 harg7 hc0 x0).1)

/-- Case A's stores into output 2 cover its block. -/
theorem cover0_A_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.1, y ∈ pc.1.set :=
  View.cover_of_tiledL (kernelRun0_A c i arg2 harg2 arg3 harg3 arg4 harg4 arg5 harg5 arg6 harg6 arg7 harg7 hc0 x0).2.1 S1x1x12.size (by sl_kernel_rfl) y

/-- What case A leaves in output 2's staging buffer. -/
def out0_A_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_2.read (Elt F) (VO0_2.writes (Elt F) VO0_2.junk (kernelRun0_A c i arg2 harg2 arg3 harg3 arg4 harg4 arg5 harg5 arg6 harg6 arg7 harg7 hc0 x0).2.1)

/-- Case A's stores into output 3 cover its block. -/
theorem cover0_A_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.1, y ∈ pc.1.set :=
  View.cover_of_tiledL (kernelRun0_A c i arg2 harg2 arg3 harg3 arg4 harg4 arg5 harg5 arg6 harg6 arg7 harg7 hc0 x0).2.2.1 S1x1x12.size (by sl_kernel_rfl) y

/-- What case A leaves in output 3's staging buffer. -/
def out0_A_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_3.read (Elt F) (VO0_3.writes (Elt F) VO0_3.junk (kernelRun0_A c i arg2 harg2 arg3 harg3 arg4 harg4 arg5 harg5 arg6 harg6 arg7 harg7 hc0 x0).2.2.1)

/-- Case A's stores into output 4 cover its block. -/
theorem cover0_A_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.2.1, y ∈ pc.1.set :=
  View.cover_of_tiledL (kernelRun0_A c i arg2 harg2 arg3 harg3 arg4 harg4 arg5 harg5 arg6 harg6 arg7 harg7 hc0 x0).2.2.2.1 S1x1x12.size (by sl_kernel_rfl) y

/-- What case A leaves in output 4's staging buffer. -/
def out0_A_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_4.read (Elt F) (VO0_4.writes (Elt F) VO0_4.junk (kernelRun0_A c i arg2 harg2 arg3 harg3 arg4 harg4 arg5 harg5 arg6 harg6 arg7 harg7 hc0 x0).2.2.2.1)

/-- Case A's stores into output 5 cover its block. -/
theorem cover0_A_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.2.2.1, y ∈ pc.1.set :=
  View.cover_of_tiledL (kernelRun0_A c i arg2 harg2 arg3 harg3 arg4 harg4 arg5 harg5 arg6 harg6 arg7 harg7 hc0 x0).2.2.2.2.1 S1x1x12.size (by sl_kernel_rfl) y

/-- What case A leaves in output 5's staging buffer. -/
def out0_A_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_5.read (Elt F) (VO0_5.writes (Elt F) VO0_5.junk (kernelRun0_A c i arg2 harg2 arg3 harg3 arg4 harg4 arg5 harg5 arg6 harg6 arg7 harg7 hc0 x0).2.2.2.2.1)

/-- Case B's stores into output 1 cover its block. -/
theorem cover0_B_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).1, y ∈ pc.1.set :=
  View.cover_of_tiledL (kernelRun0_B c i arg2 harg2 arg3 harg3 arg4 harg4 arg5 harg5 arg6 harg6 arg7 harg7 hc0 x0 xo1 xo2 xo3 xo4 xo5).1 S1x1x12.size (by sl_kernel_rfl) y

/-- What case B leaves in output 1's staging buffer. -/
def out0_B_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_1.read (Elt F) (VO0_1.writes (Elt F) VO0_1.junk (kernelRun0_B c i arg2 harg2 arg3 harg3 arg4 harg4 arg5 harg5 arg6 harg6 arg7 harg7 hc0 x0 xo1 xo2 xo3 xo4 xo5).1)

/-- Case B's stores into output 2 cover its block. -/
theorem cover0_B_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.1, y ∈ pc.1.set :=
  View.cover_of_tiledL (kernelRun0_B c i arg2 harg2 arg3 harg3 arg4 harg4 arg5 harg5 arg6 harg6 arg7 harg7 hc0 x0 xo1 xo2 xo3 xo4 xo5).2.1 S1x1x12.size (by sl_kernel_rfl) y

/-- What case B leaves in output 2's staging buffer. -/
def out0_B_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_2.read (Elt F) (VO0_2.writes (Elt F) VO0_2.junk (kernelRun0_B c i arg2 harg2 arg3 harg3 arg4 harg4 arg5 harg5 arg6 harg6 arg7 harg7 hc0 x0 xo1 xo2 xo3 xo4 xo5).2.1)

/-- Case B's stores into output 3 cover its block. -/
theorem cover0_B_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.1, y ∈ pc.1.set :=
  View.cover_of_tiledL (kernelRun0_B c i arg2 harg2 arg3 harg3 arg4 harg4 arg5 harg5 arg6 harg6 arg7 harg7 hc0 x0 xo1 xo2 xo3 xo4 xo5).2.2.1 S1x1x12.size (by sl_kernel_rfl) y

/-- What case B leaves in output 3's staging buffer. -/
def out0_B_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_3.read (Elt F) (VO0_3.writes (Elt F) VO0_3.junk (kernelRun0_B c i arg2 harg2 arg3 harg3 arg4 harg4 arg5 harg5 arg6 harg6 arg7 harg7 hc0 x0 xo1 xo2 xo3 xo4 xo5).2.2.1)

/-- Case B's stores into output 4 cover its block. -/
theorem cover0_B_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.1 S1x1x12.size (by sl_kernel_rfl) y

/-- What case B leaves in output 4's staging buffer. -/
def out0_B_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_4.read (Elt F) (VO0_4.writes (Elt F) VO0_4.junk (kernelRun0_B c i arg2 harg2 arg3 harg3 arg4 harg4 arg5 harg5 arg6 harg6 arg7 harg7 hc0 x0 xo1 xo2 xo3 xo4 xo5).2.2.2.1)

/-- Case B's stores into output 5 cover its block. -/
theorem cover0_B_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.2.1 S1x1x12.size (by sl_kernel_rfl) y

/-- What case B leaves in output 5's staging buffer. -/
def out0_B_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_5.read (Elt F) (VO0_5.writes (Elt F) VO0_5.junk (kernelRun0_B c i arg2 harg2 arg3 harg3 arg4 harg4 arg5 harg5 arg6 harg6 arg7 harg7 hc0 x0 xo1 xo2 xo3 xo4 xo5).2.2.2.2.1)

/-! ## What the outputs hold after each point -/

/-- What the five outputs' staging buffers hold after the body at position `n`. -/
def outsAt0 (c : Dev nD) : (n : ℕ) → n < cfg0.N → Vec F S1x1x12 .f32 × Vec F S1x1x12 .f32 × Vec F S1x1x12 .f32 × Vec F S1x1x12 .f32 × Vec F S1x1x12 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 8 = 0) :
    outsAt0 m c t.val t.isLt = (out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
    | ⟨4, _⟩ => (outsAt0 m c t.val t.isLt).2.2.2.1
    | ⟨5, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]
theorem after0_4 (c : Dev nD) (t : Fin cfg0.N) : (dats m 0 c).after 4 t = (outsAt0 m c t.val t.isLt).2.2.2.1 := by dsimp only [dats]
theorem after0_5 (c : Dev nD) (t : Fin cfg0.N) : (dats m 0 c).after 5 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
/-- At a later point of a half output 1's buffer holds what the body left at the point before (not written back between). -/
theorem before0_1_B (c : Dev nD) (t : Fin cfg0.N) (h0 : ¬t.val % 8 = 0) (d) :
    (dats m 0 c).before 1 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]
/-- At a later point of a half output 2's buffer holds what the body left at the point before (not written back between). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later point of a half output 3's buffer holds what the body left at the point before (not written back between). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point of a half output 4's buffer holds what the body left at the point before (not written back between). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later point of a half output 5's buffer holds what the body left at the point before (not written back between). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 8 = 0
  · rw [outsAt0_A m c t h0]
    (try dsimp only)
    unfold out0_A_1 out0_A_2 out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t)).2.2.2.2.2 Set.univ _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _ _ _)
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _)
  · rw [outsAt0_B m c t h0]
    simp only [before0_1_B m c t h0, before0_2_B m c t h0, before0_3_B m c t h0, before0_4_B m c t h0, before0_5_B m c t h0]
    (try dsimp only)
    unfold out0_B_1 out0_B_2 out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what
    the proof data say and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Fr

end
-- ==== Proof.KTail.lean ====
/-
  The argument arrays after the host operations that follow the region: none of the eighty-three operations writes an
  argument (each writes its own result buffer only), so each argument that bypasses the region ends at its launch
  contents; with the input array, which the region only reads, this turns a run of the program into the frame statement.
-/
import proofs.«170440_j6811818131595_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem hostOps1_keepsArgs : ∀ op ∈ (hostOps1 : List (HloOp τ sig (Elt F))), ∀ b ∈ [main_arg1, main_arg2, main_arg3, main_arg4, main_arg5, main_arg6], Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_1_keepsArgs : ∀ op ∈ (hostOps1_1 : List (HloOp τ sig (Elt F))), ∀ b ∈ [main_arg1, main_arg2, main_arg3, main_arg4, main_arg5, main_arg6], Proc.devRef (τ := τ) .tc b ∉ op.writes := by
  intro op hop
  simp only [hostOps1_1, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_2_keepsArgs : ∀ op ∈ (hostOps1_2 : List (HloOp τ sig (Elt F))), ∀ b ∈ [main_arg1, main_arg2, main_arg3, main_arg4, main_arg5, main_arg6], Proc.devRef (τ := τ) .tc b ∉ op.writes := by
  intro op hop
  simp only [hostOps1_2, List.mem_cons, List.mem_nil_iff, or_false] at hop
  rcases hop with rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_3_keepsArgs : ∀ op ∈ (hostOps1_3 : List (HloOp τ sig (Elt F))), ∀ b ∈ [main_arg1, main_arg2, main_arg3, main_arg4, main_arg5, main_arg6], Proc.devRef (τ := τ) .tc b ∉ op.writes := by
  intro op hop
  simp only [hostOps1_3, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_4_keepsArgs : ∀ op ∈ (hostOps1_4 : List (HloOp τ sig (Elt F))), ∀ b ∈ [main_arg1, main_arg2, main_arg3, main_arg4, main_arg5, main_arg6], Proc.devRef (τ := τ) .tc b ∉ op.writes := by
  intro op hop
  simp only [hostOps1_4, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_5_keepsArgs : ∀ op ∈ (hostOps1_5 : List (HloOp τ sig (Elt F))), ∀ b ∈ [main_arg1, main_arg2, main_arg3, main_arg4, main_arg5, main_arg6], Proc.devRef (τ := τ) .tc b ∉ op.writes := by
  intro op hop
  simp only [hostOps1_5, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_6_keepsArgs : ∀ op ∈ (hostOps1_6 : List (HloOp τ sig (Elt F))), ∀ b ∈ [main_arg1, main_arg2, main_arg3, main_arg4, main_arg5, main_arg6], Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_7_keepsArgs : ∀ op ∈ (hostOps1_7 : List (HloOp τ sig (Elt F))), ∀ b ∈ [main_arg1, main_arg2, main_arg3, main_arg4, main_arg5, main_arg6], Proc.devRef (τ := τ) .tc b ∉ op.writes := by
  intro op hop
  simp only [hostOps1_7, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_8_keepsArgs : ∀ op ∈ (hostOps1_8 : List (HloOp τ sig (Elt F))), ∀ b ∈ [main_arg1, main_arg2, main_arg3, main_arg4, main_arg5, main_arg6], Proc.devRef (τ := τ) .tc b ∉ op.writes := by
  intro op hop
  simp only [hostOps1_8, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_9_keepsArgs : ∀ op ∈ (hostOps1_9 : List (HloOp τ sig (Elt F))), ∀ b ∈ [main_arg1, main_arg2, main_arg3, main_arg4, main_arg5, main_arg6], Proc.devRef (τ := τ) .tc b ∉ op.writes := by
  intro op hop
  simp only [hostOps1_9, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_10_keepsArgs : ∀ op ∈ (hostOps1_10 : List (HloOp τ sig (Elt F))), ∀ b ∈ [main_arg1, main_arg2, main_arg3, main_arg4, main_arg5, main_arg6], Proc.devRef (τ := τ) .tc b ∉ op.writes := by
  intro op hop
  simp only [hostOps1_10, List.mem_cons, List.mem_nil_iff, or_false] at hop
  rcases hop with rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_11_keepsArgs : ∀ op ∈ (hostOps1_11 : List (HloOp τ sig (Elt F))), ∀ b ∈ [main_arg1, main_arg2, main_arg3, main_arg4, main_arg5, main_arg6], Proc.devRef (τ := τ) .tc b ∉ op.writes := by
  intro op hop
  simp only [hostOps1_11, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_12_keepsArgs : ∀ op ∈ (hostOps1_12 : List (HloOp τ sig (Elt F))), ∀ b ∈ [main_arg1, main_arg2, main_arg3, main_arg4, main_arg5, main_arg6], Proc.devRef (τ := τ) .tc b ∉ op.writes := by
  intro op hop
  simp only [hostOps1_12, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)

/-- No host operation after the region writes an argument that bypasses the region: it ends as launched. -/
theorem W_arg (dats : (p : Fin _) → (c : Dev nD) → Dat τ (Elt F) Unit ℕ (UR sig nD τ) ℕ (cfgs p) c) (c : Dev nD)
    (b : Ref sig .tc) (hb : b ∈ [main_arg1, main_arg2, main_arg3, main_arg4, main_arg5, main_arg6]) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      simp only [List.mem_cons, List.mem_nil_iff, or_false] at hops
      rcases hops with rfl | rfl | rfl | rfl | rfl | rfl | rfl | rfl | rfl | rfl | rfl | rfl | rfl
      · exact hostOps1_keepsArgs op hop' b hb
      · exact hostOps1_1_keepsArgs op hop' b hb
      · exact hostOps1_2_keepsArgs op hop' b hb
      · exact hostOps1_3_keepsArgs op hop' b hb
      · exact hostOps1_4_keepsArgs op hop' b hb
      · exact hostOps1_5_keepsArgs op hop' b hb
      · exact hostOps1_6_keepsArgs op hop' b hb
      · exact hostOps1_7_keepsArgs op hop' b hb
      · exact hostOps1_8_keepsArgs op hop' b hb
      · exact hostOps1_9_keepsArgs op hop' b hb
      · exact hostOps1_10_keepsArgs op hop' b hb
      · exact hostOps1_11_keepsArgs op hop' b hb
      · exact hostOps1_12_keepsArgs op hop' b hb),
    Pipeline.withArrays_of_ne _ c (V0 m c) _ b (by
      simp only [List.mem_cons, List.mem_nil_iff, or_false] at hb
      rcases hb with rfl | rfl | rfl | rfl | rfl | rfl <;> decide)]
  rfl

/-- The frame statement from a run of the region followed by the later operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_arg m dats c main_arg1 (by simp)),
    ((h c).2 main_arg2 (Pipeline.mem_restRefs_of main_arg2 (by decide) (by decide))).trans (W_arg m dats c main_arg2 (by simp)),
    ((h c).2 main_arg3 (Pipeline.mem_restRefs_of main_arg3 (by decide) (by decide))).trans (W_arg m dats c main_arg3 (by simp)),
    ((h c).2 main_arg4 (Pipeline.mem_restRefs_of main_arg4 (by decide) (by decide))).trans (W_arg m dats c main_arg4 (by simp)),
    ((h c).2 main_arg5 (Pipeline.mem_restRefs_of main_arg5 (by decide) (by decide))).trans (W_arg m dats c main_arg5 (by simp)),
    ((h c).2 main_arg6 (Pipeline.mem_restRefs_of main_arg6 (by decide) (by decide))).trans (W_arg m dats c main_arg6 (by simp))⟩) h

end Cert.Kernel.Fr

end
-- ==== Proof.KIBase.lean ====
/-
  The host side of the program around its one pipelined region: the buffers as the region finds them (the program
  starts with the region, so they are the launch contents), the eighty-three host operations after the region as
  thirteen stretches that touch only unscoped buffers, allocate nothing and write none of the region's six arrays,
  and the frame statement read off a run of the region followed by those stretches. Also what the body's runs are
  stated over: the one branch condition of the body (the second grid coordinate is 0, that is, the point's number
  is a multiple of 8), each window's current staging buffer at a point, and the input window's block at a point.
-/
import proofs.«170440_j6811818131595_2_alg».proof.Proof.Gen.KernelIdeal.Launch
import proofs.«170440_j6811818131595_2_alg».proof.Proof.Gen.KernelIdeal.Skeleton
import proofs.«170440_j6811818131595_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- The program is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
/-- And write no array of the region (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The input window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points whose number is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers at a point -/

/-- One staging buffer of output window 1, through which its contents are stated. -/
abbrev VO0_1 : View sig .tc .vmem S1x1x12 .f32 := (Memref.whole cc0_stg1_0 : Memref sig .tc .vmem S1x1x12 .f32).view
/-- One staging buffer of output window 2, through which its contents are stated. -/
abbrev VO0_2 : View sig .tc .vmem S1x1x12 .f32 := (Memref.whole cc0_stg2_0 : Memref sig .tc .vmem S1x1x12 .f32).view
/-- One staging buffer of output window 3, through which its contents are stated. -/
abbrev VO0_3 : View sig .tc .vmem S1x1x12 .f32 := (Memref.whole cc0_stg3_0 : Memref sig .tc .vmem S1x1x12 .f32).view
/-- One staging buffer of output window 4, through which its contents are stated. -/
abbrev VO0_4 : View sig .tc .vmem S1x1x12 .f32 := (Memref.whole cc0_stg4_0 : Memref sig .tc .vmem S1x1x12 .f32).view
/-- One staging buffer of output window 5, through which its contents are stated. -/
abbrev VO0_5 : View sig .tc .vmem S1x1x12 .f32 := (Memref.whole cc0_stg5_0 : Memref sig .tc .vmem S1x1x12 .f32).view
abbrev ms0_0 (t : Fin cfg0.N) : Memref sig .tc .vmem S2x12x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x12 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x12 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x12 .f32 := win0_5.stage (cfg0.slots t 5)
abbrev hs0_5 (t : Fin cfg0.N) : (ms0_5 t).IsWhole := hstage0_5 ((cfg0.slots t 5).cast nbuf0_5)

/-- The region's invariant when the kernel has no scratch: the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.KernelIdeal.Fr

end
-- ==== Proof.KIRunA.lean ====
/-
  The kernel body run once, at a point where its conditional is taken (the first point of each half of the batch: the five accumulators are reset, then the block's statistics are folded in):
  from the input block in its staging buffer and the five output buffers at any contents, the body runs to
  the end leaving the input as it was and each output buffer with the stores the run found written into it.
-/
import proofs.«170440_j6811818131595_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output buffer ends with in this case, with the proof that the body runs to them. -/
noncomputable def kernelRun0_A (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Fr

end
-- ==== Proof.KIRunB.lean ====
/-
  The kernel body run once, at a point where its conditional is not taken (a later point of a half: the block's statistics are folded into the accumulators as the point before left them):
  from the input block in its staging buffer and the five output buffers at their running contents, the body runs to
  the end leaving the input as it was and each output buffer with the stores the run found written into it.
-/
import proofs.«170440_j6811818131595_2_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output buffer ends with in this case, with the proof that the body runs to them. -/
noncomputable def kernelRun0_B (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Fr

end
-- ==== Proof.KIFrame.lean ====
/-
  The frame of the program: what each of the five output buffers holds after the body at each grid point — at the
  first point of a half of the batch the body's result from fresh accumulators, at a later point its result from what
  the point before left (the buffers are not written back in between) —, the proof data of the region built from it,
  the body's obligation at every point, the run of the whole program (the region, then the host operations after it)
  and the statement that the seven argument arrays end unchanged.
-/
import proofs.«170440_j6811818131595_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's stores into output 1 cover its block. -/
theorem cover0_A_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).1, y ∈ pc.1.set :=
  View.cover_of_tiledL (kernelRun0_A c i arg2 harg2 arg3 harg3 arg4 harg4 arg5 harg5 arg6 harg6 arg7 harg7 hc0 x0).1 S1x1x12.size (by sl_kernel_rfl) y

/-- What case A leaves in output 1's staging buffer. -/
def out0_A_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_1.read (Elt F) (VO0_1.writes (Elt F) VO0_1.junk (kernelRun0_A c i arg2 harg2 arg3 harg3 arg4 harg4 arg5 harg5 arg6 harg6 arg7 harg7 hc0 x0).1)

/-- Case A's stores into output 2 cover its block. -/
theorem cover0_A_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.1, y ∈ pc.1.set :=
  View.cover_of_tiledL (kernelRun0_A c i arg2 harg2 arg3 harg3 arg4 harg4 arg5 harg5 arg6 harg6 arg7 harg7 hc0 x0).2.1 S1x1x12.size (by sl_kernel_rfl) y

/-- What case A leaves in output 2's staging buffer. -/
def out0_A_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_2.read (Elt F) (VO0_2.writes (Elt F) VO0_2.junk (kernelRun0_A c i arg2 harg2 arg3 harg3 arg4 harg4 arg5 harg5 arg6 harg6 arg7 harg7 hc0 x0).2.1)

/-- Case A's stores into output 3 cover its block. -/
theorem cover0_A_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.1, y ∈ pc.1.set :=
  View.cover_of_tiledL (kernelRun0_A c i arg2 harg2 arg3 harg3 arg4 harg4 arg5 harg5 arg6 harg6 arg7 harg7 hc0 x0).2.2.1 S1x1x12.size (by sl_kernel_rfl) y

/-- What case A leaves in output 3's staging buffer. -/
def out0_A_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_3.read (Elt F) (VO0_3.writes (Elt F) VO0_3.junk (kernelRun0_A c i arg2 harg2 arg3 harg3 arg4 harg4 arg5 harg5 arg6 harg6 arg7 harg7 hc0 x0).2.2.1)

/-- Case A's stores into output 4 cover its block. -/
theorem cover0_A_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.2.1, y ∈ pc.1.set :=
  View.cover_of_tiledL (kernelRun0_A c i arg2 harg2 arg3 harg3 arg4 harg4 arg5 harg5 arg6 harg6 arg7 harg7 hc0 x0).2.2.2.1 S1x1x12.size (by sl_kernel_rfl) y

/-- What case A leaves in output 4's staging buffer. -/
def out0_A_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_4.read (Elt F) (VO0_4.writes (Elt F) VO0_4.junk (kernelRun0_A c i arg2 harg2 arg3 harg3 arg4 harg4 arg5 harg5 arg6 harg6 arg7 harg7 hc0 x0).2.2.2.1)

/-- Case A's stores into output 5 cover its block. -/
theorem cover0_A_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) (y : S1x1x12.Idx) :
    ∃ pc ∈ (kernelRun0_A c i arg2 harg2 arg3 harg3 arg4 harg4 arg5 harg5 arg6 harg6 arg7 harg7 hc0 x0).2.2.2.2.1, y ∈ pc.1.set :=
  View.cover_of_tiledL (kernelRun0_A c i arg2 harg2 arg3 harg3 arg4 harg4 arg5 harg5 arg6 harg6 arg7 harg7 hc0 x0).2.2.2.2.1 S1x1x12.size (by sl_kernel_rfl) y

/-- What case A leaves in output 5's staging buffer. -/
def out0_A_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S2x12x256x256 .f32) : Vec F S1x1x12 .f32 :=
  VO0_5.read (Elt F) (VO0_5.writes (Elt F) VO0_5.junk (kernelRun0_A c i arg2 harg2 arg3 harg3 arg4 harg4 arg5 harg5 arg6 harg6 arg7 harg7 hc0 x0).2.2.2.2.1)

/-- Case B's stores into output 1 cover its block. -/
theorem cover0_B_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).1, y ∈ pc.1.set :=
  View.cover_of_tiledL (kernelRun0_B c i arg2 harg2 arg3 harg3 arg4 harg4 arg5 harg5 arg6 harg6 arg7 harg7 hc0 x0 xo1 xo2 xo3 xo4 xo5).1 S1x1x12.size (by sl_kernel_rfl) y

/-- What case B leaves in output 1's staging buffer. -/
def out0_B_1 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_1.read (Elt F) (VO0_1.writes (Elt F) VO0_1.junk (kernelRun0_B c i arg2 harg2 arg3 harg3 arg4 harg4 arg5 harg5 arg6 harg6 arg7 harg7 hc0 x0 xo1 xo2 xo3 xo4 xo5).1)

/-- Case B's stores into output 2 cover its block. -/
theorem cover0_B_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.1, y ∈ pc.1.set :=
  View.cover_of_tiledL (kernelRun0_B c i arg2 harg2 arg3 harg3 arg4 harg4 arg5 harg5 arg6 harg6 arg7 harg7 hc0 x0 xo1 xo2 xo3 xo4 xo5).2.1 S1x1x12.size (by sl_kernel_rfl) y

/-- What case B leaves in output 2's staging buffer. -/
def out0_B_2 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_2.read (Elt F) (VO0_2.writes (Elt F) VO0_2.junk (kernelRun0_B c i arg2 harg2 arg3 harg3 arg4 harg4 arg5 harg5 arg6 harg6 arg7 harg7 hc0 x0 xo1 xo2 xo3 xo4 xo5).2.1)

/-- Case B's stores into output 3 cover its block. -/
theorem cover0_B_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.1, y ∈ pc.1.set :=
  View.cover_of_tiledL (kernelRun0_B c i arg2 harg2 arg3 harg3 arg4 harg4 arg5 harg5 arg6 harg6 arg7 harg7 hc0 x0 xo1 xo2 xo3 xo4 xo5).2.2.1 S1x1x12.size (by sl_kernel_rfl) y

/-- What case B leaves in output 3's staging buffer. -/
def out0_B_3 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_3.read (Elt F) (VO0_3.writes (Elt F) VO0_3.junk (kernelRun0_B c i arg2 harg2 arg3 harg3 arg4 harg4 arg5 harg5 arg6 harg6 arg7 harg7 hc0 x0 xo1 xo2 xo3 xo4 xo5).2.2.1)

/-- Case B's stores into output 4 cover its block. -/
theorem cover0_B_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.1 S1x1x12.size (by sl_kernel_rfl) y

/-- What case B leaves in output 4's staging buffer. -/
def out0_B_4 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_4.read (Elt F) (VO0_4.writes (Elt F) VO0_4.junk (kernelRun0_B c i arg2 harg2 arg3 harg3 arg4 harg4 arg5 harg5 arg6 harg6 arg7 harg7 hc0 x0 xo1 xo2 xo3 xo4 xo5).2.2.2.1)

/-- Case B's stores into output 5 cover its block. -/
theorem cover0_B_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.2.1 S1x1x12.size (by sl_kernel_rfl) y

/-- What case B leaves in output 5's staging buffer. -/
def out0_B_5 (c : Dev nD) (i : grid0.Coords) (arg2 : Memref sig .tc .vmem S2x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S2x12x256x256 .f32) (xo1 : Vec F S1x1x12 .f32) (xo2 : Vec F S1x1x12 .f32) (xo3 : Vec F S1x1x12 .f32) (xo4 : Vec F S1x1x12 .f32) (xo5 : Vec F S1x1x12 .f32) : Vec F S1x1x12 .f32 :=
  VO0_5.read (Elt F) (VO0_5.writes (Elt F) VO0_5.junk (kernelRun0_B c i arg2 harg2 arg3 harg3 arg4 harg4 arg5 harg5 arg6 harg6 arg7 harg7 hc0 x0 xo1 xo2 xo3 xo4 xo5).2.2.2.2.1)

/-! ## What the outputs hold after each point -/

/-- What the five outputs' staging buffers hold after the body at position `n`. -/
def outsAt0 (c : Dev nD) : (n : ℕ) → n < cfg0.N → Vec F S1x1x12 .f32 × Vec F S1x1x12 .f32 × Vec F S1x1x12 .f32 × Vec F S1x1x12 .f32 × Vec F S1x1x12 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 8 = 0) :
    outsAt0 m c t.val t.isLt = (out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
    | ⟨4, _⟩ => (outsAt0 m c t.val t.isLt).2.2.2.1
    | ⟨5, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]
theorem after0_4 (c : Dev nD) (t : Fin cfg0.N) : (dats m 0 c).after 4 t = (outsAt0 m c t.val t.isLt).2.2.2.1 := by dsimp only [dats]
theorem after0_5 (c : Dev nD) (t : Fin cfg0.N) : (dats m 0 c).after 5 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
/-- At a later point of a half output 1's buffer holds what the body left at the point before (not written back between). -/
theorem before0_1_B (c : Dev nD) (t : Fin cfg0.N) (h0 : ¬t.val % 8 = 0) (d) :
    (dats m 0 c).before 1 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]
/-- At a later point of a half output 2's buffer holds what the body left at the point before (not written back between). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later point of a half output 3's buffer holds what the body left at the point before (not written back between). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point of a half output 4's buffer holds what the body left at the point before (not written back between). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later point of a half output 5's buffer holds what the body left at the point before (not written back between). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 8 = 0
  · rw [outsAt0_A m c t h0]
    (try dsimp only)
    unfold out0_A_1 out0_A_2 out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t)).2.2.2.2.2 Set.univ _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _ _ _)
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _)
  · rw [outsAt0_B m c t h0]
    simp only [before0_1_B m c t h0, before0_2_B m c t h0, before0_3_B m c t h0, before0_4_B m c t h0, before0_5_B m c t h0]
    (try dsimp only)
    unfold out0_B_1 out0_B_2 out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what
    the proof data say and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Fr

end
-- ==== Proof.KITail.lean ====
/-
  The argument arrays after the host operations that follow the region: none of the eighty-three operations writes an
  argument (each writes its own result buffer only), so each argument that bypasses the region ends at its launch
  contents; with the input array, which the region only reads, this turns a run of the program into the frame statement.
-/
import proofs.«170440_j6811818131595_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem hostOps1_keepsArgs : ∀ op ∈ (hostOps1 : List (HloOp τ sig (Elt F))), ∀ b ∈ [main_arg1, main_arg2, main_arg3, main_arg4, main_arg5, main_arg6], Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_1_keepsArgs : ∀ op ∈ (hostOps1_1 : List (HloOp τ sig (Elt F))), ∀ b ∈ [main_arg1, main_arg2, main_arg3, main_arg4, main_arg5, main_arg6], Proc.devRef (τ := τ) .tc b ∉ op.writes := by
  intro op hop
  simp only [hostOps1_1, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_2_keepsArgs : ∀ op ∈ (hostOps1_2 : List (HloOp τ sig (Elt F))), ∀ b ∈ [main_arg1, main_arg2, main_arg3, main_arg4, main_arg5, main_arg6], Proc.devRef (τ := τ) .tc b ∉ op.writes := by
  intro op hop
  simp only [hostOps1_2, List.mem_cons, List.mem_nil_iff, or_false] at hop
  rcases hop with rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_3_keepsArgs : ∀ op ∈ (hostOps1_3 : List (HloOp τ sig (Elt F))), ∀ b ∈ [main_arg1, main_arg2, main_arg3, main_arg4, main_arg5, main_arg6], Proc.devRef (τ := τ) .tc b ∉ op.writes := by
  intro op hop
  simp only [hostOps1_3, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_4_keepsArgs : ∀ op ∈ (hostOps1_4 : List (HloOp τ sig (Elt F))), ∀ b ∈ [main_arg1, main_arg2, main_arg3, main_arg4, main_arg5, main_arg6], Proc.devRef (τ := τ) .tc b ∉ op.writes := by
  intro op hop
  simp only [hostOps1_4, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_5_keepsArgs : ∀ op ∈ (hostOps1_5 : List (HloOp τ sig (Elt F))), ∀ b ∈ [main_arg1, main_arg2, main_arg3, main_arg4, main_arg5, main_arg6], Proc.devRef (τ := τ) .tc b ∉ op.writes := by
  intro op hop
  simp only [hostOps1_5, List.mem_cons, List.mem_nil_iff, or_false] at hop
  rcases hop with rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_6_keepsArgs : ∀ op ∈ (hostOps1_6 : List (HloOp τ sig (Elt F))), ∀ b ∈ [main_arg1, main_arg2, main_arg3, main_arg4, main_arg5, main_arg6], Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_7_keepsArgs : ∀ op ∈ (hostOps1_7 : List (HloOp τ sig (Elt F))), ∀ b ∈ [main_arg1, main_arg2, main_arg3, main_arg4, main_arg5, main_arg6], Proc.devRef (τ := τ) .tc b ∉ op.writes := by
  intro op hop
  simp only [hostOps1_7, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_8_keepsArgs : ∀ op ∈ (hostOps1_8 : List (HloOp τ sig (Elt F))), ∀ b ∈ [main_arg1, main_arg2, main_arg3, main_arg4, main_arg5, main_arg6], Proc.devRef (τ := τ) .tc b ∉ op.writes := by
  intro op hop
  simp only [hostOps1_8, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_9_keepsArgs : ∀ op ∈ (hostOps1_9 : List (HloOp τ sig (Elt F))), ∀ b ∈ [main_arg1, main_arg2, main_arg3, main_arg4, main_arg5, main_arg6], Proc.devRef (τ := τ) .tc b ∉ op.writes := by
  intro op hop
  simp only [hostOps1_9, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_10_keepsArgs : ∀ op ∈ (hostOps1_10 : List (HloOp τ sig (Elt F))), ∀ b ∈ [main_arg1, main_arg2, main_arg3, main_arg4, main_arg5, main_arg6], Proc.devRef (τ := τ) .tc b ∉ op.writes := by
  intro op hop
  simp only [hostOps1_10, List.mem_cons, List.mem_nil_iff, or_false] at hop
  rcases hop with rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_11_keepsArgs : ∀ op ∈ (hostOps1_11 : List (HloOp τ sig (Elt F))), ∀ b ∈ [main_arg1, main_arg2, main_arg3, main_arg4, main_arg5, main_arg6], Proc.devRef (τ := τ) .tc b ∉ op.writes := by
  intro op hop
  simp only [hostOps1_11, List.mem_cons, List.mem_nil_iff, or_false] at hop
  rcases hop with rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)
theorem hostOps1_12_keepsArgs : ∀ op ∈ (hostOps1_12 : List (HloOp τ sig (Elt F))), ∀ b ∈ [main_arg1, main_arg2, main_arg3, main_arg4, main_arg5, main_arg6], Proc.devRef (τ := τ) .tc b ∉ op.writes := by
  intro op hop
  simp only [hostOps1_12, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl | rfl | rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide)

/-- No host operation after the region writes an argument that bypasses the region: it ends as launched. -/
theorem W_arg (dats : (p : Fin _) → (c : Dev nD) → Dat τ (Elt F) Unit ℕ (UR sig nD τ) ℕ (cfgs p) c) (c : Dev nD)
    (b : Ref sig .tc) (hb : b ∈ [main_arg1, main_arg2, main_arg3, main_arg4, main_arg5, main_arg6]) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      simp only [List.mem_cons, List.mem_nil_iff, or_false] at hops
      rcases hops with rfl | rfl | rfl | rfl | rfl | rfl | rfl | rfl | rfl | rfl | rfl | rfl | rfl
      · exact hostOps1_keepsArgs op hop' b hb
      · exact hostOps1_1_keepsArgs op hop' b hb
      · exact hostOps1_2_keepsArgs op hop' b hb
      · exact hostOps1_3_keepsArgs op hop' b hb
      · exact hostOps1_4_keepsArgs op hop' b hb
      · exact hostOps1_5_keepsArgs op hop' b hb
      · exact hostOps1_6_keepsArgs op hop' b hb
      · exact hostOps1_7_keepsArgs op hop' b hb
      · exact hostOps1_8_keepsArgs op hop' b hb
      · exact hostOps1_9_keepsArgs op hop' b hb
      · exact hostOps1_10_keepsArgs op hop' b hb
      · exact hostOps1_11_keepsArgs op hop' b hb
      · exact hostOps1_12_keepsArgs op hop' b hb),
    Pipeline.withArrays_of_ne _ c (V0 m c) _ b (by
      simp only [List.mem_cons, List.mem_nil_iff, or_false] at hb
      rcases hb with rfl | rfl | rfl | rfl | rfl | rfl <;> decide)]
  rfl

/-- The frame statement from a run of the region followed by the later operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_arg m dats c main_arg1 (by simp)),
    ((h c).2 main_arg2 (Pipeline.mem_restRefs_of main_arg2 (by decide) (by decide))).trans (W_arg m dats c main_arg2 (by simp)),
    ((h c).2 main_arg3 (Pipeline.mem_restRefs_of main_arg3 (by decide) (by decide))).trans (W_arg m dats c main_arg3 (by simp)),
    ((h c).2 main_arg4 (Pipeline.mem_restRefs_of main_arg4 (by decide) (by decide))).trans (W_arg m dats c main_arg4 (by simp)),
    ((h c).2 main_arg5 (Pipeline.mem_restRefs_of main_arg5 (by decide) (by decide))).trans (W_arg m dats c main_arg5 (by simp)),
    ((h c).2 main_arg6 (Pipeline.mem_restRefs_of main_arg6 (by decide) (by decide))).trans (W_arg m dats c main_arg6 (by simp))⟩) h

end Cert.KernelIdeal.Fr

end
-- ==== Proof.StatsTail.lean ====
/-
  The running-statistics update both programs apply to the batch statistics: the batch mean and variance from the count,
  the sum and the sum of squares (with the count floored at 1, and 0 where the count is not positive, respectively not
  above 1), their merge into the running mean, variance, standard deviation and count by the parallel update rule, the
  running least and greatest value, and the six rows stacked. Stated once, as one function of the five batch statistics and
  the six running arrays, so that the two programs' results are compared by comparing the five statistics only.
-/
import Idealize.ShloMosaic.PureOps.Ideal
import Idealize.ShloMosaic.PureOps

noncomputable section

namespace Cert.Stats

open Idealize.ShloMosaic

abbrev T_ : Shape := ⟨0, ![]⟩
abbrev T12 : Shape := ⟨1, ![12]⟩
abbrev T1x12 : Shape := ⟨2, ![1, 12]⟩
abbrev T6x12 : Shape := ⟨2, ![6, 12]⟩

/-- The update: `n s ss lo hi` are the batch's count, sum, sum of squares, least and greatest value per channel;
    the other six are the running arrays. The shape facts are arguments (each program states its own). -/
def update (hb : T_.BroadcastsInDim T12 (![] : Fin 0 → Fin T12.rank))
    (hr : T12.BroadcastsInDim T1x12 (![1] : Fin 1 → Fin T1x12.rank))
    (hc : Shape.Concatenates [T1x12, T1x12, T1x12, T1x12, T1x12, T1x12] T6x12 0)
    (n s ss lo hi mean var std cnt minv maxv : FVec Ideal T12 .f32) : FVec Ideal T6x12 .f32 :=
  let one : FVec Ideal T12 .f32 := broadcastInDim T12 ![] hb (constant (F := Ideal) T_ .f32 0x3F800000#32)
  let zero : FVec Ideal T12 .f32 := broadcastInDim T12 ![] hb (constant (F := Ideal) T_ .f32 0x00000000#32)
  let eps : FVec Ideal T12 .f32 := broadcastInDim T12 ![] hb (constant (F := Ideal) T_ .f32 0x322BCC77#32)
  let nsafe := maximumf n one
  let pos := cmpf .ogt n zero
  let bmean := select pos (Host.divf s nsafe) zero
  let bvar := select (cmpf .ogt n one) (maximumf (subf (Host.divf ss nsafe) (mulf bmean bmean)) zero) zero
  let delta := subf bmean mean
  let denom := maximumf (addf cnt n) one
  let merged := addf mean (mulf delta (Host.divf n denom))
  let m2 := addf (addf (mulf var cnt) (mulf bvar n)) (Host.divf (mulf (mulf (mulf delta delta) cnt) n) denom)
  let newMean := select pos merged mean
  let newVar := select pos (Host.divf m2 denom) var
  let newStd := select pos (Host.sqrt (addf newVar eps)) std
  let newCnt := addf cnt n
  let newMin := minimumf minv lo
  let newMax := maximumf maxv hi
  concatenate T6x12 0 [⟨T1x12, broadcastInDim T1x12 ![1] hr newMean⟩, ⟨T1x12, broadcastInDim T1x12 ![1] hr newVar⟩,
    ⟨T1x12, broadcastInDim T1x12 ![1] hr newStd⟩, ⟨T1x12, broadcastInDim T1x12 ![1] hr newCnt⟩,
    ⟨T1x12, broadcastInDim T1x12 ![1] hr newMin⟩, ⟨T1x12, broadcastInDim T1x12 ![1] hr newMax⟩] hc

end Cert.Stats

end
-- ==== Proof.StatsRows.lean ====
/-
  The six rows of the running-statistics update, one function each (the new mean, variance, standard deviation, count,
  least and greatest value per channel), and the update as their stack.
-/
import proofs.«170440_j6811818131595_2_alg».proof.Proof.StatsTail

noncomputable section

namespace Cert.Stats

open Idealize.ShloMosaic

section
variable (hb : T_.BroadcastsInDim T12 (![] : Fin 0 → Fin T12.rank))
variable (n s ss lo hi mean var std cnt minv maxv : FVec Ideal T12 .f32)

def one : FVec Ideal T12 .f32 := broadcastInDim T12 ![] hb (constant (F := Ideal) T_ .f32 0x3F800000#32)
def zero : FVec Ideal T12 .f32 := broadcastInDim T12 ![] hb (constant (F := Ideal) T_ .f32 0x00000000#32)
def eps : FVec Ideal T12 .f32 := broadcastInDim T12 ![] hb (constant (F := Ideal) T_ .f32 0x322BCC77#32)
def bmean : FVec Ideal T12 .f32 := select (cmpf .ogt n (zero hb)) (Host.divf s (maximumf n (one hb))) (zero hb)
def bvar : FVec Ideal T12 .f32 :=
  select (cmpf .ogt n (one hb)) (maximumf (subf (Host.divf ss (maximumf n (one hb))) (mulf (bmean hb n s) (bmean hb n s))) (zero hb)) (zero hb)
def denom : FVec Ideal T12 .f32 := maximumf (addf cnt n) (one hb)
def m2 : FVec Ideal T12 .f32 :=
  addf (addf (mulf var cnt) (mulf (bvar hb n s ss) n))
    (Host.divf (mulf (mulf (mulf (subf (bmean hb n s) mean) (subf (bmean hb n s) mean)) cnt) n) (denom hb n cnt))
def rowMean : FVec Ideal T12 .f32 :=
  select (cmpf .ogt n (zero hb)) (addf mean (mulf (subf (bmean hb n s) mean) (Host.divf n (denom hb n cnt)))) mean
def rowVar : FVec Ideal T12 .f32 := select (cmpf .ogt n (zero hb)) (Host.divf (m2 hb n s ss mean var cnt) (denom hb n cnt)) var
def rowStd : FVec Ideal T12 .f32 := select (cmpf .ogt n (zero hb)) (Host.sqrt (addf (rowVar hb n s ss mean var cnt) (eps hb))) std
def rowCnt : FVec Ideal T12 .f32 := addf cnt n
def rowMin : FVec Ideal T12 .f32 := minimumf minv lo
def rowMax : FVec Ideal T12 .f32 := maximumf maxv hi
end

/-- The update is the stack of the six rows. -/
theorem update_eq_rows (hb : T_.BroadcastsInDim T12 (![] : Fin 0 → Fin T12.rank))
    (hr : T12.BroadcastsInDim T1x12 (![1] : Fin 1 → Fin T1x12.rank))
    (hc : Shape.Concatenates [T1x12, T1x12, T1x12, T1x12, T1x12, T1x12] T6x12 0)
    (n s ss lo hi mean var std cnt minv maxv : FVec Ideal T12 .f32) :
    update hb hr hc n s ss lo hi mean var std cnt minv maxv
      = concatenate T6x12 0 [⟨T1x12, broadcastInDim T1x12 ![1] hr (rowMean hb n s mean cnt)⟩,
          ⟨T1x12, broadcastInDim T1x12 ![1] hr (rowVar hb n s ss mean var cnt)⟩,
          ⟨T1x12, broadcastInDim T1x12 ![1] hr (rowStd hb n s ss mean var std cnt)⟩,
          ⟨T1x12, broadcastInDim T1x12 ![1] hr (rowCnt n cnt)⟩,
          ⟨T1x12, broadcastInDim T1x12 ![1] hr (rowMin lo minv)⟩,
          ⟨T1x12, broadcastInDim T1x12 ![1] hr (rowMax hi maxv)⟩] hc := rfl

end Cert.Stats

end
-- ==== Proof.KIHost.lean ====
/-
  The five per-channel statistics as the host operations after the region compute them from the region's five arrays:
  each [2,1,12] array reshaped to [2,12] and reduced over its first axis (the two halves of the batch) — by a sum from 0, a
  minimum from +∞, a maximum from -∞ —, the maximum replaced by -∞ where the count is not positive.
-/
import proofs.«170440_j6811818131595_2_alg».proof.Proof.Gen.KernelIdeal
import Idealize.ShloMosaic.PureOps.Ideal

noncomputable section

namespace Cert.KernelIdeal.Fr

open Cert.KernelIdeal Cert.KernelIdeal.Gen Idealize.ShloMosaic

def hostN (a1 : FVec Ideal S2x1x12 .f32) : FVec Ideal S12 .f32 :=
  Host.reduceAdd (shapeCast S2x12 a1 shapeCasts_S2x1x12_S2x12) (constant (F := Ideal) S_ .f32 0x00000000#32) reducesTo_S2x12_S12_d0 h_S_
def hostLo (a4 : FVec Ideal S2x1x12 .f32) : FVec Ideal S12 .f32 :=
  Host.reduce FloatOps.minimumf (shapeCast S2x12 a4 shapeCasts_S2x1x12_S2x12) (constant (F := Ideal) S_ .f32 0x7F800000#32) reducesTo_S2x12_S12_d0 h_S_
def hostHiRaw (a5 : FVec Ideal S2x1x12 .f32) : FVec Ideal S12 .f32 :=
  Host.reduce FloatOps.maximumf (shapeCast S2x12 a5 shapeCasts_S2x1x12_S2x12) (constant (F := Ideal) S_ .f32 0xFF800000#32) reducesTo_S2x12_S12_d0 h_S_
def hostHi (a1 a5 : FVec Ideal S2x1x12 .f32) : FVec Ideal S12 .f32 :=
  select (cmpf .ogt (hostN a1) (broadcastInDim S12 ![] bcast_S_S12 (constant (F := Ideal) S_ .f32 0x00000000#32))) (hostHiRaw a5)
    (broadcastInDim S12 ![] bcast_S_S12 (constant (F := Ideal) S_ .f32 0xFF800000#32))

end Cert.KernelIdeal.Fr

end
-- ==== Proof.LibTypedRef.lean ====
/-
  Typed references of a host program's called functions: a round trip through the buffer is the identity.

  A called function's operations read and write their buffers through typed references
  (`StableHlo.TRef`): a value of the tensor's type is sent into the buffer along the reference's type equation
  (`toBuf`) and read back along it (`ofBuf`). When a run of such operations is read back as a composed term,
  every intermediate value appears as `x.ofBuf (x.toBuf v)`. That is `v`: `simp only [TRef.ofBuf_toBuf]` removes
  every such pair, for any program, before the composed term is compared with a cast-free one.
-/
import Idealize.ShloMosaic.Lib.StableHlo

namespace Idealize.ShloMosaic.StableHlo.TRef

/-- A value sent into a typed reference's buffer and read back is the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The other way round: contents read out of the buffer at the value's type and sent back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.LibNary6.lean ====
/-
  The result buffer of a six-operand host operation after a run.

  A host operation of six operands (a concatenation of six arrays) writes its function's value of the operands'
  contents. When the six operand buffers are a literal family, that value is stated with each operand's contents at
  its own buffer, so that a run read back as a fold over the operations goes on being computed at the operands: under
  a bound index the k-th buffer of the family is no literal buffer, and nothing is known of its contents. Last, a
  concatenation of six arrays of one shape is determined operand by operand: the step by which each operand's
  contents are computed on their own.
-/
import Idealize.ShloMosaic.Lib.StableHlo.Run

namespace Idealize.ShloMosaic.StableHlo

/-- The result of a six-operand operation at its result buffer: its function at the six operands' contents, each read
    at its own buffer. -/
theorem nary6_result {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

/-- The same, with the result buffer left out of the rewriting index: the form one pass of rewriting takes. -/
theorem nary6_result' {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) :=
  nary6_result f hxs hy V

/-- The contents of one buffer after a literal list of host operations, by one pass of rewriting: each operation's
    result at its own result buffer is its function's value, at any other buffer what was there; a six-operand
    operation's operands are read each at its own buffer. -/
macro "after_results_simp6" : tactic =>
  `(tactic| (simp (disch := decide) only [after_cons, after_nil,
      nullary_result', unary_result', binary_result', ternary_result', quaternary_result', reshape_result', nary6_result',
      unaryIndexed_result', binaryIndexed_result',
      nullary_result_ne', unary_result_ne', binary_result_ne', ternary_result_ne', quaternary_result_ne', reshape_result_ne',
      nary_result_ne', unaryIndexed_result_ne', binaryIndexed_result_ne']))

/-- A concatenation of six arrays of one shape, operand by operand. -/
theorem concatenate6_congr {α : Type} {s t : Shape} (ax : Fin t.rank) {a0 a1 a2 a3 a4 a5 b0 b1 b2 b3 b4 b5 : s.Idx → α}
    (hc : Shape.Concatenates [s, s, s, s, s, s] t ax)
    (h0 : a0 = b0) (h1 : a1 = b1) (h2 : a2 = b2) (h3 : a3 = b3) (h4 : a4 = b4) (h5 : a5 = b5) :
    concatenate t ax [⟨s, a0⟩, ⟨s, a1⟩, ⟨s, a2⟩, ⟨s, a3⟩, ⟨s, a4⟩, ⟨s, a5⟩] hc
      = concatenate t ax [⟨s, b0⟩, ⟨s, b1⟩, ⟨s, b2⟩, ⟨s, b3⟩, ⟨s, b4⟩, ⟨s, b5⟩] hc := by
  subst h0 h1 h2 h3 h4 h5; rfl

end Idealize.ShloMosaic.StableHlo
-- ==== Proof.KITailVal.lean ====
/-
  The program's result after the host operations that follow the region, as one term: the five arrays the region
  wrote, each reshaped to [2,12] and reduced over the two halves of the batch (the greatest value repaired to -∞ where
  the count is not positive), go through the shared update with the six running arrays. The last host operation stacks
  six rows; each row is read off the eighty-two operations before it.
-/
import proofs.«170440_j6811818131595_2_alg».proof.Proof.KIFrame
import proofs.«170440_j6811818131595_2_alg».proof.Proof.KITail
import proofs.«170440_j6811818131595_2_alg».proof.Proof.StatsRows
import proofs.«170440_j6811818131595_2_alg».proof.Proof.KIHost
import proofs.«170440_j6811818131595_2_alg».proof.Proof.LibTypedRef
import proofs.«170440_j6811818131595_2_alg».proof.Proof.LibNary6
import Idealize.ShloMosaic.Lib.StableHlo.Run
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The host operations after the region but the last (the stacking of the six rows). -/
abbrev tail82 : List (HloOp τ sig (Elt Ideal)) :=
  hostOps1 ++ hostOps1_1 ++ hostOps1_2 ++ hostOps1_3 ++ hostOps1_4 ++ hostOps1_5 ++ hostOps1_6 ++ hostOps1_7 ++ hostOps1_8 ++ hostOps1_9 ++ hostOps1_10 ++ hostOps1_11 ++ (hostOps1_12 (F := Ideal)).take 9

/-- The last host operation: the six rows stacked. -/
abbrev stackOp : HloOp τ sig (Elt Ideal) := (hostOps1_12 (F := Ideal)).getLast (by simp)

theorem stackOp_eq : stackOp = StableHlo.nary ![main_v55, main_v56, main_v57, main_v58, main_v59, main_v60] main_v61
    (fun u => concatenate S6x12 0 [⟨S1x12, u 0⟩, ⟨S1x12, u 1⟩, ⟨S1x12, u 2⟩, ⟨S1x12, u 3⟩, ⟨S1x12, u 4⟩, ⟨S1x12, u 5⟩] concatenates_S1x12_S1x12_S1x12_S1x12_S1x12_S1x12_S6x12_d0) := rfl

theorem tail_split : (tailOps (F := Ideal)).flatten = tail82 ++ [stackOp] := rfl

section Rows
variable (W : Valuation τ sig (Elt Ideal))

set_option maxHeartbeats 8000000 in
theorem row0 : StableHlo.after tail82 W (Proc.devRef .tc main_v55)
    = (fun (a1 a2 a3 a4 a5 : FVec Ideal S2x1x12 .f32) (mean var std cnt minv maxv : FVec Ideal S12 .f32) =>
        broadcastInDim S1x12 ![1] bcast_S12_S1x12_1 (Cert.Stats.rowMean bcast_S_S12 (hostN a1) (hostN a2) mean cnt)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl

set_option maxHeartbeats 8000000 in
theorem row1 : StableHlo.after tail82 W (Proc.devRef .tc main_v56)
    = (fun (a1 a2 a3 a4 a5 : FVec Ideal S2x1x12 .f32) (mean var std cnt minv maxv : FVec Ideal S12 .f32) =>
        broadcastInDim S1x12 ![1] bcast_S12_S1x12_1 (Cert.Stats.rowVar bcast_S_S12 (hostN a1) (hostN a2) (hostN a3) mean var cnt)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl

set_option maxHeartbeats 8000000 in
theorem row2 : StableHlo.after tail82 W (Proc.devRef .tc main_v57)
    = (fun (a1 a2 a3 a4 a5 : FVec Ideal S2x1x12 .f32) (mean var std cnt minv maxv : FVec Ideal S12 .f32) =>
        broadcastInDim S1x12 ![1] bcast_S12_S1x12_1 (Cert.Stats.rowStd bcast_S_S12 (hostN a1) (hostN a2) (hostN a3) mean var std cnt)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl

set_option maxHeartbeats 8000000 in
theorem row3 : StableHlo.after tail82 W (Proc.devRef .tc main_v58)
    = (fun (a1 a2 a3 a4 a5 : FVec Ideal S2x1x12 .f32) (mean var std cnt minv maxv : FVec Ideal S12 .f32) =>
        broadcastInDim S1x12 ![1] bcast_S12_S1x12_1 (Cert.Stats.rowCnt (hostN a1) cnt)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl

set_option maxHeartbeats 8000000 in
theorem row4 : StableHlo.after tail82 W (Proc.devRef .tc main_v59)
    = (fun (a1 a2 a3 a4 a5 : FVec Ideal S2x1x12 .f32) (mean var std cnt minv maxv : FVec Ideal S12 .f32) =>
        broadcastInDim S1x12 ![1] bcast_S12_S1x12_1 (Cert.Stats.rowMin (hostLo a4) minv)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl

set_option maxHeartbeats 8000000 in
theorem row5 : StableHlo.after tail82 W (Proc.devRef .tc main_v60)
    = (fun (a1 a2 a3 a4 a5 : FVec Ideal S2x1x12 .f32) (mean var std cnt minv maxv : FVec Ideal S12 .f32) =>
        broadcastInDim S1x12 ![1] bcast_S12_S1x12_1 (Cert.Stats.rowMax (hostHi a1 a5) maxv)) (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  simp only [tail82, hostOps1, hostOps1_1, hostOps1_2, hostOps1_3, hostOps1_4, hostOps1_5, hostOps1_6, hostOps1_7, hostOps1_8, hostOps1_9, hostOps1_10, hostOps1_11, hostOps1_12, List.take_succ_cons, List.take_zero, List.cons_append, List.nil_append]
  after_results_simp
  try simp only [StableHlo.TRef.ofBuf_toBuf, StableHlo.TRef.toBuf_ofBuf]
  rfl
end Rows

/-- The result of the whole program as a function of the five arrays and the six running arrays. -/
def kernelOut (a1 a2 a3 a4 a5 : FVec Ideal S2x1x12 .f32) (mean var std cnt minv maxv : FVec Ideal S12 .f32) : FVec Ideal S6x12 .f32 :=
  Cert.Stats.update bcast_S_S12 bcast_S12_S1x12_1 concatenates_S1x12_S1x12_S1x12_S1x12_S1x12_S1x12_S6x12_d0
    (hostN a1) (hostN a2) (hostN a3) (hostLo a4) (hostHi a1 a5) mean var std cnt minv maxv

/-- The result buffer after the host operations, from any contents `W` of the buffers at the region's exit. -/
theorem tail_eq_W (W : Valuation τ sig (Elt Ideal)) :
    StableHlo.after (tailOps (F := Ideal)).flatten W (Proc.devRef .tc main_v61)
      = kernelOut (W (Proc.devRef .tc main_v0_0)) (W (Proc.devRef .tc main_v0_1)) (W (Proc.devRef .tc main_v0_2)) (W (Proc.devRef .tc main_v0_3)) (W (Proc.devRef .tc main_v0_4))
          (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [tail_split, StableHlo.after_append]
  simp only [StableHlo.after_cons, StableHlo.after_nil]
  show stackOp.result _ (Proc.devRef .tc main_v61) = _
  rw [stackOp_eq]
  unfold kernelOut
  rw [Cert.Stats.update_eq_rows]
  refine (StableHlo.nary6_result (x0 := main_v55) (x1 := main_v56) (x2 := main_v57) (x3 := main_v58) (x4 := main_v59) (x5 := main_v60) (y := main_v61) _ _ _ _).trans ?_
  rw [row0, row1, row2, row3, row4, row5]
  rfl

set_option maxHeartbeats 2000000 in
theorem W_out1 (c : Dev nD) : Pipeline.withArrays spec0 c (V0 m c) (fun w => (dats m 0 c).arrAt w cfg0.N) (Proc.devRef .tc main_v0_0) = (dats m 0 c).arrAt 1 cfg0.N :=
  Pipeline.withArrays_arr spec0 launch0.win.arr_inj c _ _ (1 : Fin 6)
set_option maxHeartbeats 2000000 in
theorem W_out2 (c : Dev nD) : Pipeline.withArrays spec0 c (V0 m c) (fun w => (dats m 0 c).arrAt w cfg0.N) (Proc.devRef .tc main_v0_1) = (dats m 0 c).arrAt 2 cfg0.N :=
  Pipeline.withArrays_arr spec0 launch0.win.arr_inj c _ _ (2 : Fin 6)
set_option maxHeartbeats 2000000 in
theorem W_out3 (c : Dev nD) : Pipeline.withArrays spec0 c (V0 m c) (fun w => (dats m 0 c).arrAt w cfg0.N) (Proc.devRef .tc main_v0_2) = (dats m 0 c).arrAt 3 cfg0.N :=
  Pipeline.withArrays_arr spec0 launch0.win.arr_inj c _ _ (3 : Fin 6)
set_option maxHeartbeats 2000000 in
theorem W_out4 (c : Dev nD) : Pipeline.withArrays spec0 c (V0 m c) (fun w => (dats m 0 c).arrAt w cfg0.N) (Proc.devRef .tc main_v0_3) = (dats m 0 c).arrAt 4 cfg0.N :=
  Pipeline.withArrays_arr spec0 launch0.win.arr_inj c _ _ (4 : Fin 6)
set_option maxHeartbeats 2000000 in
theorem W_out5 (c : Dev nD) : Pipeline.withArrays spec0 c (V0 m c) (fun w => (dats m 0 c).arrAt w cfg0.N) (Proc.devRef .tc main_v0_4) = (dats m 0 c).arrAt 5 cfg0.N :=
  Pipeline.withArrays_arr spec0 launch0.win.arr_inj c _ _ (5 : Fin 6)
set_option maxHeartbeats 2000000 in
theorem W_in1 (c : Dev nD) : Pipeline.withArrays spec0 c (V0 m c) (fun w => (dats m 0 c).arrAt w cfg0.N) (Proc.devRef .tc main_arg1) = m ((c : Thread nD τ).loc main_arg1) :=
  Pipeline.withArrays_of_ne spec0 c (V0 m c) _ main_arg1 (by decide)
set_option maxHeartbeats 2000000 in
theorem W_in2 (c : Dev nD) : Pipeline.withArrays spec0 c (V0 m c) (fun w => (dats m 0 c).arrAt w cfg0.N) (Proc.devRef .tc main_arg2) = m ((c : Thread nD τ).loc main_arg2) :=
  Pipeline.withArrays_of_ne spec0 c (V0 m c) _ main_arg2 (by decide)
set_option maxHeartbeats 2000000 in
theorem W_in3 (c : Dev nD) : Pipeline.withArrays spec0 c (V0 m c) (fun w => (dats m 0 c).arrAt w cfg0.N) (Proc.devRef .tc main_arg3) = m ((c : Thread nD τ).loc main_arg3) :=
  Pipeline.withArrays_of_ne spec0 c (V0 m c) _ main_arg3 (by decide)
set_option maxHeartbeats 2000000 in
theorem W_in4 (c : Dev nD) : Pipeline.withArrays spec0 c (V0 m c) (fun w => (dats m 0 c).arrAt w cfg0.N) (Proc.devRef .tc main_arg4) = m ((c : Thread nD τ).loc main_arg4) :=
  Pipeline.withArrays_of_ne spec0 c (V0 m c) _ main_arg4 (by decide)
set_option maxHeartbeats 2000000 in
theorem W_in5 (c : Dev nD) : Pipeline.withArrays spec0 c (V0 m c) (fun w => (dats m 0 c).arrAt w cfg0.N) (Proc.devRef .tc main_arg5) = m ((c : Thread nD τ).loc main_arg5) :=
  Pipeline.withArrays_of_ne spec0 c (V0 m c) _ main_arg5 (by decide)
set_option maxHeartbeats 2000000 in
theorem W_in6 (c : Dev nD) : Pipeline.withArrays spec0 c (V0 m c) (fun w => (dats m 0 c).arrAt w cfg0.N) (Proc.devRef .tc main_arg6) = m ((c : Thread nD τ).loc main_arg6) :=
  Pipeline.withArrays_of_ne spec0 c (V0 m c) _ main_arg6 (by decide)

/-- After the host operations that follow the region, the result buffer holds the update of the running arrays by the
    statistics reduced from the region's five arrays. -/
theorem tail_eq (c : Dev nD) :
    Pipeline.afterTail₀ cfgs (dats m) 0 (V0 m) tailOps c main_v61
      = kernelOut ((dats m 0 c).arrAt 1 cfg0.N) ((dats m 0 c).arrAt 2 cfg0.N) ((dats m 0 c).arrAt 3 cfg0.N) ((dats m 0 c).arrAt 4 cfg0.N) ((dats m 0 c).arrAt 5 cfg0.N)
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  unfold Pipeline.afterTail₀
  refine (tail_eq_W _).trans ?_
  show kernelOut (Pipeline.withArrays spec0 c (V0 m c) (fun w => (dats m 0 c).arrAt w cfg0.N) (Proc.devRef .tc main_v0_0)) _ _ _ _ _ _ _ _ _ _ = _
  rw [W_out1 m c, W_out2 m c, W_out3 m c, W_out4 m c, W_out5 m c, W_in1 m c, W_in2 m c, W_in3 m c, W_in4 m c, W_in5 m c, W_in6 m c]

end Cert.KernelIdeal.Fr

end
-- ==== Proof.KIOut.lean ====
/-
  What one run of the body leaves in each output buffer, as a value: the body's last store into the buffer covers it, so
  the buffer holds that store's payload — the block's statistic folded into what the buffer held (at a later point of a
  half of the batch), or into the reset value the body itself stored first (at the first point of a half).
-/
import proofs.«170440_j6811818131595_2_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point: output 1's buffer, holding `xo1`, ends at the block's statistic folded into `xo1`. -/
theorem out_B_1 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : ¬cond0_0 i) (x : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    out0_B_1 c i a2 h2 a3 h3 a4 h4 a5 h5 a6 h6 a7 h7 hc x xo1 xo2 xo3 xo4 xo5 = k0_pay14 (k0_pay10 x) xo1 := by
  unfold out0_B_1
  rw [View.read_writes_eq_canon _ _ _ (cover0_B_1 c i a2 h2 a3 h3 a4 h4 a5 h5 a6 h6 a7 h7 hc x xo1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S1x1x12) hz3, View.ld_unit_zero (S := S2x12x256x256) hz4]

/-- The first point of a half: the body stores the reset value into output 1's buffer, reads it back, and leaves the
    block's statistic folded into it. -/
theorem out_A_1 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : cond0_0 i) (x : Vec F S2x12x256x256 .f32) :
    out0_A_1 c i a2 h2 a3 h3 a4 h4 a5 h5 a6 h6 a7 h7 hc x = k0_pay14 (k0_pay10 x) (k0_pay1 (F := F)) := by
  unfold out0_A_1
  rw [View.read_writes_eq_canon _ _ _ (cover0_A_1 c i a2 h2 a3 h3 a4 h4 a5 h5 a6 h6 a7 h7 hc x)]
  unfold kernelRun0_A
  dsimp only
  sl_unfold_words
  rw [View.canon_cons_unit_zero (S := S1x1x12) hz3, View.readCov_unit_zero (S := S1x1x12) _ hz3]
  simp only [View.readAt_eq_ld, h2.read_unread, View.ld_unit_zero (S := S1x1x12) hz3, View.ld_unit_zero (S := S2x12x256x256) hz4]

/-- A later point: output 2's buffer, holding `xo2`, ends at the block's statistic folded into `xo2`. -/
theorem out_B_2 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : ¬cond0_0 i) (x : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    out0_B_2 c i a2 h2 a3 h3 a4 h4 a5 h5 a6 h6 a7 h7 hc x xo1 xo2 xo3 xo4 xo5 = k0_pay15 (k0_pay11 x) xo2 := by
  unfold out0_B_2
  rw [View.read_writes_eq_canon _ _ _ (cover0_B_2 c i a2 h2 a3 h3 a4 h4 a5 h5 a6 h6 a7 h7 hc x xo1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S1x1x12) hz3, View.ld_unit_zero (S := S2x12x256x256) hz4]

/-- The first point of a half: the body stores the reset value into output 2's buffer, reads it back, and leaves the
    block's statistic folded into it. -/
theorem out_A_2 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : cond0_0 i) (x : Vec F S2x12x256x256 .f32) :
    out0_A_2 c i a2 h2 a3 h3 a4 h4 a5 h5 a6 h6 a7 h7 hc x = k0_pay15 (k0_pay11 x) (k0_pay2 (F := F)) := by
  unfold out0_A_2
  rw [View.read_writes_eq_canon _ _ _ (cover0_A_2 c i a2 h2 a3 h3 a4 h4 a5 h5 a6 h6 a7 h7 hc x)]
  unfold kernelRun0_A
  dsimp only
  sl_unfold_words
  rw [View.canon_cons_unit_zero (S := S1x1x12) hz3, View.readCov_unit_zero (S := S1x1x12) _ hz3]
  simp only [View.readAt_eq_ld, h2.read_unread, View.ld_unit_zero (S := S1x1x12) hz3, View.ld_unit_zero (S := S2x12x256x256) hz4]

/-- A later point: output 3's buffer, holding `xo3`, ends at the block's statistic folded into `xo3`. -/
theorem out_B_3 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : ¬cond0_0 i) (x : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    out0_B_3 c i a2 h2 a3 h3 a4 h4 a5 h5 a6 h6 a7 h7 hc x xo1 xo2 xo3 xo4 xo5 = k0_pay16 (k0_pay12 x) xo3 := by
  unfold out0_B_3
  rw [View.read_writes_eq_canon _ _ _ (cover0_B_3 c i a2 h2 a3 h3 a4 h4 a5 h5 a6 h6 a7 h7 hc x xo1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S1x1x12) hz3, View.ld_unit_zero (S := S2x12x256x256) hz4]

/-- The first point of a half: the body stores the reset value into output 3's buffer, reads it back, and leaves the
    block's statistic folded into it. -/
theorem out_A_3 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : cond0_0 i) (x : Vec F S2x12x256x256 .f32) :
    out0_A_3 c i a2 h2 a3 h3 a4 h4 a5 h5 a6 h6 a7 h7 hc x = k0_pay16 (k0_pay12 x) (k0_pay3 (F := F)) := by
  unfold out0_A_3
  rw [View.read_writes_eq_canon _ _ _ (cover0_A_3 c i a2 h2 a3 h3 a4 h4 a5 h5 a6 h6 a7 h7 hc x)]
  unfold kernelRun0_A
  dsimp only
  sl_unfold_words
  rw [View.canon_cons_unit_zero (S := S1x1x12) hz3, View.readCov_unit_zero (S := S1x1x12) _ hz3]
  simp only [View.readAt_eq_ld, h2.read_unread, View.ld_unit_zero (S := S1x1x12) hz3, View.ld_unit_zero (S := S2x12x256x256) hz4]

/-- A later point: output 4's buffer, holding `xo4`, ends at the block's statistic folded into `xo4`. -/
theorem out_B_4 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : ¬cond0_0 i) (x : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    out0_B_4 c i a2 h2 a3 h3 a4 h4 a5 h5 a6 h6 a7 h7 hc x xo1 xo2 xo3 xo4 xo5 = k0_pay17 (k0_pay13 x) xo4 := by
  unfold out0_B_4
  rw [View.read_writes_eq_canon _ _ _ (cover0_B_4 c i a2 h2 a3 h3 a4 h4 a5 h5 a6 h6 a7 h7 hc x xo1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S1x1x12) hz3, View.ld_unit_zero (S := S2x12x256x256) hz4]

/-- The first point of a half: the body stores the reset value into output 4's buffer, reads it back, and leaves the
    block's statistic folded into it. -/
theorem out_A_4 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : cond0_0 i) (x : Vec F S2x12x256x256 .f32) :
    out0_A_4 c i a2 h2 a3 h3 a4 h4 a5 h5 a6 h6 a7 h7 hc x = k0_pay17 (k0_pay13 x) (k0_pay4 (F := F)) := by
  unfold out0_A_4
  rw [View.read_writes_eq_canon _ _ _ (cover0_A_4 c i a2 h2 a3 h3 a4 h4 a5 h5 a6 h6 a7 h7 hc x)]
  unfold kernelRun0_A
  dsimp only
  sl_unfold_words
  rw [View.canon_cons_unit_zero (S := S1x1x12) hz3, View.readCov_unit_zero (S := S1x1x12) _ hz3]
  simp only [View.readAt_eq_ld, h2.read_unread, View.ld_unit_zero (S := S1x1x12) hz3, View.ld_unit_zero (S := S2x12x256x256) hz4]

/-- A later point: output 5's buffer, holding `xo5`, ends at the block's statistic folded into `xo5`. -/
theorem out_B_5 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : ¬cond0_0 i) (x : Vec F S2x12x256x256 .f32) (xo1 : Vec F S1x1x12 .f32) (xo2 : Vec F S1x1x12 .f32) (xo3 : Vec F S1x1x12 .f32) (xo4 : Vec F S1x1x12 .f32) (xo5 : Vec F S1x1x12 .f32) :
    out0_B_5 c i a2 h2 a3 h3 a4 h4 a5 h5 a6 h6 a7 h7 hc x xo1 xo2 xo3 xo4 xo5 = k0_pay18 (k0_pay9 x) xo5 := by
  unfold out0_B_5
  rw [View.read_writes_eq_canon _ _ _ (cover0_B_5 c i a2 h2 a3 h3 a4 h4 a5 h5 a6 h6 a7 h7 hc x xo1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S1x1x12) hz3, View.ld_unit_zero (S := S2x12x256x256) hz4]

/-- The first point of a half: the body stores the reset value into output 5's buffer, reads it back, and leaves the
    block's statistic folded into it. -/
theorem out_A_5 (c : Dev nD) (i : grid0.Coords) (a2 : Memref sig .tc .vmem S2x12x256x256 .f32) (h2 : a2.IsWhole) (a3 : Memref sig .tc .vmem S1x1x12 .f32) (h3 : a3.IsWhole) (a4 : Memref sig .tc .vmem S1x1x12 .f32) (h4 : a4.IsWhole) (a5 : Memref sig .tc .vmem S1x1x12 .f32) (h5 : a5.IsWhole) (a6 : Memref sig .tc .vmem S1x1x12 .f32) (h6 : a6.IsWhole) (a7 : Memref sig .tc .vmem S1x1x12 .f32) (h7 : a7.IsWhole) (hc : cond0_0 i) (x : Vec F S2x12x256x256 .f32) :
    out0_A_5 c i a2 h2 a3 h3 a4 h4 a5 h5 a6 h6 a7 h7 hc x = k0_pay18 (k0_pay9 x) (k0_pay5 (F := F)) := by
  unfold out0_A_5
  rw [View.read_writes_eq_canon _ _ _ (cover0_A_5 c i a2 h2 a3 h3 a4 h4 a5 h5 a6 h6 a7 h7 hc x)]
  unfold kernelRun0_A
  dsimp only
  sl_unfold_words
  rw [View.canon_cons_unit_zero (S := S1x1x12) hz3, View.readCov_unit_zero (S := S1x1x12) _ hz3]
  simp only [View.readAt_eq_ld, h2.read_unread, View.ld_unit_zero (S := S1x1x12) hz3, View.ld_unit_zero (S := S2x12x256x256) hz4]

end Cert.KernelIdeal.Fr

end
-- ==== Proof.StatsSpec.lean ====
/-
  The per-channel statistics both programs compute, stated once over the extended reals.

  An entry `v` of the input is shifted by 1000; it is VALID when the shifted value is positive, and its FIXED value is the
  shifted value clipped to [0, 10000]. For channel `c` of an input `x` indexed by (batch, channel, row, column) the
  statistics are the number of valid entries, the sum and the sum of squares of the fixed values (an invalid entry's fixed
  value is 0, so masking the sums changes nothing), and the least and the greatest fixed value among the valid entries
  (+∞ and -∞ when there is none).
-/
import Idealize.ShloMosaic.PureOps.Ideal

noncomputable section

namespace Cert.Stats

open Idealize.ShloMosaic

/-- The input indexed by batch, channel, row and column. -/
abbrev Arr := Fin 32 → Fin 12 → Fin 256 → Fin 256 → EReal

/-- An entry shifted by 1000 (the f32 pattern of 1000.0). -/
def shifted (v : EReal) : EReal := v + Ideal.ofBits .f32 0x447A0000#32

/-- The shifted entry clipped to [0, 10000]. -/
def fixed (v : EReal) : EReal :=
  min (Ideal.ofBits .f32 0x461C4000#32) (max (Ideal.ofBits .f32 0x00000000#32) (shifted v))

/-- 1 at a valid entry (shifted value positive), 0 elsewhere. -/
def mask (v : EReal) : EReal := if Ideal.ofBits .f32 0x00000000#32 < shifted v then 1 else 0

/-- The number of valid entries of channel `c`. -/
def count (x : Arr) (c : Fin 12) : EReal := ∑ b : Fin 32, ∑ h : Fin 256, ∑ w : Fin 256, mask (x b c h w)

/-- The sum of the fixed values of channel `c`. -/
def total (x : Arr) (c : Fin 12) : EReal := ∑ b : Fin 32, ∑ h : Fin 256, ∑ w : Fin 256, fixed (x b c h w)

/-- The sum of their squares. -/
def totalSq (x : Arr) (c : Fin 12) : EReal :=
  ∑ b : Fin 32, ∑ h : Fin 256, ∑ w : Fin 256, fixed (x b c h w) * fixed (x b c h w)

/-- The least fixed value among the valid entries of channel `c` (+∞ when none is valid). -/
def least (x : Arr) (c : Fin 12) : EReal :=
  Finset.univ.inf fun b : Fin 32 => Finset.univ.inf fun h : Fin 256 => Finset.univ.inf fun w : Fin 256 =>
    if Ideal.ofBits .f32 0x00000000#32 < shifted (x b c h w) then fixed (x b c h w) else ⊤

/-- The greatest fixed value among the valid entries of channel `c` (-∞ when none is valid). -/
def greatest (x : Arr) (c : Fin 12) : EReal :=
  Finset.univ.sup fun b : Fin 32 => Finset.univ.sup fun h : Fin 256 => Finset.univ.sup fun w : Fin 256 =>
    if Ideal.ofBits .f32 0x00000000#32 < shifted (x b c h w) then fixed (x b c h w) else ⊥

end Cert.Stats

end
-- ==== Proof.KIPay.lean ====
/-
  The block's arithmetic read at an index, over the extended reals: for a block of two batch slices, each per-channel
  statistic the block computes is the sum, the infimum or the supremum over (slice, row, column) of the entry's mask,
  fixed value, squared fixed value, or fixed value where valid; each accumulator update adds, or takes the minimum or
  maximum with, the running value; and the reset values are 0, +∞ and -∞.
-/
import proofs.«170440_j6811818131595_2_alg».proof.Proof.Gen.KernelIdeal.Skeleton
import proofs.«170440_j6811818131595_2_alg».proof.Proof.StatsSpec
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Idealize.ShloMosaic
open Idealize.ShloMosaic.ValueIdx

/-! ## The index a reduction inserts, at the literal shapes -/

theorem lift3 (d : Fin 2) (ch : Fin 12) (h : Fin 256) (w : Fin 256) :
    reduces_S2x12x256x256_S2x12x256.lift (ix3 d ch h) w = ix4 d ch h w := by
  funext a
  match a with
  | ⟨0, _⟩ => rfl
  | ⟨1, _⟩ => rfl
  | ⟨2, _⟩ => rfl
  | ⟨3, _⟩ => rfl

theorem lift2 (d : Fin 2) (ch : Fin 12) (h : Fin 256) :
    reduces_S2x12x256_S2x12.lift (ix2 d ch) h = ix3 d ch h := by
  funext a
  match a with
  | ⟨0, _⟩ => rfl
  | ⟨1, _⟩ => rfl
  | ⟨2, _⟩ => rfl

theorem lift0 (ch : Fin 12) (d : Fin 2) :
    reduces_S2x12_S12.lift (ix1 ch) d = ix2 d ch := by
  funext a
  match a with
  | ⟨0, _⟩ => rfl
  | ⟨1, _⟩ => rfl

/-! ## The two infinities -/

theorem ofBits_pos_inf : Ideal.ofBits .f32 0x7F800000#32 = ⊤ := by simp [Ideal.ofBits, Ideal.ieee]

theorem ofBits_neg_inf : Ideal.ofBits .f32 0xFF800000#32 = ⊥ := by simp [Ideal.ofBits, Ideal.ieee]

/-! ## One reduction at a time -/

section Reductions

variable (hφ : FKind.Formats .f32)

theorem add3 (src : FVec Ideal S2x12x256x256 .f32) (hacc : (0x00000000#32 : BitVec 32) = FKind.add.neutral .f32 hφ)
    (d : Fin 2) (ch : Fin 12) (h : Fin 256) :
    multiReduction .add [3] S2x12x256 src 0x00000000#32 reduces_S2x12x256x256_S2x12x256 hφ hacc (ix3 d ch h)
      = ∑ w : Fin 256, src (ix4 d ch h w) := by
  refine (Ideal.multiReduction_add_single src _ _ hφ hacc _).trans ?_
  exact Finset.sum_congr rfl fun w _ => congrArg src (lift3 d ch h w)

theorem add2 (src : FVec Ideal S2x12x256 .f32) (hacc : (0x00000000#32 : BitVec 32) = FKind.add.neutral .f32 hφ)
    (d : Fin 2) (ch : Fin 12) :
    multiReduction .add [2] S2x12 src 0x00000000#32 reduces_S2x12x256_S2x12 hφ hacc (ix2 d ch)
      = ∑ h : Fin 256, src (ix3 d ch h) := by
  refine (Ideal.multiReduction_add_single src _ _ hφ hacc _).trans ?_
  exact Finset.sum_congr rfl fun h _ => congrArg src (lift2 d ch h)

theorem add0 (src : FVec Ideal S2x12 .f32) (hacc : (0x00000000#32 : BitVec 32) = FKind.add.neutral .f32 hφ)
    (ch : Fin 12) :
    multiReduction .add [0] S12 src 0x00000000#32 reduces_S2x12_S12 hφ hacc (ix1 ch)
      = ∑ d : Fin 2, src (ix2 d ch) := by
  refine (Ideal.multiReduction_add_single src _ _ hφ hacc _).trans ?_
  exact Finset.sum_congr rfl fun d _ => congrArg src (lift0 ch d)

theorem add_all (src : FVec Ideal S2x12x256x256 .f32) (hacc : (0x00000000#32 : BitVec 32) = FKind.add.neutral .f32 hφ)
    (ch : Fin 12) :
    multiReduction .add [0] S12
        (multiReduction .add [2] S2x12
          (multiReduction .add [3] S2x12x256 src 0x00000000#32 reduces_S2x12x256x256_S2x12x256 hφ hacc)
          0x00000000#32 reduces_S2x12x256_S2x12 hφ hacc)
        0x00000000#32 reduces_S2x12_S12 hφ hacc (ix1 ch)
      = ∑ d : Fin 2, ∑ h : Fin 256, ∑ w : Fin 256, src (ix4 d ch h w) := by
  rw [add0]; refine Finset.sum_congr rfl fun d _ => ?_
  rw [add2]; refine Finset.sum_congr rfl fun h _ => ?_
  rw [add3]

end Reductions

theorem pay8_apply (X : Vec Ideal S2x12x256x256 .f32) (i : S2x12x256x256.Idx) :
    k0_pay8 (F := Ideal) X i = Cert.Stats.fixed (X i) := rfl

theorem pay11_apply (X : Vec Ideal S2x12x256x256 .f32) (ch : Fin 12) :
    k0_pay11 (F := Ideal) X (ix1 ch) = ∑ d : Fin 2, ∑ h : Fin 256, ∑ w : Fin 256, Cert.Stats.fixed (X (ix4 d ch h w)) := by
  unfold k0_pay11
  dsimp only
  refine (add_all _ _ _ ch).trans ?_
  rfl

theorem fold_max_bot {ι : Type} (s : Finset ι) (f : ι → EReal) : s.fold max ⊥ f = s.sup f := rfl

theorem fold_min_top {ι : Type} (s : Finset ι) (f : ι → EReal) : s.fold min ⊤ f = s.inf f := rfl

theorem fold_max_sup {n : Nat} (g g' : Fin n → EReal) (hg : ∀ k, g k = g' k) :
    (Finset.univ : Finset (Fin n)).fold max ⊥ g = Finset.univ.sup g' := by
  rw [fold_max_bot]; exact congrArg _ (funext hg)

theorem fold_min_inf {n : Nat} (g g' : Fin n → EReal) (hg : ∀ k, g k = g' k) :
    (Finset.univ : Finset (Fin n)).fold min ⊤ g = Finset.univ.inf g' := by
  rw [fold_min_top]; exact congrArg _ (funext hg)

/-- A minimum reduction over one axis is the fold of `min` from the accumulator's value over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

section Reductions

variable (hφ : FKind.Formats .f32)

theorem max3 (src : FVec Ideal S2x12x256x256 .f32) (hacc : (0xFF800000#32 : BitVec 32) = FKind.maximumf.neutral .f32 hφ)
    (d : Fin 2) (ch : Fin 12) (h : Fin 256) :
    multiReduction .maximumf [3] S2x12x256 src 0xFF800000#32 reduces_S2x12x256x256_S2x12x256 hφ hacc (ix3 d ch h)
      = Finset.univ.sup fun w : Fin 256 => src (ix4 d ch h w) := by
  refine (Ideal.multiReduction_maximumf_single src _ _ hφ hacc _).trans ?_
  show (Finset.univ : Finset (Fin 256)).fold max (Ideal.ofBits .f32 0xFF800000#32)
    (fun w => src (reduces_S2x12x256x256_S2x12x256.lift (ix3 d ch h) w)) = _
  rw [ofBits_neg_inf]
  exact fold_max_sup _ _ (fun w => congrArg src (lift3 d ch h w))

theorem max2 (src : FVec Ideal S2x12x256 .f32) (hacc : (0xFF800000#32 : BitVec 32) = FKind.maximumf.neutral .f32 hφ)
    (d : Fin 2) (ch : Fin 12) :
    multiReduction .maximumf [2] S2x12 src 0xFF800000#32 reduces_S2x12x256_S2x12 hφ hacc (ix2 d ch)
      = Finset.univ.sup fun h : Fin 256 => src (ix3 d ch h) := by
  refine (Ideal.multiReduction_maximumf_single src _ _ hφ hacc _).trans ?_
  show (Finset.univ : Finset (Fin 256)).fold max (Ideal.ofBits .f32 0xFF800000#32)
    (fun h => src (reduces_S2x12x256_S2x12.lift (ix2 d ch) h)) = _
  rw [ofBits_neg_inf]
  exact fold_max_sup _ _ (fun h => congrArg src (lift2 d ch h))

theorem max0 (src : FVec Ideal S2x12 .f32) (hacc : (0xFF800000#32 : BitVec 32) = FKind.maximumf.neutral .f32 hφ)
    (ch : Fin 12) :
    multiReduction .maximumf [0] S12 src 0xFF800000#32 reduces_S2x12_S12 hφ hacc (ix1 ch)
      = Finset.univ.sup fun d : Fin 2 => src (ix2 d ch) := by
  refine (Ideal.multiReduction_maximumf_single src _ _ hφ hacc _).trans ?_
  show (Finset.univ : Finset (Fin 2)).fold max (Ideal.ofBits .f32 0xFF800000#32)
    (fun d => src (reduces_S2x12_S12.lift (ix1 ch) d)) = _
  rw [ofBits_neg_inf]
  exact fold_max_sup _ _ (fun d => congrArg src (lift0 ch d))

theorem min3 (src : FVec Ideal S2x12x256x256 .f32) (hacc : (0x7F800000#32 : BitVec 32) = FKind.minimumf.neutral .f32 hφ)
    (d : Fin 2) (ch : Fin 12) (h : Fin 256) :
    multiReduction .minimumf [3] S2x12x256 src 0x7F800000#32 reduces_S2x12x256x256_S2x12x256 hφ hacc (ix3 d ch h)
      = Finset.univ.inf fun w : Fin 256 => src (ix4 d ch h w) := by
  refine (multiReduction_minimumf_single src _ _ hφ hacc _).trans ?_
  show (Finset.univ : Finset (Fin 256)).fold min (Ideal.ofBits .f32 0x7F800000#32)
    (fun w => src (reduces_S2x12x256x256_S2x12x256.lift (ix3 d ch h) w)) = _
  rw [ofBits_pos_inf]
  exact fold_min_inf _ _ (fun w => congrArg src (lift3 d ch h w))

theorem min2 (src : FVec Ideal S2x12x256 .f32) (hacc : (0x7F800000#32 : BitVec 32) = FKind.minimumf.neutral .f32 hφ)
    (d : Fin 2) (ch : Fin 12) :
    multiReduction .minimumf [2] S2x12 src 0x7F800000#32 reduces_S2x12x256_S2x12 hφ hacc (ix2 d ch)
      = Finset.univ.inf fun h : Fin 256 => src (ix3 d ch h) := by
  refine (multiReduction_minimumf_single src _ _ hφ hacc _).trans ?_
  show (Finset.univ : Finset (Fin 256)).fold min (Ideal.ofBits .f32 0x7F800000#32)
    (fun h => src (reduces_S2x12x256_S2x12.lift (ix2 d ch) h)) = _
  rw [ofBits_pos_inf]
  exact fold_min_inf _ _ (fun h => congrArg src (lift2 d ch h))

theorem min0 (src : FVec Ideal S2x12 .f32) (hacc : (0x7F800000#32 : BitVec 32) = FKind.minimumf.neutral .f32 hφ)
    (ch : Fin 12) :
    multiReduction .minimumf [0] S12 src 0x7F800000#32 reduces_S2x12_S12 hφ hacc (ix1 ch)
      = Finset.univ.inf fun d : Fin 2 => src (ix2 d ch) := by
  refine (multiReduction_minimumf_single src _ _ hφ hacc _).trans ?_
  show (Finset.univ : Finset (Fin 2)).fold min (Ideal.ofBits .f32 0x7F800000#32)
    (fun d => src (reduces_S2x12_S12.lift (ix1 ch) d)) = _
  rw [ofBits_pos_inf]
  exact fold_min_inf _ _ (fun d => congrArg src (lift0 ch d))

theorem max_all (src : FVec Ideal S2x12x256x256 .f32) (hacc : (0xFF800000#32 : BitVec 32) = FKind.maximumf.neutral .f32 hφ)
    (ch : Fin 12) :
    multiReduction .maximumf [0] S12
        (multiReduction .maximumf [2] S2x12
          (multiReduction .maximumf [3] S2x12x256 src 0xFF800000#32 reduces_S2x12x256x256_S2x12x256 hφ hacc)
          0xFF800000#32 reduces_S2x12x256_S2x12 hφ hacc)
        0xFF800000#32 reduces_S2x12_S12 hφ hacc (ix1 ch)
      = Finset.univ.sup fun d : Fin 2 => Finset.univ.sup fun h : Fin 256 => Finset.univ.sup fun w : Fin 256 =>
          src (ix4 d ch h w) := by
  rw [max0]; refine congrArg _ (funext fun d => ?_)
  rw [max2]; refine congrArg _ (funext fun h => ?_)
  rw [max3]

theorem min_all (src : FVec Ideal S2x12x256x256 .f32) (hacc : (0x7F800000#32 : BitVec 32) = FKind.minimumf.neutral .f32 hφ)
    (ch : Fin 12) :
    multiReduction .minimumf [0] S12
        (multiReduction .minimumf [2] S2x12
          (multiReduction .minimumf [3] S2x12x256 src 0x7F800000#32 reduces_S2x12x256x256_S2x12x256 hφ hacc)
          0x7F800000#32 reduces_S2x12x256_S2x12 hφ hacc)
        0x7F800000#32 reduces_S2x12_S12 hφ hacc (ix1 ch)
      = Finset.univ.inf fun d : Fin 2 => Finset.univ.inf fun h : Fin 256 => Finset.univ.inf fun w : Fin 256 =>
          src (ix4 d ch h w) := by
  rw [min0]; refine congrArg _ (funext fun d => ?_)
  rw [min2]; refine congrArg _ (funext fun h => ?_)
  rw [min3]

end Reductions

theorem pay12_apply (X : Vec Ideal S2x12x256x256 .f32) (ch : Fin 12) :
    k0_pay12 (F := Ideal) X (ix1 ch)
      = ∑ d : Fin 2, ∑ h : Fin 256, ∑ w : Fin 256,
          Cert.Stats.fixed (X (ix4 d ch h w)) * Cert.Stats.fixed (X (ix4 d ch h w)) := by
  unfold k0_pay12
  dsimp only
  refine (add_all _ _ _ ch).trans ?_
  rfl

theorem pay9max_apply (X : Vec Ideal S2x12x256x256 .f32) (ch : Fin 12) :
    multiReduction (F := Ideal) .maximumf [0] S12 (k0_pay9 (F := Ideal) X) 0xFF800000#32 reduces_S2x12_S12 (.inl rfl) rfl
        (ix1 ch)
      = Finset.univ.sup fun d : Fin 2 => Finset.univ.sup fun h : Fin 256 => Finset.univ.sup fun w : Fin 256 =>
          Cert.Stats.fixed (X (ix4 d ch h w)) := by
  unfold k0_pay9
  dsimp only
  refine (max_all _ _ _ ch).trans ?_
  rfl

/-! ## The entries of the elementwise payloads -/

theorem valid_apply (X : Vec Ideal S2x12x256x256 .f32) (i : S2x12x256x256.Idx) :
    k0_pay7 (F := Ideal) X i
      = BitVec.ofBool (decide (Ideal.ofBits .f32 0x00000000#32 < Cert.Stats.shifted (X i))) := rfl

theorem maskf_apply (X : Vec Ideal S2x12x256x256 .f32) (i : S2x12x256x256.Idx) :
    (sitofp .f32 (extui 32 (k0_pay7 (F := Ideal) X) natLt_1_32) : FVec Ideal S2x12x256x256 .f32) i
      = Cert.Stats.mask (X i) := by
  show (((BitVec.setWidth 32 (k0_pay7 (F := Ideal) X i)).toInt : ℝ) : EReal) = _
  rw [valid_apply]
  unfold Cert.Stats.mask
  by_cases hv : Ideal.ofBits .f32 0x00000000#32 < Cert.Stats.shifted (X i)
  · rw [if_pos hv, decide_eq_true hv]
    show (((BitVec.setWidth 32 1#1).toInt : ℝ) : EReal) = 1
    rw [show (BitVec.setWidth 32 1#1).toInt = 1 by decide]
    norm_num
  · rw [if_neg hv, decide_eq_false hv]
    show (((BitVec.setWidth 32 0#1).toInt : ℝ) : EReal) = 0
    rw [show (BitVec.setWidth 32 0#1).toInt = 0 by decide]
    norm_num

theorem select_apply' (X : Vec Ideal S2x12x256x256 .f32) (i : S2x12x256x256.Idx) :
    (select (k0_pay7 (F := Ideal) X) (k0_pay8 (F := Ideal) X)
        (broadcast S2x12x256x256 (Scalar.ofBits (F := Ideal) .f32 0x7F800000#32)) : FVec Ideal S2x12x256x256 .f32) i
      = if Ideal.ofBits .f32 0x00000000#32 < Cert.Stats.shifted (X i) then Cert.Stats.fixed (X i) else ⊤ := by
  show Scalar.select (k0_pay7 (F := Ideal) X i) (Cert.Stats.fixed (X i)) (Ideal.ofBits .f32 0x7F800000#32) = _
  rw [valid_apply, ofBits_pos_inf]
  by_cases hv : Ideal.ofBits .f32 0x00000000#32 < Cert.Stats.shifted (X i)
  · rw [if_pos hv, decide_eq_true hv]; exact select_one _ _
  · rw [if_neg hv, decide_eq_false hv]; exact select_zero _ _

theorem pay10_apply (X : Vec Ideal S2x12x256x256 .f32) (ch : Fin 12) :
    k0_pay10 (F := Ideal) X (ix1 ch)
      = ∑ d : Fin 2, ∑ h : Fin 256, ∑ w : Fin 256, Cert.Stats.mask (X (ix4 d ch h w)) := by
  unfold k0_pay10
  dsimp only
  refine (add_all _ _ _ ch).trans ?_
  exact Finset.sum_congr rfl fun d _ => Finset.sum_congr rfl fun h _ => Finset.sum_congr rfl fun w _ =>
    maskf_apply X (ix4 d ch h w)

theorem pay13_apply (X : Vec Ideal S2x12x256x256 .f32) (ch : Fin 12) :
    k0_pay13 (F := Ideal) X (ix1 ch)
      = Finset.univ.inf fun d : Fin 2 => Finset.univ.inf fun h : Fin 256 => Finset.univ.inf fun w : Fin 256 =>
          if Ideal.ofBits .f32 0x00000000#32 < Cert.Stats.shifted (X (ix4 d ch h w))
          then Cert.Stats.fixed (X (ix4 d ch h w)) else ⊤ := by
  unfold k0_pay13
  dsimp only
  refine (min_all _ _ _ ch).trans ?_
  exact congrArg _ (funext fun d => congrArg _ (funext fun h => congrArg _ (funext fun w =>
    select_apply' X (ix4 d ch h w))))

/-! ## The accumulator updates and the reset values -/

theorem cast12 (v : FVec Ideal S12 .f32) (ch : Fin 12) :
    shapeCast S1x1x12 v shapeCasts_S12_S1x1x12 (ix3 0 0 ch) = v (ix1 ch) :=
  shapeCast_apply v _ _ _ (by
    rw [Shape.rowMajor_val_one, Shape.rowMajor_val_three]
    show ch.val = ((0 * 1 + 0) * 12 + ch.val)
    omega)

theorem pay14_apply (v : FVec Ideal S12 .f32) (prev : Vec Ideal S1x1x12 .f32) (ch : Fin 12) :
    k0_pay14 (F := Ideal) v prev (ix3 0 0 ch) = prev (ix3 0 0 ch) + v (ix1 ch) := by
  unfold k0_pay14
  rw [addf_apply, shapeCast_self, cast12]

theorem pay15_apply (v : FVec Ideal S12 .f32) (prev : Vec Ideal S1x1x12 .f32) (ch : Fin 12) :
    k0_pay15 (F := Ideal) v prev (ix3 0 0 ch) = prev (ix3 0 0 ch) + v (ix1 ch) := by
  unfold k0_pay15
  rw [addf_apply, shapeCast_self, cast12]

theorem pay16_apply (v : FVec Ideal S12 .f32) (prev : Vec Ideal S1x1x12 .f32) (ch : Fin 12) :
    k0_pay16 (F := Ideal) v prev (ix3 0 0 ch) = prev (ix3 0 0 ch) + v (ix1 ch) := by
  unfold k0_pay16
  rw [addf_apply, shapeCast_self, cast12]

theorem pay17_apply (v : FVec Ideal S12 .f32) (prev : Vec Ideal S1x1x12 .f32) (ch : Fin 12) :
    k0_pay17 (F := Ideal) v prev (ix3 0 0 ch) = min (prev (ix3 0 0 ch)) (v (ix1 ch)) := by
  unfold k0_pay17
  rw [minimumf_apply, shapeCast_self, cast12]

theorem pay18_apply (v26 : FVec Ideal S2x12 .f32) (prev : Vec Ideal S1x1x12 .f32) (ch : Fin 12) :
    k0_pay18 (F := Ideal) v26 prev (ix3 0 0 ch)
      = max (prev (ix3 0 0 ch))
          (multiReduction (F := Ideal) .maximumf [0] S12 v26 0xFF800000#32 reduces_S2x12_S12 (.inl rfl) rfl (ix1 ch)) := by
  unfold k0_pay18
  dsimp only
  rw [maximumf_apply, shapeCast_self, cast12]

theorem pay1_apply (ch : Fin 12) : k0_pay1 (F := Ideal) (ix3 0 0 ch) = 0 := Ideal.ofBits_zero_f32

theorem pay2_apply (ch : Fin 12) : k0_pay2 (F := Ideal) (ix3 0 0 ch) = 0 := Ideal.ofBits_zero_f32

theorem pay3_apply (ch : Fin 12) : k0_pay3 (F := Ideal) (ix3 0 0 ch) = 0 := Ideal.ofBits_zero_f32

theorem pay4_apply (ch : Fin 12) : k0_pay4 (F := Ideal) (ix3 0 0 ch) = ⊤ := ofBits_pos_inf

theorem pay5_apply (ch : Fin 12) : k0_pay5 (F := Ideal) (ix3 0 0 ch) = ⊥ := ofBits_neg_inf

end Cert.KernelIdeal.Val

end
-- ==== Proof.LibRunFold.lean ====
/-
  Folds along runs of eight consecutive grid points. A quantity indexed by the point that restarts from a fixed value at the
  multiples of 8 and is stepped from its predecessor elsewhere — by adding, or by taking the minimum or the maximum with, the
  point's own contribution — is, at point n, the fixed value combined with the contributions of the points 8⌊n/8⌋ … n.
-/
import Mathlib.Algebra.BigOperators.Intervals
import Mathlib.Data.Finset.Lattice.Fold
import Mathlib.Data.EReal.Basic

namespace Cert.Stats

/-- A quantity that restarts at `z + M n` at the multiples of 8 and is its predecessor plus `M n` elsewhere is, at point `n`,
    `z` plus the sum of `M` over the points 8⌊n/8⌋ … n. -/
theorem sum_run8 {β : Type} [AddCommMonoid β] {N : ℕ} (f : (n : ℕ) → n < N → β) (M : ℕ → β) (z : β)
    (h0 : ∀ n (h : n < N), n % 8 = 0 → f n h = z + M n)
    (hs : ∀ n (h : n + 1 < N), (n + 1) % 8 ≠ 0 → f (n + 1) h = f n (Nat.lt_of_succ_lt h) + M (n + 1)) :
    ∀ n (h : n < N), f n h = z + ∑ s ∈ Finset.range (n % 8 + 1), M (8 * (n / 8) + s) := by
  intro n
  induction n with
  | zero => intro h; rw [h0 0 h rfl]; simp
  | succ k ih =>
    intro h
    by_cases hk : (k + 1) % 8 = 0
    · rw [h0 _ h hk, hk, Finset.sum_range_one, show 8 * ((k + 1) / 8) + 0 = k + 1 by omega]
    · rw [hs k h hk, ih (Nat.lt_of_succ_lt h), show (k + 1) % 8 + 1 = (k % 8 + 1) + 1 by omega, Finset.sum_range_succ _ (k % 8 + 1),
        show (k + 1) / 8 = k / 8 by omega, show 8 * (k / 8) + (k % 8 + 1) = k + 1 by omega, add_assoc]

/-- A quantity that restarts at `z ⊓ M n` at the multiples of 8 and is the infimum of its predecessor and `M n` elsewhere is, at
    point `n`, the infimum of `z` and of `M` over the points 8⌊n/8⌋ … n. -/
theorem inf_run8 {β : Type} [SemilatticeInf β] [OrderTop β] {N : ℕ} (f : (n : ℕ) → n < N → β) (M : ℕ → β) (z : β)
    (h0 : ∀ n (h : n < N), n % 8 = 0 → f n h = z ⊓ M n)
    (hs : ∀ n (h : n + 1 < N), (n + 1) % 8 ≠ 0 → f (n + 1) h = f n (Nat.lt_of_succ_lt h) ⊓ M (n + 1)) :
    ∀ n (h : n < N), f n h = z ⊓ (Finset.range (n % 8 + 1)).inf fun s => M (8 * (n / 8) + s) := by
  intro n
  induction n with
  | zero => intro h; rw [h0 0 h rfl]; simp
  | succ k ih =>
    intro h
    by_cases hk : (k + 1) % 8 = 0
    · rw [h0 _ h hk, hk, Finset.range_one, Finset.inf_singleton, show 8 * ((k + 1) / 8) + 0 = k + 1 by omega]
    · rw [hs k h hk, ih (Nat.lt_of_succ_lt h), show (k + 1) % 8 + 1 = (k % 8 + 1) + 1 by omega, Finset.range_add_one (n := k % 8 + 1), Finset.inf_insert,
        show (k + 1) / 8 = k / 8 by omega, show 8 * (k / 8) + (k % 8 + 1) = k + 1 by omega, inf_assoc, inf_comm (M (k + 1))]

/-- A quantity that restarts at `z ⊔ M n` at the multiples of 8 and is the supremum of its predecessor and `M n` elsewhere is,
    at point `n`, the supremum of `z` and of `M` over the points 8⌊n/8⌋ … n. -/
theorem sup_run8 {β : Type} [SemilatticeSup β] [OrderBot β] {N : ℕ} (f : (n : ℕ) → n < N → β) (M : ℕ → β) (z : β)
    (h0 : ∀ n (h : n < N), n % 8 = 0 → f n h = z ⊔ M n)
    (hs : ∀ n (h : n + 1 < N), (n + 1) % 8 ≠ 0 → f (n + 1) h = f n (Nat.lt_of_succ_lt h) ⊔ M (n + 1)) :
    ∀ n (h : n < N), f n h = z ⊔ (Finset.range (n % 8 + 1)).sup fun s => M (8 * (n / 8) + s) := by
  intro n
  induction n with
  | zero => intro h; rw [h0 0 h rfl]; simp
  | succ k ih =>
    intro h
    by_cases hk : (k + 1) % 8 = 0
    · rw [h0 _ h hk, hk, Finset.range_one, Finset.sup_singleton, show 8 * ((k + 1) / 8) + 0 = k + 1 by omega]
    · rw [hs k h hk, ih (Nat.lt_of_succ_lt h), show (k + 1) % 8 + 1 = (k % 8 + 1) + 1 by omega, Finset.range_add_one (n := k % 8 + 1), Finset.sup_insert,
        show (k + 1) / 8 = k / 8 by omega, show 8 * (k / 8) + (k % 8 + 1) = k + 1 by omega, sup_assoc, sup_comm (M (k + 1))]

end Cert.Stats
-- ==== Proof.KIAcc.lean ====
/-
  The five accumulators along a half of the batch. After the body at grid point n, the staging buffer of the count holds,
  at channel ch, the sum over the points 8⌊n/8⌋ … n of the point's block count; likewise the sum and the sum of squares;
  the buffer of the least value holds the minimum over those points of the block's least value, and the buffer of the
  greatest value the maximum of the blocks' greatest values. (Each half starts from 0, +∞ or -∞, which the body stores itself.)
-/
import proofs.«170440_j6811818131595_2_alg».proof.Proof.KIOut
import proofs.«170440_j6811818131595_2_alg».proof.Proof.KIPay
import proofs.«170440_j6811818131595_2_alg».proof.Proof.LibRunFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Val

/-- The input block at point `n` (anything past the grid, where nothing reads it). -/
def blkN (c : Dev nD) (n : ℕ) : Vec Ideal S2x12x256x256 .f32 := if h : n < cfg0.N then iblk m c 0 ⟨n, h⟩ else fun _ => 0

theorem blkN_of_lt (c : Dev nD) (n : ℕ) (h : n < cfg0.N) : blkN m c n = iblk m c 0 ⟨n, h⟩ := dif_pos h

theorem acc1 (c : Dev nD) (ch : Fin 12) : ∀ n (h : n < cfg0.N),
    (outsAt0 m c n h).1 (ix3 0 0 ch) = 0 + ∑ s ∈ Finset.range (n % 8 + 1), k0_pay10 (F := Ideal) (blkN m c (8 * (n / 8) + s)) (ix1 ch) := by
  refine Cert.Stats.sum_run8 (fun n h => (outsAt0 m c n h).1 (ix3 0 0 ch)) (fun n => k0_pay10 (F := Ideal) (blkN m c n) (ix1 ch)) 0 ?_ ?_
  · intro n h hn
    have e := outsAt0_A m c ⟨n, h⟩ hn
    dsimp only at e
    show (outsAt0 m c n h).1 (ix3 0 0 ch) = _
    rw [e]; dsimp only
    rw [out_A_1, pay14_apply, pay1_apply, blkN_of_lt m c n h]
  · intro n h hn
    have e := outsAt0_B m c ⟨n + 1, h⟩ hn
    dsimp only at e
    show (outsAt0 m c (n + 1) h).1 (ix3 0 0 ch) = (outsAt0 m c n _).1 (ix3 0 0 ch) + _
    rw [e]; dsimp only
    rw [out_B_1, pay14_apply, blkN_of_lt m c (n + 1) h]
    try rfl

theorem acc2 (c : Dev nD) (ch : Fin 12) : ∀ n (h : n < cfg0.N),
    (outsAt0 m c n h).2.1 (ix3 0 0 ch) = 0 + ∑ s ∈ Finset.range (n % 8 + 1), k0_pay11 (F := Ideal) (blkN m c (8 * (n / 8) + s)) (ix1 ch) := by
  refine Cert.Stats.sum_run8 (fun n h => (outsAt0 m c n h).2.1 (ix3 0 0 ch)) (fun n => k0_pay11 (F := Ideal) (blkN m c n) (ix1 ch)) 0 ?_ ?_
  · intro n h hn
    have e := outsAt0_A m c ⟨n, h⟩ hn
    dsimp only at e
    show (outsAt0 m c n h).2.1 (ix3 0 0 ch) = _
    rw [e]; dsimp only
    rw [out_A_2, pay15_apply, pay2_apply, blkN_of_lt m c n h]
  · intro n h hn
    have e := outsAt0_B m c ⟨n + 1, h⟩ hn
    dsimp only at e
    show (outsAt0 m c (n + 1) h).2.1 (ix3 0 0 ch) = (outsAt0 m c n _).2.1 (ix3 0 0 ch) + _
    rw [e]; dsimp only
    rw [out_B_2, pay15_apply, blkN_of_lt m c (n + 1) h]
    try rfl

theorem acc3 (c : Dev nD) (ch : Fin 12) : ∀ n (h : n < cfg0.N),
    (outsAt0 m c n h).2.2.1 (ix3 0 0 ch) = 0 + ∑ s ∈ Finset.range (n % 8 + 1), k0_pay12 (F := Ideal) (blkN m c (8 * (n / 8) + s)) (ix1 ch) := by
  refine Cert.Stats.sum_run8 (fun n h => (outsAt0 m c n h).2.2.1 (ix3 0 0 ch)) (fun n => k0_pay12 (F := Ideal) (blkN m c n) (ix1 ch)) 0 ?_ ?_
  · intro n h hn
    have e := outsAt0_A m c ⟨n, h⟩ hn
    dsimp only at e
    show (outsAt0 m c n h).2.2.1 (ix3 0 0 ch) = _
    rw [e]; dsimp only
    rw [out_A_3, pay16_apply, pay3_apply, blkN_of_lt m c n h]
  · intro n h hn
    have e := outsAt0_B m c ⟨n + 1, h⟩ hn
    dsimp only at e
    show (outsAt0 m c (n + 1) h).2.2.1 (ix3 0 0 ch) = (outsAt0 m c n _).2.2.1 (ix3 0 0 ch) + _
    rw [e]; dsimp only
    rw [out_B_3, pay16_apply, blkN_of_lt m c (n + 1) h]
    try rfl

theorem acc4 (c : Dev nD) (ch : Fin 12) : ∀ n (h : n < cfg0.N),
    (outsAt0 m c n h).2.2.2.1 (ix3 0 0 ch) = ⊤ ⊓ (Finset.range (n % 8 + 1)).inf fun s => k0_pay13 (F := Ideal) (blkN m c (8 * (n / 8) + s)) (ix1 ch) := by
  refine Cert.Stats.inf_run8 (fun n h => (outsAt0 m c n h).2.2.2.1 (ix3 0 0 ch)) (fun n => k0_pay13 (F := Ideal) (blkN m c n) (ix1 ch)) ⊤ ?_ ?_
  · intro n h hn
    have e := outsAt0_A m c ⟨n, h⟩ hn
    dsimp only at e
    show (outsAt0 m c n h).2.2.2.1 (ix3 0 0 ch) = _
    rw [e]; dsimp only
    rw [out_A_4, pay17_apply, pay4_apply, blkN_of_lt m c n h]
    try rfl
  · intro n h hn
    have e := outsAt0_B m c ⟨n + 1, h⟩ hn
    dsimp only at e
    show (outsAt0 m c (n + 1) h).2.2.2.1 (ix3 0 0 ch) = (outsAt0 m c n _).2.2.2.1 (ix3 0 0 ch) ⊓ _
    rw [e]; dsimp only
    rw [out_B_4, pay17_apply, blkN_of_lt m c (n + 1) h]
    try rfl

/-- The greatest fixed value of the block at point `n`, per channel. -/
def blkMax (c : Dev nD) (n : ℕ) (ch : Fin 12) : EReal :=
  multiReduction (F := Ideal) .maximumf [0] S12 (k0_pay9 (F := Ideal) (blkN m c n)) 0xFF800000#32 reduces_S2x12_S12 (.inl rfl) rfl (ix1 ch)

theorem acc5 (c : Dev nD) (ch : Fin 12) : ∀ n (h : n < cfg0.N),
    (outsAt0 m c n h).2.2.2.2 (ix3 0 0 ch) = ⊥ ⊔ (Finset.range (n % 8 + 1)).sup fun s => blkMax m c (8 * (n / 8) + s) ch := by
  refine Cert.Stats.sup_run8 (fun n h => (outsAt0 m c n h).2.2.2.2 (ix3 0 0 ch)) (fun n => blkMax m c n ch) ⊥ ?_ ?_
  · intro n h hn
    have e := outsAt0_A m c ⟨n, h⟩ hn
    dsimp only at e
    show (outsAt0 m c n h).2.2.2.2 (ix3 0 0 ch) = _
    rw [e]; dsimp only
    rw [out_A_5, pay18_apply, pay5_apply, ← blkN_of_lt m c n h]
    try rfl
  · intro n h hn
    have e := outsAt0_B m c ⟨n + 1, h⟩ hn
    dsimp only at e
    show (outsAt0 m c (n + 1) h).2.2.2.2 (ix3 0 0 ch) = (outsAt0 m c n _).2.2.2.2 (ix3 0 0 ch) ⊔ _
    rw [e]; dsimp only
    rw [out_B_5, pay18_apply, ← blkN_of_lt m c (n + 1) h]
    try rfl

end Cert.KernelIdeal.Fr

end
-- ==== Proof.KIFinal.lean ====
/-
  The five arrays the region writes, after the run. Output block g of each array (g = 0, 1: the halves of the batch) is
  written back once, after the last of the half's eight points, so entry (g, 0, ch) of the array is the accumulator's value
  there: the fold over the half's eight blocks.
-/
import proofs.«170440_j6811818131595_2_alg».proof.Proof.KIAcc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Val

/-- Output window 1's block index at point `t` is the half of the batch, its blocks are uncut. -/
theorem index1 : ∀ t : Fin cfg0.N, win0_1.index t 0 = t.val / 8 ∧ win0_1.index t 1 = 0 ∧ win0_1.index t 2 = 0
    ∧ win0_1.xsize (grid0.coords t) 0 = 1 ∧ win0_1.xsize (grid0.coords t) 1 = 1 ∧ win0_1.xsize (grid0.coords t) 2 = 12 :=
  (by decide +kernel : ∀ t : Fin grid0.N, win0_1.index t 0 = t.val / 8 ∧ win0_1.index t 1 = 0 ∧ win0_1.index t 2 = 0
    ∧ win0_1.xsize (grid0.coords t) 0 = 1 ∧ win0_1.xsize (grid0.coords t) 1 = 1 ∧ win0_1.xsize (grid0.coords t) 2 = 12)

/-- The fold over the eight blocks of half `g`, at channel `k`. -/
def run1 (c : Dev nD) (g k : ℕ) : EReal := if hk : k < 12 then 0 + ∑ s ∈ Finset.range 8, k0_pay10 (F := Ideal) (blkN m c (8 * g + s)) (ix1 ⟨k, hk⟩) else 0

/-- What array 1 ends holding. -/
def G1 (c : Dev nD) : FVec Ideal S2x1x12 .f32 := fun i => run1 m c (i 0).val (i 2).val

theorem flushed1_eq (c : Dev nD) (t : Fin cfg0.N) (hf : (cfg0.win 1).flush t = true) :
    (dats m 0 c).flushed 1 t = ((cfg0.win 1).blk t).view.read (Elt Ideal) (G1 m c) := by
  have h7 : t.val % 8 = 7 := (flush0_1 t).mp hf
  obtain ⟨i0, i1, i2, x0, x1, x2⟩ := index1 t
  funext y
  have hy0 : (y 0).val < 1 := lt_of_lt_of_eq (y 0).isLt x0
  have hy1 : (y 1).val < 1 := lt_of_lt_of_eq (y 1).isLt x1
  have hy2 : (y 2).val < 12 := lt_of_lt_of_eq (y 2).isLt x2
  rw [View.read_apply]
  show ((dats m 0 c).after 1 t) ((cfg0.win 1).xinj (grid0.coords t) y) = G1 m c (((cfg0.win 1).blk t).view.emb y)
  rw [after0_1]
  have ey : (cfg0.win 1).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have e0 : ((((cfg0.win 1).blk t).view.emb y) 0).val = t.val / 8 := by
    show win0_1.index t 0 * 1 + 1 * (y 0).val = _; rw [i0]; omega
  have e2 : ((((cfg0.win 1).blk t).view.emb y) 2).val = (y 2).val := by
    show win0_1.index t 2 * 12 + 1 * (y 2).val = _; rw [i2]; omega
  rw [ey, acc1 m c ⟨(y 2).val, hy2⟩ t.val t.isLt, h7]
  unfold G1
  rw [e0, e2]
  unfold run1
  rw [dif_pos hy2]

theorem final1 (c : Dev nD) : (dats m 0 c).arrAt 1 cfg0.N = G1 m c :=
  (dats m 0 c).arrAt_eq_of_cover 1 (G1 m c) (flushed1_eq m c) fun i => by
    have hi0 : (i 0).val < 2 := (i 0).isLt
    have hi1 : (i 1).val < 1 := (i 1).isLt
    have hi2 : (i 2).val < 12 := (i 2).isLt
    have hN : cfg0.N = 16 := N_0
    have ht : 8 * (i 0).val + 7 < cfg0.N := by omega
    obtain ⟨i0, i1, i2, x0, x1, x2⟩ := index1 ⟨8 * (i 0).val + 7, ht⟩
    refine ⟨⟨8 * (i 0).val + 7, ht⟩, (flush0_1 _).mpr (by show (8 * (i 0).val + 7) % 8 = 7; omega), ?_⟩
    show i ∈ ((View.whole main_v0_0).slice (win0_1.rect ⟨8 * (i 0).val + 7, ht⟩)).set
    rw [View.set_slice_whole, Rect.mem_set_unit]
    intro a
    match a with
    | ⟨0, _⟩ =>
      show win0_1.index _ 0 * 1 ≤ (i 0 : Nat) ∧ (i 0 : Nat) < win0_1.index _ 0 * 1 + win0_1.xsize _ 0
      rw [i0, x0]; show (8 * (i 0).val + 7) / 8 * 1 ≤ (i 0).val ∧ (i 0).val < (8 * (i 0).val + 7) / 8 * 1 + 1; omega
    | ⟨1, _⟩ =>
      show win0_1.index _ 1 * 1 ≤ (i 1 : Nat) ∧ (i 1 : Nat) < win0_1.index _ 1 * 1 + win0_1.xsize _ 1
      rw [i1, x1]; omega
    | ⟨2, _⟩ =>
      show win0_1.index _ 2 * 12 ≤ (i 2 : Nat) ∧ (i 2 : Nat) < win0_1.index _ 2 * 12 + win0_1.xsize _ 2
      rw [i2, x2]; omega

/-- Output window 2's block index at point `t` is the half of the batch, its blocks are uncut. -/
theorem index2 : ∀ t : Fin cfg0.N, win0_2.index t 0 = t.val / 8 ∧ win0_2.index t 1 = 0 ∧ win0_2.index t 2 = 0
    ∧ win0_2.xsize (grid0.coords t) 0 = 1 ∧ win0_2.xsize (grid0.coords t) 1 = 1 ∧ win0_2.xsize (grid0.coords t) 2 = 12 :=
  (by decide +kernel : ∀ t : Fin grid0.N, win0_2.index t 0 = t.val / 8 ∧ win0_2.index t 1 = 0 ∧ win0_2.index t 2 = 0
    ∧ win0_2.xsize (grid0.coords t) 0 = 1 ∧ win0_2.xsize (grid0.coords t) 1 = 1 ∧ win0_2.xsize (grid0.coords t) 2 = 12)

/-- The fold over the eight blocks of half `g`, at channel `k`. -/
def run2 (c : Dev nD) (g k : ℕ) : EReal := if hk : k < 12 then 0 + ∑ s ∈ Finset.range 8, k0_pay11 (F := Ideal) (blkN m c (8 * g + s)) (ix1 ⟨k, hk⟩) else 0

/-- What array 2 ends holding. -/
def G2 (c : Dev nD) : FVec Ideal S2x1x12 .f32 := fun i => run2 m c (i 0).val (i 2).val

theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  obtain ⟨i0, i1, i2, x0, x1, x2⟩ := index2 t
  funext y
  have hy0 : (y 0).val < 1 := lt_of_lt_of_eq (y 0).isLt x0
  have hy1 : (y 1).val < 1 := lt_of_lt_of_eq (y 1).isLt x1
  have hy2 : (y 2).val < 12 := lt_of_lt_of_eq (y 2).isLt x2
  rw [View.read_apply]
  show ((dats m 0 c).after 2 t) ((cfg0.win 2).xinj (grid0.coords t) y) = G2 m c (((cfg0.win 2).blk t).view.emb y)
  rw [after0_2]
  have ey : (cfg0.win 2).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have e0 : ((((cfg0.win 2).blk t).view.emb y) 0).val = t.val / 8 := by
    show win0_2.index t 0 * 1 + 1 * (y 0).val = _; rw [i0]; omega
  have e2 : ((((cfg0.win 2).blk t).view.emb y) 2).val = (y 2).val := by
    show win0_2.index t 2 * 12 + 1 * (y 2).val = _; rw [i2]; omega
  rw [ey, acc2 m c ⟨(y 2).val, hy2⟩ t.val t.isLt, h7]
  unfold G2
  rw [e0, e2]
  unfold run2
  rw [dif_pos hy2]

theorem final2 (c : Dev nD) : (dats m 0 c).arrAt 2 cfg0.N = G2 m c :=
  (dats m 0 c).arrAt_eq_of_cover 2 (G2 m c) (flushed2_eq m c) fun i => by
    have hi0 : (i 0).val < 2 := (i 0).isLt
    have hi1 : (i 1).val < 1 := (i 1).isLt
    have hi2 : (i 2).val < 12 := (i 2).isLt
    have hN : cfg0.N = 16 := N_0
    have ht : 8 * (i 0).val + 7 < cfg0.N := by omega
    obtain ⟨i0, i1, i2, x0, x1, x2⟩ := index2 ⟨8 * (i 0).val + 7, ht⟩
    refine ⟨⟨8 * (i 0).val + 7, ht⟩, (flush0_2 _).mpr (by show (8 * (i 0).val + 7) % 8 = 7; omega), ?_⟩
    show i ∈ ((View.whole main_v0_1).slice (win0_2.rect ⟨8 * (i 0).val + 7, ht⟩)).set
    rw [View.set_slice_whole, Rect.mem_set_unit]
    intro a
    match a with
    | ⟨0, _⟩ =>
      show win0_2.index _ 0 * 1 ≤ (i 0 : Nat) ∧ (i 0 : Nat) < win0_2.index _ 0 * 1 + win0_2.xsize _ 0
      rw [i0, x0]; show (8 * (i 0).val + 7) / 8 * 1 ≤ (i 0).val ∧ (i 0).val < (8 * (i 0).val + 7) / 8 * 1 + 1; omega
    | ⟨1, _⟩ =>
      show win0_2.index _ 1 * 1 ≤ (i 1 : Nat) ∧ (i 1 : Nat) < win0_2.index _ 1 * 1 + win0_2.xsize _ 1
      rw [i1, x1]; omega
    | ⟨2, _⟩ =>
      show win0_2.index _ 2 * 12 ≤ (i 2 : Nat) ∧ (i 2 : Nat) < win0_2.index _ 2 * 12 + win0_2.xsize _ 2
      rw [i2, x2]; omega

/-- Output window 3's block index at point `t` is the half of the batch, its blocks are uncut. -/
theorem index3 : ∀ t : Fin cfg0.N, win0_3.index t 0 = t.val / 8 ∧ win0_3.index t 1 = 0 ∧ win0_3.index t 2 = 0
    ∧ win0_3.xsize (grid0.coords t) 0 = 1 ∧ win0_3.xsize (grid0.coords t) 1 = 1 ∧ win0_3.xsize (grid0.coords t) 2 = 12 :=
  (by decide +kernel : ∀ t : Fin grid0.N, win0_3.index t 0 = t.val / 8 ∧ win0_3.index t 1 = 0 ∧ win0_3.index t 2 = 0
    ∧ win0_3.xsize (grid0.coords t) 0 = 1 ∧ win0_3.xsize (grid0.coords t) 1 = 1 ∧ win0_3.xsize (grid0.coords t) 2 = 12)

/-- The fold over the eight blocks of half `g`, at channel `k`. -/
def run3 (c : Dev nD) (g k : ℕ) : EReal := if hk : k < 12 then 0 + ∑ s ∈ Finset.range 8, k0_pay12 (F := Ideal) (blkN m c (8 * g + s)) (ix1 ⟨k, hk⟩) else 0

/-- What array 3 ends holding. -/
def G3 (c : Dev nD) : FVec Ideal S2x1x12 .f32 := fun i => run3 m c (i 0).val (i 2).val

theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  obtain ⟨i0, i1, i2, x0, x1, x2⟩ := index3 t
  funext y
  have hy0 : (y 0).val < 1 := lt_of_lt_of_eq (y 0).isLt x0
  have hy1 : (y 1).val < 1 := lt_of_lt_of_eq (y 1).isLt x1
  have hy2 : (y 2).val < 12 := lt_of_lt_of_eq (y 2).isLt x2
  rw [View.read_apply]
  show ((dats m 0 c).after 3 t) ((cfg0.win 3).xinj (grid0.coords t) y) = G3 m c (((cfg0.win 3).blk t).view.emb y)
  rw [after0_3]
  have ey : (cfg0.win 3).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have e0 : ((((cfg0.win 3).blk t).view.emb y) 0).val = t.val / 8 := by
    show win0_3.index t 0 * 1 + 1 * (y 0).val = _; rw [i0]; omega
  have e2 : ((((cfg0.win 3).blk t).view.emb y) 2).val = (y 2).val := by
    show win0_3.index t 2 * 12 + 1 * (y 2).val = _; rw [i2]; omega
  rw [ey, acc3 m c ⟨(y 2).val, hy2⟩ t.val t.isLt, h7]
  unfold G3
  rw [e0, e2]
  unfold run3
  rw [dif_pos hy2]

theorem final3 (c : Dev nD) : (dats m 0 c).arrAt 3 cfg0.N = G3 m c :=
  (dats m 0 c).arrAt_eq_of_cover 3 (G3 m c) (flushed3_eq m c) fun i => by
    have hi0 : (i 0).val < 2 := (i 0).isLt
    have hi1 : (i 1).val < 1 := (i 1).isLt
    have hi2 : (i 2).val < 12 := (i 2).isLt
    have hN : cfg0.N = 16 := N_0
    have ht : 8 * (i 0).val + 7 < cfg0.N := by omega
    obtain ⟨i0, i1, i2, x0, x1, x2⟩ := index3 ⟨8 * (i 0).val + 7, ht⟩
    refine ⟨⟨8 * (i 0).val + 7, ht⟩, (flush0_3 _).mpr (by show (8 * (i 0).val + 7) % 8 = 7; omega), ?_⟩
    show i ∈ ((View.whole main_v0_2).slice (win0_3.rect ⟨8 * (i 0).val + 7, ht⟩)).set
    rw [View.set_slice_whole, Rect.mem_set_unit]
    intro a
    match a with
    | ⟨0, _⟩ =>
      show win0_3.index _ 0 * 1 ≤ (i 0 : Nat) ∧ (i 0 : Nat) < win0_3.index _ 0 * 1 + win0_3.xsize _ 0
      rw [i0, x0]; show (8 * (i 0).val + 7) / 8 * 1 ≤ (i 0).val ∧ (i 0).val < (8 * (i 0).val + 7) / 8 * 1 + 1; omega
    | ⟨1, _⟩ =>
      show win0_3.index _ 1 * 1 ≤ (i 1 : Nat) ∧ (i 1 : Nat) < win0_3.index _ 1 * 1 + win0_3.xsize _ 1
      rw [i1, x1]; omega
    | ⟨2, _⟩ =>
      show win0_3.index _ 2 * 12 ≤ (i 2 : Nat) ∧ (i 2 : Nat) < win0_3.index _ 2 * 12 + win0_3.xsize _ 2
      rw [i2, x2]; omega

/-- Output window 4's block index at point `t` is the half of the batch, its blocks are uncut. -/
theorem index4 : ∀ t : Fin cfg0.N, win0_4.index t 0 = t.val / 8 ∧ win0_4.index t 1 = 0 ∧ win0_4.index t 2 = 0
    ∧ win0_4.xsize (grid0.coords t) 0 = 1 ∧ win0_4.xsize (grid0.coords t) 1 = 1 ∧ win0_4.xsize (grid0.coords t) 2 = 12 :=
  (by decide +kernel : ∀ t : Fin grid0.N, win0_4.index t 0 = t.val / 8 ∧ win0_4.index t 1 = 0 ∧ win0_4.index t 2 = 0
    ∧ win0_4.xsize (grid0.coords t) 0 = 1 ∧ win0_4.xsize (grid0.coords t) 1 = 1 ∧ win0_4.xsize (grid0.coords t) 2 = 12)

/-- The fold over the eight blocks of half `g`, at channel `k`. -/
def run4 (c : Dev nD) (g k : ℕ) : EReal := if hk : k < 12 then ⊤ ⊓ (Finset.range 8).inf fun s => k0_pay13 (F := Ideal) (blkN m c (8 * g + s)) (ix1 ⟨k, hk⟩) else 0

/-- What array 4 ends holding. -/
def G4 (c : Dev nD) : FVec Ideal S2x1x12 .f32 := fun i => run4 m c (i 0).val (i 2).val

theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  obtain ⟨i0, i1, i2, x0, x1, x2⟩ := index4 t
  funext y
  have hy0 : (y 0).val < 1 := lt_of_lt_of_eq (y 0).isLt x0
  have hy1 : (y 1).val < 1 := lt_of_lt_of_eq (y 1).isLt x1
  have hy2 : (y 2).val < 12 := lt_of_lt_of_eq (y 2).isLt x2
  rw [View.read_apply]
  show ((dats m 0 c).after 4 t) ((cfg0.win 4).xinj (grid0.coords t) y) = G4 m c (((cfg0.win 4).blk t).view.emb y)
  rw [after0_4]
  have ey : (cfg0.win 4).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have e0 : ((((cfg0.win 4).blk t).view.emb y) 0).val = t.val / 8 := by
    show win0_4.index t 0 * 1 + 1 * (y 0).val = _; rw [i0]; omega
  have e2 : ((((cfg0.win 4).blk t).view.emb y) 2).val = (y 2).val := by
    show win0_4.index t 2 * 12 + 1 * (y 2).val = _; rw [i2]; omega
  rw [ey, acc4 m c ⟨(y 2).val, hy2⟩ t.val t.isLt, h7]
  unfold G4
  rw [e0, e2]
  unfold run4
  rw [dif_pos hy2]

theorem final4 (c : Dev nD) : (dats m 0 c).arrAt 4 cfg0.N = G4 m c :=
  (dats m 0 c).arrAt_eq_of_cover 4 (G4 m c) (flushed4_eq m c) fun i => by
    have hi0 : (i 0).val < 2 := (i 0).isLt
    have hi1 : (i 1).val < 1 := (i 1).isLt
    have hi2 : (i 2).val < 12 := (i 2).isLt
    have hN : cfg0.N = 16 := N_0
    have ht : 8 * (i 0).val + 7 < cfg0.N := by omega
    obtain ⟨i0, i1, i2, x0, x1, x2⟩ := index4 ⟨8 * (i 0).val + 7, ht⟩
    refine ⟨⟨8 * (i 0).val + 7, ht⟩, (flush0_4 _).mpr (by show (8 * (i 0).val + 7) % 8 = 7; omega), ?_⟩
    show i ∈ ((View.whole main_v0_3).slice (win0_4.rect ⟨8 * (i 0).val + 7, ht⟩)).set
    rw [View.set_slice_whole, Rect.mem_set_unit]
    intro a
    match a with
    | ⟨0, _⟩ =>
      show win0_4.index _ 0 * 1 ≤ (i 0 : Nat) ∧ (i 0 : Nat) < win0_4.index _ 0 * 1 + win0_4.xsize _ 0
      rw [i0, x0]; show (8 * (i 0).val + 7) / 8 * 1 ≤ (i 0).val ∧ (i 0).val < (8 * (i 0).val + 7) / 8 * 1 + 1; omega
    | ⟨1, _⟩ =>
      show win0_4.index _ 1 * 1 ≤ (i 1 : Nat) ∧ (i 1 : Nat) < win0_4.index _ 1 * 1 + win0_4.xsize _ 1
      rw [i1, x1]; omega
    | ⟨2, _⟩ =>
      show win0_4.index _ 2 * 12 ≤ (i 2 : Nat) ∧ (i 2 : Nat) < win0_4.index _ 2 * 12 + win0_4.xsize _ 2
      rw [i2, x2]; omega

/-- Output window 5's block index at point `t` is the half of the batch, its blocks are uncut. -/
theorem index5 : ∀ t : Fin cfg0.N, win0_5.index t 0 = t.val / 8 ∧ win0_5.index t 1 = 0 ∧ win0_5.index t 2 = 0
    ∧ win0_5.xsize (grid0.coords t) 0 = 1 ∧ win0_5.xsize (grid0.coords t) 1 = 1 ∧ win0_5.xsize (grid0.coords t) 2 = 12 :=
  (by decide +kernel : ∀ t : Fin grid0.N, win0_5.index t 0 = t.val / 8 ∧ win0_5.index t 1 = 0 ∧ win0_5.index t 2 = 0
    ∧ win0_5.xsize (grid0.coords t) 0 = 1 ∧ win0_5.xsize (grid0.coords t) 1 = 1 ∧ win0_5.xsize (grid0.coords t) 2 = 12)

/-- The fold over the eight blocks of half `g`, at channel `k`. -/
def run5 (c : Dev nD) (g k : ℕ) : EReal := if hk : k < 12 then ⊥ ⊔ (Finset.range 8).sup fun s => blkMax m c (8 * g + s) ⟨k, hk⟩ else 0

/-- What array 5 ends holding. -/
def G5 (c : Dev nD) : FVec Ideal S2x1x12 .f32 := fun i => run5 m c (i 0).val (i 2).val

theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  obtain ⟨i0, i1, i2, x0, x1, x2⟩ := index5 t
  funext y
  have hy0 : (y 0).val < 1 := lt_of_lt_of_eq (y 0).isLt x0
  have hy1 : (y 1).val < 1 := lt_of_lt_of_eq (y 1).isLt x1
  have hy2 : (y 2).val < 12 := lt_of_lt_of_eq (y 2).isLt x2
  rw [View.read_apply]
  show ((dats m 0 c).after 5 t) ((cfg0.win 5).xinj (grid0.coords t) y) = G5 m c (((cfg0.win 5).blk t).view.emb y)
  rw [after0_5]
  have ey : (cfg0.win 5).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have e0 : ((((cfg0.win 5).blk t).view.emb y) 0).val = t.val / 8 := by
    show win0_5.index t 0 * 1 + 1 * (y 0).val = _; rw [i0]; omega
  have e2 : ((((cfg0.win 5).blk t).view.emb y) 2).val = (y 2).val := by
    show win0_5.index t 2 * 12 + 1 * (y 2).val = _; rw [i2]; omega
  rw [ey, acc5 m c ⟨(y 2).val, hy2⟩ t.val t.isLt, h7]
  unfold G5
  rw [e0, e2]
  unfold run5
  rw [dif_pos hy2]

theorem final5 (c : Dev nD) : (dats m 0 c).arrAt 5 cfg0.N = G5 m c :=
  (dats m 0 c).arrAt_eq_of_cover 5 (G5 m c) (flushed5_eq m c) fun i => by
    have hi0 : (i 0).val < 2 := (i 0).isLt
    have hi1 : (i 1).val < 1 := (i 1).isLt
    have hi2 : (i 2).val < 12 := (i 2).isLt
    have hN : cfg0.N = 16 := N_0
    have ht : 8 * (i 0).val + 7 < cfg0.N := by omega
    obtain ⟨i0, i1, i2, x0, x1, x2⟩ := index5 ⟨8 * (i 0).val + 7, ht⟩
    refine ⟨⟨8 * (i 0).val + 7, ht⟩, (flush0_5 _).mpr (by show (8 * (i 0).val + 7) % 8 = 7; omega), ?_⟩
    show i ∈ ((View.whole main_v0_4).slice (win0_5.rect ⟨8 * (i 0).val + 7, ht⟩)).set
    rw [View.set_slice_whole, Rect.mem_set_unit]
    intro a
    match a with
    | ⟨0, _⟩ =>
      show win0_5.index _ 0 * 1 ≤ (i 0 : Nat) ∧ (i 0 : Nat) < win0_5.index _ 0 * 1 + win0_5.xsize _ 0
      rw [i0, x0]; show (8 * (i 0).val + 7) / 8 * 1 ≤ (i 0).val ∧ (i 0).val < (8 * (i 0).val + 7) / 8 * 1 + 1; omega
    | ⟨1, _⟩ =>
      show win0_5.index _ 1 * 1 ≤ (i 1 : Nat) ∧ (i 1 : Nat) < win0_5.index _ 1 * 1 + win0_5.xsize _ 1
      rw [i1, x1]; omega
    | ⟨2, _⟩ =>
      show win0_5.index _ 2 * 12 ≤ (i 2 : Nat) ∧ (i 2 : Nat) < win0_5.index _ 2 * 12 + win0_5.xsize _ 2
      rw [i2, x2]; omega

end Cert.KernelIdeal.Fr

end
-- ==== Proof.KIBlk.lean ====
/-
  The input window's block at a grid point, read at an index: point `t` fetches batch slices `2t` and `2t + 1` whole, so
  entry (d, ch, h, w) of the block is entry (2t + d, ch, h, w) of the input array.
-/
import proofs.«170440_j6811818131595_2_alg».proof.Proof.KIBase
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The input window's block index at point `t`: `t` on the batch axis, 0 on the others. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

theorem iblk_apply (c : Dev nD) (t : Fin cfg0.N) (d : Fin 2) (ch : Fin 12) (h w : Fin 256) :
    (iblk m c 0 t : Vec F S2x12x256x256 .f32) (ix4 d ch h w)
      = m ((c : Thread nD τ).loc main_arg0) (ix4 (⟨2 * t.val + d.val, by have := t.isLt; have hN : cfg0.N = 16 := N_0; have := d.isLt; omega⟩ : Fin 32) ch h w) := by
  obtain ⟨h0, h1, h2, h3⟩ := index0 t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * d.val = 2 * t.val + d.val; rw [h0]; omega
  | ⟨1, _⟩ => show win0_0.index t 1 * 12 + 1 * ch.val = ch.val; rw [h1]; omega
  | ⟨2, _⟩ => show win0_0.index t 2 * 256 + 1 * h.val = h.val; rw [h2]; omega
  | ⟨3, _⟩ => show win0_0.index t 3 * 256 + 1 * w.val = w.val; rw [h3]; omega

end Cert.KernelIdeal.Fr

end
-- ==== Proof.StatsMathSums.lean ====
/-
  Re-indexing of finite sums, infima and suprema of extended reals: a triple index against one flat index through a
  bijection, the batch axis 32 = 2 · 8 · 2, and the axes (batch, row, column) flattened row-major into 2097152 = 32 · 256 · 256.
-/
import proofs.«170440_j6811818131595_2_alg».proof.Proof.StatsSpec

noncomputable section

namespace Cert.Stats

open Idealize.ShloMosaic

/-! ## Re-indexing a triple index by one flat index -/

section Generic

variable {α β γ δ : Type} [Fintype α] [Fintype β] [Fintype γ] [Fintype δ]

theorem sum_equiv3 (e : δ ≃ α × β × γ) (F : α → β → γ → EReal) :
    ∑ k, F (e k).1 (e k).2.1 (e k).2.2 = ∑ a, ∑ b, ∑ c, F a b c := by
  rw [e.sum_comp (fun p : α × β × γ => F p.1 p.2.1 p.2.2)]
  simp only [Fintype.sum_prod_type]

theorem sup_equiv3 (e : δ ≃ α × β × γ) (F : α → β → γ → EReal) :
    (Finset.univ.sup fun k => F (e k).1 (e k).2.1 (e k).2.2)
      = Finset.univ.sup fun a => Finset.univ.sup fun b => Finset.univ.sup fun c => F a b c := by
  simp only [Finset.sup_univ_eq_iSup]
  rw [e.iSup_comp (g := fun p : α × β × γ => F p.1 p.2.1 p.2.2)]
  simp only [iSup_prod]

theorem inf_equiv3 (e : δ ≃ α × β × γ) (F : α → β → γ → EReal) :
    (Finset.univ.inf fun k => F (e k).1 (e k).2.1 (e k).2.2)
      = Finset.univ.inf fun a => Finset.univ.inf fun b => Finset.univ.inf fun c => F a b c := by
  simp only [Finset.inf_univ_eq_iInf]
  rw [e.iInf_comp (g := fun p : α × β × γ => F p.1 p.2.1 p.2.2)]
  simp only [iInf_prod]

end Generic

/-- The batch index as (half, step, slice): 32 = 2 · 8 · 2. -/
def batchEquiv : Fin 32 ≃ Fin 2 × Fin 8 × Fin 2 where
  toFun b := (⟨b.val / 16, by omega⟩, ⟨b.val / 2 % 8, by omega⟩, ⟨b.val % 2, by omega⟩)
  invFun p := ⟨(p.1.val * 8 + p.2.1.val) * 2 + p.2.2.val, by omega⟩
  left_inv b := by apply Fin.ext; simp only []; omega
  right_inv p := by
    obtain ⟨g, j, d⟩ := p
    refine Prod.ext (Fin.ext ?_) (Prod.ext (Fin.ext ?_) (Fin.ext ?_)) <;> simp only [] <;> omega

/-- The flat index of (batch, row, column), row-major: 2097152 = 32 · 256 · 256. -/
def flatEquiv : Fin 2097152 ≃ Fin 32 × Fin 256 × Fin 256 where
  toFun k := (⟨k.val / 65536, by omega⟩, ⟨k.val / 256 % 256, by omega⟩, ⟨k.val % 256, by omega⟩)
  invFun p := ⟨p.1.val * 65536 + p.2.1.val * 256 + p.2.2.val, by omega⟩
  left_inv k := by apply Fin.ext; simp only []; omega
  right_inv p := by
    obtain ⟨b, h, w⟩ := p
    refine Prod.ext (Fin.ext ?_) (Prod.ext (Fin.ext ?_) (Fin.ext ?_)) <;> simp only [] <;> omega

/-! ## The batch axis walked as 2 halves × 8 steps × 2 slices -/

theorem sum_batch (F : Fin 32 → EReal) :
    ∑ b : Fin 32, F b
      = ∑ g : Fin 2, ∑ j : Fin 8, ∑ d : Fin 2, F ⟨(g.val * 8 + j.val) * 2 + d.val, by omega⟩ := by
  rw [← sum_equiv3 batchEquiv (fun g j d => F ⟨(g.val * 8 + j.val) * 2 + d.val, by omega⟩)]
  refine Finset.sum_congr rfl fun b _ => ?_
  show F b = F (batchEquiv.symm (batchEquiv b))
  rw [Equiv.symm_apply_apply]

theorem sup_batch (F : Fin 32 → EReal) :
    Finset.univ.sup F
      = Finset.univ.sup fun g : Fin 2 => Finset.univ.sup fun j : Fin 8 => Finset.univ.sup fun d : Fin 2 =>
          F ⟨(g.val * 8 + j.val) * 2 + d.val, by omega⟩ := by
  rw [← sup_equiv3 batchEquiv (fun g j d => F ⟨(g.val * 8 + j.val) * 2 + d.val, by omega⟩)]
  congr 1; funext b
  show F b = F (batchEquiv.symm (batchEquiv b))
  rw [Equiv.symm_apply_apply]

theorem inf_batch (F : Fin 32 → EReal) :
    Finset.univ.inf F
      = Finset.univ.inf fun g : Fin 2 => Finset.univ.inf fun j : Fin 8 => Finset.univ.inf fun d : Fin 2 =>
          F ⟨(g.val * 8 + j.val) * 2 + d.val, by omega⟩ := by
  rw [← inf_equiv3 batchEquiv (fun g j d => F ⟨(g.val * 8 + j.val) * 2 + d.val, by omega⟩)]
  congr 1; funext b
  show F b = F (batchEquiv.symm (batchEquiv b))
  rw [Equiv.symm_apply_apply]

/-! ## (batch, row, column) flattened row-major into one axis -/

theorem sum_flat (F : Fin 32 → Fin 256 → Fin 256 → EReal) :
    ∑ k : Fin 2097152, F ⟨k.val / 65536, by omega⟩ ⟨k.val / 256 % 256, by omega⟩ ⟨k.val % 256, by omega⟩
      = ∑ b : Fin 32, ∑ h : Fin 256, ∑ w : Fin 256, F b h w :=
  sum_equiv3 flatEquiv F

theorem sup_flat (F : Fin 32 → Fin 256 → Fin 256 → EReal) :
    (Finset.univ.sup fun k : Fin 2097152 =>
        F ⟨k.val / 65536, by omega⟩ ⟨k.val / 256 % 256, by omega⟩ ⟨k.val % 256, by omega⟩)
      = Finset.univ.sup fun b : Fin 32 => Finset.univ.sup fun h : Fin 256 => Finset.univ.sup fun w : Fin 256 => F b h w :=
  sup_equiv3 flatEquiv F

theorem inf_flat (F : Fin 32 → Fin 256 → Fin 256 → EReal) :
    (Finset.univ.inf fun k : Fin 2097152 =>
        F ⟨k.val / 65536, by omega⟩ ⟨k.val / 256 % 256, by omega⟩ ⟨k.val % 256, by omega⟩)
      = Finset.univ.inf fun b : Fin 32 => Finset.univ.inf fun h : Fin 256 => Finset.univ.inf fun w : Fin 256 => F b h w :=
  inf_equiv3 flatEquiv F

end Cert.Stats

end
-- ==== Proof.StatsMathOrder.lean ====
/-
  Pointwise facts about the shifted, fixed and mask values of an entry, and the one order argument of the statistics:
  the greatest fixed value may be taken over all entries, valid or not, provided the result is replaced by -∞ when the
  number of valid entries is not positive.
-/
import proofs.«170440_j6811818131595_2_alg».proof.Proof.StatsSpec
import proofs.«170440_j6811818131595_2_alg».proof.Proof.StatsMathSums

noncomputable section

namespace Cert.Stats

open Idealize.ShloMosaic

/-! ## The constants -/

theorem ofBits_zero : Ideal.ofBits .f32 0x00000000#32 = 0 := by simp [Ideal.ofBits, Ideal.ieee]

theorem ofBits_thousand : Ideal.ofBits .f32 0x447A0000#32 = ((1000 : ℝ) : EReal) := by
  simp [Ideal.ofBits, Ideal.ieee, -EReal.coe_mul]; norm_num

theorem ofBits_ten_thousand : Ideal.ofBits .f32 0x461C4000#32 = ((10000 : ℝ) : EReal) := by
  simp [Ideal.ofBits, Ideal.ieee, -EReal.coe_mul]; norm_num

theorem ofBits_ten_thousand_pos : (0 : EReal) < Ideal.ofBits .f32 0x461C4000#32 := by
  rw [ofBits_ten_thousand]; exact EReal.coe_pos.mpr (by norm_num)

/-! ## Pointwise facts about the shifted, fixed and mask values -/

theorem fixed_eq (v : EReal) :
    fixed v = min (Ideal.ofBits .f32 0x461C4000#32) (max 0 (shifted v)) := by
  unfold fixed; rw [ofBits_zero]

theorem mask_eq (v : EReal) : mask v = if 0 < shifted v then 1 else 0 := by
  unfold mask; rw [ofBits_zero]

theorem mask_of_pos {v : EReal} (h : 0 < shifted v) : mask v = 1 := by rw [mask_eq, if_pos h]

theorem mask_of_not_pos {v : EReal} (h : ¬ 0 < shifted v) : mask v = 0 := by rw [mask_eq, if_neg h]

theorem mask_zero_or_one (v : EReal) : mask v = 0 ∨ mask v = 1 := by
  by_cases h : 0 < shifted v
  · exact Or.inr (mask_of_pos h)
  · exact Or.inl (mask_of_not_pos h)

theorem mask_nonneg (v : EReal) : 0 ≤ mask v := by
  rcases mask_zero_or_one v with h | h <;> rw [h]
  exact zero_le_one

theorem fixed_of_not_pos {v : EReal} (h : ¬ 0 < shifted v) : fixed v = 0 := by
  rw [fixed_eq, max_eq_left (not_lt.mp h), min_eq_right (le_of_lt ofBits_ten_thousand_pos)]

theorem fixed_pos {v : EReal} (h : 0 < shifted v) : 0 < fixed v := by
  rw [fixed_eq]; exact lt_min ofBits_ten_thousand_pos (lt_max_of_lt_right h)

theorem fixed_nonneg (v : EReal) : 0 ≤ fixed v := by
  rw [fixed_eq]; exact le_min (le_of_lt ofBits_ten_thousand_pos) (le_max_left _ _)

theorem fixed_mul_mask (v : EReal) : fixed v * mask v = fixed v := by
  by_cases h : 0 < shifted v
  · rw [mask_of_pos h, mul_one]
  · rw [fixed_of_not_pos h, zero_mul]

theorem fixed_sq_mul_mask (v : EReal) : fixed v * fixed v * mask v = fixed v * fixed v := by
  by_cases h : 0 < shifted v
  · rw [mask_of_pos h, mul_one]
  · rw [fixed_of_not_pos h, zero_mul, zero_mul]

/-- The same facts with the comparison against the f32 pattern of zero, as the statistics spell it. -/
theorem fixed_of_not_pos' {v : EReal} (h : ¬ Ideal.ofBits .f32 0x00000000#32 < shifted v) : fixed v = 0 :=
  fixed_of_not_pos (by rwa [ofBits_zero] at h)

theorem fixed_pos' {v : EReal} (h : Ideal.ofBits .f32 0x00000000#32 < shifted v) : 0 < fixed v :=
  fixed_pos (by rwa [ofBits_zero] at h)

theorem mask_of_pos' {v : EReal} (h : Ideal.ofBits .f32 0x00000000#32 < shifted v) : mask v = 1 :=
  mask_of_pos (by rwa [ofBits_zero] at h)

theorem mask_of_not_pos' {v : EReal} (h : ¬ Ideal.ofBits .f32 0x00000000#32 < shifted v) : mask v = 0 :=
  mask_of_not_pos (by rwa [ofBits_zero] at h)

/-! ## The unmasked greatest value, repaired at the empty case -/

section Generic

variable {ι : Type} [Fintype ι]

/-- If the valid entries have positive values and the others the value 0, the greatest value over ALL entries is the
    greatest over the valid ones as soon as one entry is valid; the number of valid entries tells which case holds. -/
theorem sup_unmasked (f : ι → EReal) (valid : ι → Prop) [DecidablePred valid]
    (hpos : ∀ i, valid i → 0 < f i) (hzero : ∀ i, ¬ valid i → f i = 0) :
    (if 0 < ∑ i, (if valid i then (1 : EReal) else 0) then Finset.univ.sup f else ⊥)
      = Finset.univ.sup fun i => if valid i then f i else ⊥ := by
  by_cases hex : ∃ i0, valid i0
  · obtain ⟨i0, h0⟩ := hex
    have hcount : 0 < ∑ i, (if valid i then (1 : EReal) else 0) := by
      have h1 : (if valid i0 then (1 : EReal) else 0) ≤ ∑ i, (if valid i then (1 : EReal) else 0) :=
        Finset.single_le_sum (f := fun i => if valid i then (1 : EReal) else 0)
          (fun i _ => by split_ifs <;> simp) (Finset.mem_univ i0)
      rw [if_pos h0] at h1
      exact lt_of_lt_of_le (by simp) h1
    rw [if_pos hcount]
    apply le_antisymm
    · apply Finset.sup_le
      intro i _
      by_cases hi : valid i
      · have h1 : (fun i => if valid i then f i else ⊥) i ≤ Finset.univ.sup fun i => if valid i then f i else ⊥ :=
          Finset.le_sup (f := fun i => if valid i then f i else (⊥ : EReal)) (Finset.mem_univ i)
        simp only [if_pos hi] at h1
        exact h1
      · rw [hzero i hi]
        have h1 : (fun i => if valid i then f i else ⊥) i0 ≤ Finset.univ.sup fun i => if valid i then f i else ⊥ :=
          Finset.le_sup (f := fun i => if valid i then f i else (⊥ : EReal)) (Finset.mem_univ i0)
        simp only [if_pos h0] at h1
        exact le_trans (le_of_lt (hpos i0 h0)) h1
    · apply Finset.sup_mono_fun
      intro i _
      split_ifs
      · exact le_rfl
      · exact bot_le
  · have hall : ∀ i, ¬ valid i := fun i hi => hex ⟨i, hi⟩
    have hcount : ∑ i, (if valid i then (1 : EReal) else 0) = 0 :=
      Finset.sum_eq_zero fun i _ => by rw [if_neg (hall i)]
    rw [hcount, if_neg (lt_irrefl _)]
    symm
    rw [Finset.sup_eq_bot_iff]
    intro i _
    rw [if_neg (hall i)]

end Generic

/-- The greatest fixed value over ALL entries of a channel, replaced by -∞ when no entry is valid, is the greatest fixed
    value among the valid entries. -/
theorem greatest_eq (x : Arr) (c : Fin 12) :
    (if 0 < count x c then
        (Finset.univ.sup fun b : Fin 32 => Finset.univ.sup fun h : Fin 256 => Finset.univ.sup fun w : Fin 256 =>
          fixed (x b c h w))
      else ⊥) = greatest x c := by
  have hs := sup_equiv3 (Equiv.refl (Fin 32 × Fin 256 × Fin 256)) (fun b h w => fixed (x b c h w))
  have hg := sup_equiv3 (Equiv.refl (Fin 32 × Fin 256 × Fin 256))
    (fun b h w => if Ideal.ofBits .f32 0x00000000#32 < shifted (x b c h w) then fixed (x b c h w) else ⊥)
  have hc := sum_equiv3 (Equiv.refl (Fin 32 × Fin 256 × Fin 256)) (fun b h w => mask (x b c h w))
  simp only [Equiv.refl_apply] at hs hg hc
  unfold greatest count
  rw [← hs, ← hg, ← hc]
  simp only [mask]
  exact @sup_unmasked (Fin 32 × Fin 256 × Fin 256) _ (fun p => fixed (x p.1 c p.2.1 p.2.2))
    (fun p => Ideal.ofBits .f32 0x00000000#32 < shifted (x p.1 c p.2.1 p.2.2)) _
    (fun p hp => fixed_pos' hp) (fun p hp => fixed_of_not_pos' hp)

end Cert.Stats

end
-- ==== Proof.StatsMathSplit.lean ====
/-
  The five per-channel statistics restated over the batch axis split as 2 halves × 8 steps × 2 slices, and over the
  axes (batch, row, column) flattened row-major into one axis (where the sums may carry the mask as a factor).
-/
import proofs.«170440_j6811818131595_2_alg».proof.Proof.StatsSpec
import proofs.«170440_j6811818131595_2_alg».proof.Proof.StatsMathSums
import proofs.«170440_j6811818131595_2_alg».proof.Proof.StatsMathOrder

noncomputable section

namespace Cert.Stats

open Idealize.ShloMosaic

/-! ## Over the split batch axis -/

theorem count_split (x : Arr) (c : Fin 12) :
    count x c = ∑ g : Fin 2, ∑ j : Fin 8, ∑ d : Fin 2, ∑ h : Fin 256, ∑ w : Fin 256,
      mask (x ⟨(g.val * 8 + j.val) * 2 + d.val, by omega⟩ c h w) :=
  sum_batch fun b => ∑ h : Fin 256, ∑ w : Fin 256, mask (x b c h w)

theorem total_split (x : Arr) (c : Fin 12) :
    total x c = ∑ g : Fin 2, ∑ j : Fin 8, ∑ d : Fin 2, ∑ h : Fin 256, ∑ w : Fin 256,
      fixed (x ⟨(g.val * 8 + j.val) * 2 + d.val, by omega⟩ c h w) :=
  sum_batch fun b => ∑ h : Fin 256, ∑ w : Fin 256, fixed (x b c h w)

theorem totalSq_split (x : Arr) (c : Fin 12) :
    totalSq x c = ∑ g : Fin 2, ∑ j : Fin 8, ∑ d : Fin 2, ∑ h : Fin 256, ∑ w : Fin 256,
      fixed (x ⟨(g.val * 8 + j.val) * 2 + d.val, by omega⟩ c h w)
        * fixed (x ⟨(g.val * 8 + j.val) * 2 + d.val, by omega⟩ c h w) :=
  sum_batch fun b => ∑ h : Fin 256, ∑ w : Fin 256, fixed (x b c h w) * fixed (x b c h w)

theorem least_split (x : Arr) (c : Fin 12) :
    least x c = Finset.univ.inf fun g : Fin 2 => Finset.univ.inf fun j : Fin 8 => Finset.univ.inf fun d : Fin 2 =>
      Finset.univ.inf fun h : Fin 256 => Finset.univ.inf fun w : Fin 256 =>
        if Ideal.ofBits .f32 0x00000000#32 < shifted (x ⟨(g.val * 8 + j.val) * 2 + d.val, by omega⟩ c h w)
        then fixed (x ⟨(g.val * 8 + j.val) * 2 + d.val, by omega⟩ c h w) else ⊤ :=
  inf_batch fun b => Finset.univ.inf fun h : Fin 256 => Finset.univ.inf fun w : Fin 256 =>
    if Ideal.ofBits .f32 0x00000000#32 < shifted (x b c h w) then fixed (x b c h w) else ⊤

theorem greatest_split (x : Arr) (c : Fin 12) :
    (if 0 < count x c then
        (Finset.univ.sup fun g : Fin 2 => Finset.univ.sup fun j : Fin 8 => Finset.univ.sup fun d : Fin 2 =>
          Finset.univ.sup fun h : Fin 256 => Finset.univ.sup fun w : Fin 256 =>
            fixed (x ⟨(g.val * 8 + j.val) * 2 + d.val, by omega⟩ c h w))
      else ⊥) = greatest x c := by
  rw [← greatest_eq x c,
    sup_batch fun b => Finset.univ.sup fun h : Fin 256 => Finset.univ.sup fun w : Fin 256 => fixed (x b c h w)]

/-! ## Over the flattened axis -/

theorem count_flat (x : Arr) (c : Fin 12) :
    ∑ k : Fin 2097152, mask (x ⟨k.val / 65536, by omega⟩ c ⟨k.val / 256 % 256, by omega⟩ ⟨k.val % 256, by omega⟩)
      = count x c :=
  sum_flat fun b h w => mask (x b c h w)

theorem total_flat (x : Arr) (c : Fin 12) :
    ∑ k : Fin 2097152,
        fixed (x ⟨k.val / 65536, by omega⟩ c ⟨k.val / 256 % 256, by omega⟩ ⟨k.val % 256, by omega⟩)
          * mask (x ⟨k.val / 65536, by omega⟩ c ⟨k.val / 256 % 256, by omega⟩ ⟨k.val % 256, by omega⟩)
      = total x c := by
  simp only [fixed_mul_mask]
  exact sum_flat fun b h w => fixed (x b c h w)

theorem totalSq_flat (x : Arr) (c : Fin 12) :
    ∑ k : Fin 2097152,
        fixed (x ⟨k.val / 65536, by omega⟩ c ⟨k.val / 256 % 256, by omega⟩ ⟨k.val % 256, by omega⟩)
          * fixed (x ⟨k.val / 65536, by omega⟩ c ⟨k.val / 256 % 256, by omega⟩ ⟨k.val % 256, by omega⟩)
          * mask (x ⟨k.val / 65536, by omega⟩ c ⟨k.val / 256 % 256, by omega⟩ ⟨k.val % 256, by omega⟩)
      = totalSq x c := by
  simp only [fixed_sq_mul_mask]
  exact sum_flat fun b h w => fixed (x b c h w) * fixed (x b c h w)

theorem least_flat (x : Arr) (c : Fin 12) :
    (Finset.univ.inf fun k : Fin 2097152 =>
        if Ideal.ofBits .f32 0x00000000#32
            < shifted (x ⟨k.val / 65536, by omega⟩ c ⟨k.val / 256 % 256, by omega⟩ ⟨k.val % 256, by omega⟩)
        then fixed (x ⟨k.val / 65536, by omega⟩ c ⟨k.val / 256 % 256, by omega⟩ ⟨k.val % 256, by omega⟩) else ⊤)
      = least x c :=
  inf_flat fun b h w => if Ideal.ofBits .f32 0x00000000#32 < shifted (x b c h w) then fixed (x b c h w) else ⊤

theorem greatest_flat (x : Arr) (c : Fin 12) :
    (Finset.univ.sup fun k : Fin 2097152 =>
        if Ideal.ofBits .f32 0x00000000#32
            < shifted (x ⟨k.val / 65536, by omega⟩ c ⟨k.val / 256 % 256, by omega⟩ ⟨k.val % 256, by omega⟩)
        then fixed (x ⟨k.val / 65536, by omega⟩ c ⟨k.val / 256 % 256, by omega⟩ ⟨k.val % 256, by omega⟩) else ⊥)
      = greatest x c :=
  sup_flat fun b h w => if Ideal.ofBits .f32 0x00000000#32 < shifted (x b c h w) then fixed (x b c h w) else ⊥

end Cert.Stats

end
-- ==== Proof.KIStats.lean ====
/-
  The host's reductions over the two halves of the batch, applied to the five arrays the region leaves, are the five
  per-channel statistics of the input: the halves' folds over their eight blocks of two slices re-assemble the sums,
  the infimum and the supremum over the whole batch, and the supremum taken over all entries is repaired by the count.
-/
import proofs.«170440_j6811818131595_2_alg».proof.Proof.KIFinal
import proofs.«170440_j6811818131595_2_alg».proof.Proof.KIHost
import proofs.«170440_j6811818131595_2_alg».proof.Proof.KIBlk
import proofs.«170440_j6811818131595_2_alg».proof.Proof.KIPay
import proofs.«170440_j6811818131595_2_alg».proof.Proof.StatsMathSplit
import Idealize.ShloMosaic.Lib.IdealHost

set_option maxRecDepth 16384

noncomputable section

namespace Cert.KernelIdeal.Fr

open Cert.KernelIdeal Cert.KernelIdeal.Gen
open Idealize.ShloMosaic Idealize.ShloMosaic.TcCoe

variable (m : (ℓ : Loc nD τ sig) → Buf (Elt Ideal) ℓ)

open Idealize.ShloMosaic.ValueIdx Cert.KernelIdeal.Val

/-! ## Folds over an initial segment of the naturals as folds over `Fin` -/

theorem sup_range_eq {n : ℕ} (f : ℕ → EReal) :
    (Finset.range n).sup f = Finset.univ.sup fun i : Fin n => f i.val := by
  apply le_antisymm
  · exact Finset.sup_le fun i hi =>
      Finset.le_sup (f := fun i : Fin n => f i.val) (Finset.mem_univ (⟨i, Finset.mem_range.mp hi⟩ : Fin n))
  · exact Finset.sup_le fun i _ => Finset.le_sup (f := f) (Finset.mem_range.mpr i.isLt)

theorem inf_range_eq {n : ℕ} (f : ℕ → EReal) :
    (Finset.range n).inf f = Finset.univ.inf fun i : Fin n => f i.val := by
  apply le_antisymm
  · exact Finset.le_inf fun i _ => Finset.inf_le (f := f) (Finset.mem_range.mpr i.isLt)
  · exact Finset.le_inf fun i hi =>
      Finset.inf_le (f := fun i : Fin n => f i.val) (Finset.mem_univ (⟨i, Finset.mem_range.mp hi⟩ : Fin n))

/-! ## The host's reductions over the two halves, read at a channel -/

theorem castHalf (A : FVec Ideal S2x1x12 .f32) (g : Fin 2) (ch : Fin 12) :
    shapeCast S2x12 A shapeCasts_S2x1x12_S2x12 (ix2 g ch) = A (ix3 g 0 ch) :=
  shapeCast_apply A _ _ _ (by
    rw [Shape.rowMajor_val_two, Shape.rowMajor_val_three]
    show (g.val * 1 + 0) * 12 + ch.val = g.val * 12 + ch.val
    omega)

theorem hostAdd2 (x : FVec Ideal S2x12 .f32) (init : S_.Idx → Ideal .f32) (ch : Fin 12) :
    Host.reduceAdd x init reducesTo_S2x12_S12_d0 h_S_ (ix1 ch)
      = init (Shape.Idx.first h_S_) + ∑ g : Fin 2, x (ix2 g ch) := by
  show Ideal.hostReduceAdd reducesTo_S2x12_S12_d0 x (init (Shape.Idx.first h_S_)) (ix1 ch) = _
  rw [Ideal.hostReduceAdd_single reducesTo_S2x12_S12_d0 reduces_S2x12_S12]
  exact congrArg _ (Finset.sum_congr rfl fun g _ => congrArg x (lift0 ch g))

theorem hostMin2 (x : FVec Ideal S2x12 .f32) (init : S_.Idx → Ideal .f32) (ch : Fin 12) :
    Host.reduce FloatOps.minimumf x init reducesTo_S2x12_S12_d0 h_S_ (ix1 ch)
      = (Finset.univ : Finset (Fin 2)).fold min (init (Shape.Idx.first h_S_)) fun g => x (ix2 g ch) := by
  rw [Host.reduce_eq_fold_single FloatOps.minimumf x init reducesTo_S2x12_S12_d0 reduces_S2x12_S12 h_S_ (ix1 ch)]
  exact congrArg (fun f : Fin 2 → EReal => (Finset.univ : Finset (Fin 2)).fold min (init (Shape.Idx.first h_S_)) f)
    (funext fun g => congrArg x (lift0 ch g))

theorem hostMax2 (x : FVec Ideal S2x12 .f32) (init : S_.Idx → Ideal .f32) (ch : Fin 12) :
    Host.reduce FloatOps.maximumf x init reducesTo_S2x12_S12_d0 h_S_ (ix1 ch)
      = (Finset.univ : Finset (Fin 2)).fold max (init (Shape.Idx.first h_S_)) fun g => x (ix2 g ch) := by
  rw [Host.reduce_eq_fold_single FloatOps.maximumf x init reducesTo_S2x12_S12_d0 reduces_S2x12_S12 h_S_ (ix1 ch)]
  exact congrArg (fun f : Fin 2 → EReal => (Finset.univ : Finset (Fin 2)).fold max (init (Shape.Idx.first h_S_)) f)
    (funext fun g => congrArg x (lift0 ch g))

theorem hostN_apply (A : FVec Ideal S2x1x12 .f32) (ch : Fin 12) :
    hostN A (ix1 ch) = ∑ g : Fin 2, A (ix3 g 0 ch) := by
  unfold hostN
  rw [hostAdd2, constant_apply, Ideal.ofBits_zero_f32, zero_add]
  exact Finset.sum_congr rfl fun g _ => castHalf A g ch

theorem hostLo_apply (A : FVec Ideal S2x1x12 .f32) (ch : Fin 12) :
    hostLo A (ix1 ch) = Finset.univ.inf fun g : Fin 2 => A (ix3 g 0 ch) := by
  unfold hostLo
  rw [hostMin2, constant_apply, ofBits_pos_inf, fold_min_top]
  exact congrArg _ (funext fun g => castHalf A g ch)

theorem hostHiRaw_apply (A : FVec Ideal S2x1x12 .f32) (ch : Fin 12) :
    hostHiRaw A (ix1 ch) = Finset.univ.sup fun g : Fin 2 => A (ix3 g 0 ch) := by
  unfold hostHiRaw
  rw [hostMax2, constant_apply, ofBits_neg_inf, fold_max_bot]
  exact congrArg _ (funext fun g => castHalf A g ch)

theorem hostHi_apply (A1 A5 : FVec Ideal S2x1x12 .f32) (ch : Fin 12) :
    hostHi A1 A5 (ix1 ch) = if 0 < hostN A1 (ix1 ch) then hostHiRaw A5 (ix1 ch) else ⊥ := by
  show Scalar.select (Ideal.cmp .ogt (hostN A1 (ix1 ch)) (Ideal.ofBits .f32 0x00000000#32)) (hostHiRaw A5 (ix1 ch))
    (Ideal.ofBits .f32 0xFF800000#32) = _
  rw [Ideal.ofBits_zero_f32, ofBits_neg_inf]
  unfold Ideal.cmp
  by_cases hv : 0 < hostN A1 (ix1 ch)
  · rw [if_pos hv]; simp only [decide_eq_true hv]; exact select_one _ _
  · rw [if_neg hv]; simp only [decide_eq_false hv]; exact select_zero _ _

/-! ## The region's arrays in terms of the input -/

/-- The input as a function of (batch, channel, row, column). -/
def xin (c : Dev nD) : Cert.Stats.Arr :=
  fun b ch h w => (m ((c : Thread nD τ).loc main_arg0) : FVec Ideal S32x12x256x256 .f32) (ix4 b ch h w)

theorem blk_entry (c : Dev nD) (g : Fin 2) (s : Fin 8) (d : Fin 2) (ch : Fin 12) (h w : Fin 256) :
    blkN m c (8 * g.val + s.val) (ix4 d ch h w)
      = xin m c ⟨(g.val * 8 + s.val) * 2 + d.val, by omega⟩ ch h w := by
  have hN : cfg0.N = 16 := N_0
  have hlt : 8 * g.val + s.val < cfg0.N := by omega
  rw [blkN_of_lt m c _ hlt, iblk_apply]
  unfold xin
  exact congrArg (fun b : Fin 32 => (m ((c : Thread nD τ).loc main_arg0) : FVec Ideal S32x12x256x256 .f32) (ix4 b ch h w))
    (Fin.ext (by show 2 * (8 * g.val + s.val) + d.val = (g.val * 8 + s.val) * 2 + d.val; omega))

theorem G1_apply (c : Dev nD) (g : Fin 2) (ch : Fin 12) :
    G1 m c (ix3 g 0 ch) = ∑ s : Fin 8, ∑ d : Fin 2, ∑ h : Fin 256, ∑ w : Fin 256,
      Cert.Stats.mask (xin m c ⟨(g.val * 8 + s.val) * 2 + d.val, by omega⟩ ch h w) := by
  show run1 m c g.val ch.val = _
  unfold run1
  rw [dif_pos ch.isLt, zero_add, Finset.sum_range]
  refine Finset.sum_congr rfl fun s _ => ?_
  rw [pay10_apply]
  simp only [blk_entry]

theorem G2_apply (c : Dev nD) (g : Fin 2) (ch : Fin 12) :
    G2 m c (ix3 g 0 ch) = ∑ s : Fin 8, ∑ d : Fin 2, ∑ h : Fin 256, ∑ w : Fin 256,
      Cert.Stats.fixed (xin m c ⟨(g.val * 8 + s.val) * 2 + d.val, by omega⟩ ch h w) := by
  show run2 m c g.val ch.val = _
  unfold run2
  rw [dif_pos ch.isLt, zero_add, Finset.sum_range]
  refine Finset.sum_congr rfl fun s _ => ?_
  rw [pay11_apply]
  simp only [blk_entry]

theorem G3_apply (c : Dev nD) (g : Fin 2) (ch : Fin 12) :
    G3 m c (ix3 g 0 ch) = ∑ s : Fin 8, ∑ d : Fin 2, ∑ h : Fin 256, ∑ w : Fin 256,
      Cert.Stats.fixed (xin m c ⟨(g.val * 8 + s.val) * 2 + d.val, by omega⟩ ch h w)
        * Cert.Stats.fixed (xin m c ⟨(g.val * 8 + s.val) * 2 + d.val, by omega⟩ ch h w) := by
  show run3 m c g.val ch.val = _
  unfold run3
  rw [dif_pos ch.isLt, zero_add, Finset.sum_range]
  refine Finset.sum_congr rfl fun s _ => ?_
  rw [pay12_apply]
  simp only [blk_entry]

theorem G4_apply (c : Dev nD) (g : Fin 2) (ch : Fin 12) :
    G4 m c (ix3 g 0 ch) = Finset.univ.inf fun s : Fin 8 => Finset.univ.inf fun d : Fin 2 =>
      Finset.univ.inf fun h : Fin 256 => Finset.univ.inf fun w : Fin 256 =>
        if Ideal.ofBits .f32 0x00000000#32
            < Cert.Stats.shifted (xin m c ⟨(g.val * 8 + s.val) * 2 + d.val, by omega⟩ ch h w)
        then Cert.Stats.fixed (xin m c ⟨(g.val * 8 + s.val) * 2 + d.val, by omega⟩ ch h w) else ⊤ := by
  show run4 m c g.val ch.val = _
  unfold run4
  rw [dif_pos ch.isLt, top_inf_eq, inf_range_eq]
  refine congrArg _ (funext fun s => ?_)
  rw [pay13_apply]
  simp only [blk_entry]

theorem G5_apply (c : Dev nD) (g : Fin 2) (ch : Fin 12) :
    G5 m c (ix3 g 0 ch) = Finset.univ.sup fun s : Fin 8 => Finset.univ.sup fun d : Fin 2 =>
      Finset.univ.sup fun h : Fin 256 => Finset.univ.sup fun w : Fin 256 =>
        Cert.Stats.fixed (xin m c ⟨(g.val * 8 + s.val) * 2 + d.val, by omega⟩ ch h w) := by
  show run5 m c g.val ch.val = _
  unfold run5
  rw [dif_pos ch.isLt, bot_sup_eq, sup_range_eq]
  refine congrArg _ (funext fun s => ?_)
  unfold blkMax
  rw [pay9max_apply]
  simp only [blk_entry]

/-! ## The five statistics -/

theorem hostN_G1 (c : Dev nD) : hostN (G1 m c) = fun j => Cert.Stats.count (xin m c) (j 0) := by
  funext j
  obtain ⟨ch, rfl⟩ : ∃ ch : Fin 12, j = ix1 ch := ⟨j 0, eq_ix1 j⟩
  show hostN (G1 m c) (ix1 ch) = Cert.Stats.count (xin m c) ch
  rw [hostN_apply, Cert.Stats.count_split]
  exact Finset.sum_congr rfl fun g _ => G1_apply m c g ch

theorem hostN_G2 (c : Dev nD) : hostN (G2 m c) = fun j => Cert.Stats.total (xin m c) (j 0) := by
  funext j
  obtain ⟨ch, rfl⟩ : ∃ ch : Fin 12, j = ix1 ch := ⟨j 0, eq_ix1 j⟩
  show hostN (G2 m c) (ix1 ch) = Cert.Stats.total (xin m c) ch
  rw [hostN_apply, Cert.Stats.total_split]
  exact Finset.sum_congr rfl fun g _ => G2_apply m c g ch

theorem hostN_G3 (c : Dev nD) : hostN (G3 m c) = fun j => Cert.Stats.totalSq (xin m c) (j 0) := by
  funext j
  obtain ⟨ch, rfl⟩ : ∃ ch : Fin 12, j = ix1 ch := ⟨j 0, eq_ix1 j⟩
  show hostN (G3 m c) (ix1 ch) = Cert.Stats.totalSq (xin m c) ch
  rw [hostN_apply, Cert.Stats.totalSq_split]
  exact Finset.sum_congr rfl fun g _ => G3_apply m c g ch

theorem hostLo_G4 (c : Dev nD) : hostLo (G4 m c) = fun j => Cert.Stats.least (xin m c) (j 0) := by
  funext j
  obtain ⟨ch, rfl⟩ : ∃ ch : Fin 12, j = ix1 ch := ⟨j 0, eq_ix1 j⟩
  show hostLo (G4 m c) (ix1 ch) = Cert.Stats.least (xin m c) ch
  rw [hostLo_apply, Cert.Stats.least_split]
  exact congrArg _ (funext fun g => G4_apply m c g ch)

theorem hostHi_G1_G5 (c : Dev nD) :
    hostHi (G1 m c) (G5 m c) = fun j => Cert.Stats.greatest (xin m c) (j 0) := by
  funext j
  obtain ⟨ch, rfl⟩ : ∃ ch : Fin 12, j = ix1 ch := ⟨j 0, eq_ix1 j⟩
  show hostHi (G1 m c) (G5 m c) (ix1 ch) = Cert.Stats.greatest (xin m c) ch
  rw [hostHi_apply, congrFun (hostN_G1 m c) (ix1 ch), hostHiRaw_apply, ← Cert.Stats.greatest_split]
  show (if 0 < Cert.Stats.count (xin m c) ch then _ else ⊥) = _
  exact congrArg (fun v => if 0 < Cert.Stats.count (xin m c) ch then v else ⊥)
    (congrArg _ (funext fun g => G5_apply m c g ch))

end Cert.KernelIdeal.Fr

end
-- ==== Proof.KIValue.lean ====
/-
  The idealized kernel's run, read: every execution ends with the result buffer at the shared update of the six running
  arrays by the five per-channel statistics of the input — the count of valid entries, the sum and the sum of squares of
  the fixed values, the least and the greatest fixed value among the valid entries — and with the seven arguments unchanged.
-/
import proofs.«170440_j6811818131595_2_alg».proof.Proof.KITailVal
import proofs.«170440_j6811818131595_2_alg».proof.Proof.KIFinal
import proofs.«170440_j6811818131595_2_alg».proof.Proof.KIStats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-- The result the program ends with. -/
def result (c : Dev nD) : FVec Ideal S6x12 .f32 :=
  Cert.Stats.update bcast_S_S12 bcast_S12_S1x12_1 concatenates_S1x12_S1x12_S1x12_S1x12_S1x12_S1x12_S6x12_d0
    (fun j => Cert.Stats.count (xin m c) (j 0)) (fun j => Cert.Stats.total (xin m c) (j 0)) (fun j => Cert.Stats.totalSq (xin m c) (j 0))
    (fun j => Cert.Stats.least (xin m c) (j 0)) (fun j => Cert.Stats.greatest (xin m c) (j 0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem tail_result (c : Dev nD) : Pipeline.afterTail₀ cfgs (dats m) 0 (V0 m) tailOps c main_v61 = result m c := by
  rw [tail_eq, final1, final2, final3, final4, final5]
  unfold kernelOut result
  rw [hostN_G1 m c, hostN_G2 m c, hostN_G3 m c, hostLo_G4 m c, hostHi_G1_G5 m c]

theorem run_value : θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v61 (Pipeline.mem_restRefs_of main_v61 (by decide) (by decide))).trans (tail_result m c),
    ((h c).1 0).trans (((dats m 0 c).arrAt_in 0 rfl _).trans ((A_eq m c 0).trans (V_main_arg0 m c))),
    ((h c).2 main_arg1 (Pipeline.mem_restRefs_of main_arg1 (by decide) (by decide))).trans (W_arg m (dats m) c main_arg1 (by simp)),
    ((h c).2 main_arg2 (Pipeline.mem_restRefs_of main_arg2 (by decide) (by decide))).trans (W_arg m (dats m) c main_arg2 (by simp)),
    ((h c).2 main_arg3 (Pipeline.mem_restRefs_of main_arg3 (by decide) (by decide))).trans (W_arg m (dats m) c main_arg3 (by simp)),
    ((h c).2 main_arg4 (Pipeline.mem_restRefs_of main_arg4 (by decide) (by decide))).trans (W_arg m (dats m) c main_arg4 (by simp)),
    ((h c).2 main_arg5 (Pipeline.mem_restRefs_of main_arg5 (by decide) (by decide))).trans (W_arg m (dats m) c main_arg5 (by simp)),
    ((h c).2 main_arg6 (Pipeline.mem_restRefs_of main_arg6 (by decide) (by decide))).trans (W_arg m (dats m) c main_arg6 (by simp))⟩) (run_main m ρ)

end Cert.KernelIdeal.Fr

end
-- ==== Proof.RefOps.lean ====
/-
  The reference program as a list of its host operations.

  The reference is a straight line of 101 host operations, a called function's operations standing at its call, each
  at the literal buffers of that call and at the tensor types the function states. The program is the sequence of the
  list, no buffer or semaphore of its signature is scoped, and every operation touches only the device's buffers:
  what the run of a straight line of host operations asks for.
-/
import proofs.«170440_j6811818131595_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations, in order (a called function's operations stand in its call's place, each at the literal
    buffers of that call and at the tensor types the function states). -/
abbrev ops : List (HloOp τ sig (Elt F)) :=
  [ nullary main_cst (constant S_ .f32 0x447A0000#32),
    unary main_cst main_v0 (broadcastInDim S32x12x256x256 ![] bcast_S_S32x12x256x256 : (⟨S_, .f32⟩ : BufTy).Contents (Elt F) → (⟨S32x12x256x256, .f32⟩ : BufTy).Contents (Elt F)),
    binary main_arg0 main_v0 main_v1 (addf : (⟨S32x12x256x256, .f32⟩ : BufTy).Contents (Elt F) → (⟨S32x12x256x256, .f32⟩ : BufTy).Contents (Elt F) → (⟨S32x12x256x256, .f32⟩ : BufTy).Contents (Elt F)),
    nullary main_cst_0 (constant S_ .f32 0x00000000#32),
    unary main_cst_0 main_v2 (broadcastInDim S32x12x256x256 ![] bcast_S_S32x12x256x256 : (⟨S_, .f32⟩ : BufTy).Contents (Elt F) → (⟨S32x12x256x256, .f32⟩ : BufTy).Contents (Elt F)),
    binary main_v1 main_v2 main_v3 (cmpf .ogt : (⟨S32x12x256x256, .f32⟩ : BufTy).Contents (Elt F) → (⟨S32x12x256x256, .f32⟩ : BufTy).Contents (Elt F) → (⟨S32x12x256x256, .i1⟩ : BufTy).Contents (Elt F)),
    nullary main_cst_1 (constant S_ .f32 0x00000000#32),
    nullary main_cst_2 (constant S_ .f32 0x461C4000#32),
    unary main_cst_1 main_call0_v0 (id : (⟨S_, .f32⟩ : BufTy).Contents (Elt F) → (⟨S_, .f32⟩ : BufTy).Contents (Elt F)),
    unary main_call0_v0 main_call0_v1 (broadcastInDim S32x12x256x256 ![] bcast_S_S32x12x256x256 : (⟨S_, .f32⟩ : BufTy).Contents (Elt F) → (⟨S32x12x256x256, .f32⟩ : BufTy).Contents (Elt F)),
    binary main_call0_v1 main_v1 main_call0_v2 (maximumf : (⟨S32x12x256x256, .f32⟩ : BufTy).Contents (Elt F) → (⟨S32x12x256x256, .f32⟩ : BufTy).Contents (Elt F) → (⟨S32x12x256x256, .f32⟩ : BufTy).Contents (Elt F)),
    unary main_cst_2 main_call0_v3 (id : (⟨S_, .f32⟩ : BufTy).Contents (Elt F) → (⟨S_, .f32⟩ : BufTy).Contents (Elt F)),
    unary main_call0_v3 main_call0_v4 (broadcastInDim S32x12x256x256 ![] bcast_S_S32x12x256x256 : (⟨S_, .f32⟩ : BufTy).Contents (Elt F) → (⟨S32x12x256x256, .f32⟩ : BufTy).Contents (Elt F)),
    binary main_call0_v4 main_call0_v2 main_v4 (minimumf : (⟨S32x12x256x256, .f32⟩ : BufTy).Contents (Elt F) → (⟨S32x12x256x256, .f32⟩ : BufTy).Contents (Elt F) → (⟨S32x12x256x256, .f32⟩ : BufTy).Contents (Elt F)),
    unary main_v4 main_v5 ((transpose S12x32x256x256 [1, 0, 2, 3] · transposes_S32x12x256x256_S12x32x256x256_1_0_2_3) : (⟨S32x12x256x256, .f32⟩ : BufTy).Contents (Elt F) → (⟨S12x32x256x256, .f32⟩ : BufTy).Contents (Elt F)),
    reshape main_v5 main_v6 rfl shapeCasts_S12x32x256x256_S12x2097152,
    unary main_v3 main_v7 ((transpose S12x32x256x256 [1, 0, 2, 3] · transposes_S32x12x256x256_S12x32x256x256_1_0_2_3) : (⟨S32x12x256x256, .i1⟩ : BufTy).Contents (Elt F) → (⟨S12x32x256x256, .i1⟩ : BufTy).Contents (Elt F)),
    reshape main_v7 main_v8 rfl shapeCasts_S12x32x256x256_S12x2097152,
    unary main_v8 main_v9 (uitofp .f32 : (⟨S12x2097152, .i1⟩ : BufTy).Contents (Elt F) → (⟨S12x2097152, .f32⟩ : BufTy).Contents (Elt F)),
    nullary main_cst_3 (constant S_ .f32 0x00000000#32),
    binary main_v9 main_cst_3 main_v10 ((fun x v => Host.reduceAdd x v reducesTo_S12x2097152_S12_d1 h_S_) : (⟨S12x2097152, .f32⟩ : BufTy).Contents (Elt F) → (⟨S_, .f32⟩ : BufTy).Contents (Elt F) → (⟨S12, .f32⟩ : BufTy).Contents (Elt F)),
    binary main_v6 main_v9 main_v11 (mulf : (⟨S12x2097152, .f32⟩ : BufTy).Contents (Elt F) → (⟨S12x2097152, .f32⟩ : BufTy).Contents (Elt F) → (⟨S12x2097152, .f32⟩ : BufTy).Contents (Elt F)),
    nullary main_cst_4 (constant S_ .f32 0x00000000#32),
    binary main_v11 main_cst_4 main_v12 ((fun x v => Host.reduceAdd x v reducesTo_S12x2097152_S12_d1 h_S_) : (⟨S12x2097152, .f32⟩ : BufTy).Contents (Elt F) → (⟨S_, .f32⟩ : BufTy).Contents (Elt F) → (⟨S12, .f32⟩ : BufTy).Contents (Elt F)),
    binary main_v6 main_v6 main_v13 (mulf : (⟨S12x2097152, .f32⟩ : BufTy).Contents (Elt F) → (⟨S12x2097152, .f32⟩ : BufTy).Contents (Elt F) → (⟨S12x2097152, .f32⟩ : BufTy).Contents (Elt F)),
    binary main_v13 main_v9 main_v14 (mulf : (⟨S12x2097152, .f32⟩ : BufTy).Contents (Elt F) → (⟨S12x2097152, .f32⟩ : BufTy).Contents (Elt F) → (⟨S12x2097152, .f32⟩ : BufTy).Contents (Elt F)),
    nullary main_cst_5 (constant S_ .f32 0x00000000#32),
    binary main_v14 main_cst_5 main_v15 ((fun x v => Host.reduceAdd x v reducesTo_S12x2097152_S12_d1 h_S_) : (⟨S12x2097152, .f32⟩ : BufTy).Contents (Elt F) → (⟨S_, .f32⟩ : BufTy).Contents (Elt F) → (⟨S12, .f32⟩ : BufTy).Contents (Elt F)),
    nullary main_cst_6 (constant S_ .f32 0x3F800000#32),
    unary main_cst_6 main_v16 (broadcastInDim S12 ![] bcast_S_S12 : (⟨S_, .f32⟩ : BufTy).Contents (Elt F) → (⟨S12, .f32⟩ : BufTy).Contents (Elt F)),
    binary main_v10 main_v16 main_v17 (maximumf : (⟨S12, .f32⟩ : BufTy).Contents (Elt F) → (⟨S12, .f32⟩ : BufTy).Contents (Elt F) → (⟨S12, .f32⟩ : BufTy).Contents (Elt F)),
    nullary main_cst_7 (constant S_ .f32 0x00000000#32),
    unary main_cst_7 main_v18 (broadcastInDim S12 ![] bcast_S_S12 : (⟨S_, .f32⟩ : BufTy).Contents (Elt F) → (⟨S12, .f32⟩ : BufTy).Contents (Elt F)),
    binary main_v10 main_v18 main_v19 (cmpf .ogt : (⟨S12, .f32⟩ : BufTy).Contents (Elt F) → (⟨S12, .f32⟩ : BufTy).Contents (Elt F) → (⟨S12, .i1⟩ : BufTy).Contents (Elt F)),
    binary main_v12 main_v17 main_v20 (Host.divf : (⟨S12, .f32⟩ : BufTy).Contents (Elt F) → (⟨S12, .f32⟩ : BufTy).Contents (Elt F) → (⟨S12, .f32⟩ : BufTy).Contents (Elt F)),
    nullary main_cst_8 (constant S_ .f32 0x00000000#32),
    unary main_cst_8 main_call1_v0 (id : (⟨S_, .f32⟩ : BufTy).Contents (Elt F) → (⟨S_, .f32⟩ : BufTy).Contents (Elt F)),
    unary main_call1_v0 main_call1_v1 (broadcastInDim S12 ![] bcast_S_S12 : (⟨S_, .f32⟩ : BufTy).Contents (Elt F) → (⟨S12, .f32⟩ : BufTy).Contents (Elt F)),
    ternary main_v19 main_v20 main_call1_v1 main_v21 (select : (⟨S12, .i1⟩ : BufTy).Contents (Elt F) → (⟨S12, .f32⟩ : BufTy).Contents (Elt F) → (⟨S12, .f32⟩ : BufTy).Contents (Elt F) → (⟨S12, .f32⟩ : BufTy).Contents (Elt F)),
    binary main_v15 main_v17 main_v22 (Host.divf : (⟨S12, .f32⟩ : BufTy).Contents (Elt F) → (⟨S12, .f32⟩ : BufTy).Contents (Elt F) → (⟨S12, .f32⟩ : BufTy).Contents (Elt F)),
    binary main_v21 main_v21 main_v23 (mulf : (⟨S12, .f32⟩ : BufTy).Contents (Elt F) → (⟨S12, .f32⟩ : BufTy).Contents (Elt F) → (⟨S12, .f32⟩ : BufTy).Contents (Elt F)),
    binary main_v22 main_v23 main_v24 (subf : (⟨S12, .f32⟩ : BufTy).Contents (Elt F) → (⟨S12, .f32⟩ : BufTy).Contents (Elt F) → (⟨S12, .f32⟩ : BufTy).Contents (Elt F)),
    nullary main_cst_9 (constant S_ .f32 0x00000000#32),
    unary main_cst_9 main_v25 (broadcastInDim S12 ![] bcast_S_S12 : (⟨S_, .f32⟩ : BufTy).Contents (Elt F) → (⟨S12, .f32⟩ : BufTy).Contents (Elt F)),
    binary main_v24 main_v25 main_v26 (maximumf : (⟨S12, .f32⟩ : BufTy).Contents (Elt F) → (⟨S12, .f32⟩ : BufTy).Contents (Elt F) → (⟨S12, .f32⟩ : BufTy).Contents (Elt F)),
    nullary main_cst_10 (constant S_ .f32 0x3F800000#32),
    unary main_cst_10 main_v27 (broadcastInDim S12 ![] bcast_S_S12 : (⟨S_, .f32⟩ : BufTy).Contents (Elt F) → (⟨S12, .f32⟩ : BufTy).Contents (Elt F)),
    binary main_v10 main_v27 main_v28 (cmpf .ogt : (⟨S12, .f32⟩ : BufTy).Contents (Elt F) → (⟨S12, .f32⟩ : BufTy).Contents (Elt F) → (⟨S12, .i1⟩ : BufTy).Contents (Elt F)),
    nullary main_cst_11 (constant S_ .f32 0x00000000#32),
    unary main_cst_11 main_call2_v0 (id : (⟨S_, .f32⟩ : BufTy).Contents (Elt F) → (⟨S_, .f32⟩ : BufTy).Contents (Elt F)),
    unary main_call2_v0 main_call2_v1 (broadcastInDim S12 ![] bcast_S_S12 : (⟨S_, .f32⟩ : BufTy).Contents (Elt F) → (⟨S12, .f32⟩ : BufTy).Contents (Elt F)),
    ternary main_v28 main_v26 main_call2_v1 main_v29 (select : (⟨S12, .i1⟩ : BufTy).Contents (Elt F) → (⟨S12, .f32⟩ : BufTy).Contents (Elt F) → (⟨S12, .f32⟩ : BufTy).Contents (Elt F) → (⟨S12, .f32⟩ : BufTy).Contents (Elt F)),
    nullary main_cst_12 (constant S_ .f32 0x7F800000#32),
    unary main_cst_12 main_call3_v0 (id : (⟨S_, .f32⟩ : BufTy).Contents (Elt F) → (⟨S_, .f32⟩ : BufTy).Contents (Elt F)),
    unary main_call3_v0 main_call3_v1 (broadcastInDim S12x2097152 ![] bcast_S_S12x2097152 : (⟨S_, .f32⟩ : BufTy).Contents (Elt F) → (⟨S12x2097152, .f32⟩ : BufTy).Contents (Elt F)),
    ternary main_v8 main_v6 main_call3_v1 main_v30 (select : (⟨S12x2097152, .i1⟩ : BufTy).Contents (Elt F) → (⟨S12x2097152, .f32⟩ : BufTy).Contents (Elt F) → (⟨S12x2097152, .f32⟩ : BufTy).Contents (Elt F) → (⟨S12x2097152, .f32⟩ : BufTy).Contents (Elt F)),
    nullary main_cst_13 (constant S_ .f32 0x7F800000#32),
    binary main_v30 main_cst_13 main_v31 ((fun x v => Host.reduce FloatOps.minimumf x v reducesTo_S12x2097152_S12_d1 h_S_) : (⟨S12x2097152, .f32⟩ : BufTy).Contents (Elt F) → (⟨S_, .f32⟩ : BufTy).Contents (Elt F) → (⟨S12, .f32⟩ : BufTy).Contents (Elt F)),
    nullary main_cst_14 (constant S_ .f32 0xFF800000#32),
    unary main_cst_14 main_call4_v0 (id : (⟨S_, .f32⟩ : BufTy).Contents (Elt F) → (⟨S_, .f32⟩ : BufTy).Contents (Elt F)),
    unary main_call4_v0 main_call4_v1 (broadcastInDim S12x2097152 ![] bcast_S_S12x2097152 : (⟨S_, .f32⟩ : BufTy).Contents (Elt F) → (⟨S12x2097152, .f32⟩ : BufTy).Contents (Elt F)),
    ternary main_v8 main_v6 main_call4_v1 main_v32 (select : (⟨S12x2097152, .i1⟩ : BufTy).Contents (Elt F) → (⟨S12x2097152, .f32⟩ : BufTy).Contents (Elt F) → (⟨S12x2097152, .f32⟩ : BufTy).Contents (Elt F) → (⟨S12x2097152, .f32⟩ : BufTy).Contents (Elt F)),
    nullary main_cst_15 (constant S_ .f32 0xFF800000#32),
    binary main_v32 main_cst_15 main_v33 ((fun x v => Host.reduce FloatOps.maximumf x v reducesTo_S12x2097152_S12_d1 h_S_) : (⟨S12x2097152, .f32⟩ : BufTy).Contents (Elt F) → (⟨S_, .f32⟩ : BufTy).Contents (Elt F) → (⟨S12, .f32⟩ : BufTy).Contents (Elt F)),
    binary main_v21 main_arg1 main_v34 (subf : (⟨S12, .f32⟩ : BufTy).Contents (Elt F) → (⟨S12, .f32⟩ : BufTy).Contents (Elt F) → (⟨S12, .f32⟩ : BufTy).Contents (Elt F)),
    binary main_arg4 main_v10 main_v35 (addf : (⟨S12, .f32⟩ : BufTy).Contents (Elt F) → (⟨S12, .f32⟩ : BufTy).Contents (Elt F) → (⟨S12, .f32⟩ : BufTy).Contents (Elt F)),
    nullary main_cst_16 (constant S_ .f32 0x3F800000#32),
    unary main_cst_16 main_v36 (broadcastInDim S12 ![] bcast_S_S12 : (⟨S_, .f32⟩ : BufTy).Contents (Elt F) → (⟨S12, .f32⟩ : BufTy).Contents (Elt F)),
    binary main_v35 main_v36 main_v37 (maximumf : (⟨S12, .f32⟩ : BufTy).Contents (Elt F) → (⟨S12, .f32⟩ : BufTy).Contents (Elt F) → (⟨S12, .f32⟩ : BufTy).Contents (Elt F)),
    binary main_v10 main_v37 main_v38 (Host.divf : (⟨S12, .f32⟩ : BufTy).Contents (Elt F) → (⟨S12, .f32⟩ : BufTy).Contents (Elt F) → (⟨S12, .f32⟩ : BufTy).Contents (Elt F)),
    binary main_v34 main_v38 main_v39 (mulf : (⟨S12, .f32⟩ : BufTy).Contents (Elt F) → (⟨S12, .f32⟩ : BufTy).Contents (Elt F) → (⟨S12, .f32⟩ : BufTy).Contents (Elt F)),
    binary main_arg1 main_v39 main_v40 (addf : (⟨S12, .f32⟩ : BufTy).Contents (Elt F) → (⟨S12, .f32⟩ : BufTy).Contents (Elt F) → (⟨S12, .f32⟩ : BufTy).Contents (Elt F)),
    binary main_arg2 main_arg4 main_v41 (mulf : (⟨S12, .f32⟩ : BufTy).Contents (Elt F) → (⟨S12, .f32⟩ : BufTy).Contents (Elt F) → (⟨S12, .f32⟩ : BufTy).Contents (Elt F)),
    binary main_v29 main_v10 main_v42 (mulf : (⟨S12, .f32⟩ : BufTy).Contents (Elt F) → (⟨S12, .f32⟩ : BufTy).Contents (Elt F) → (⟨S12, .f32⟩ : BufTy).Contents (Elt F)),
    binary main_v41 main_v42 main_v43 (addf : (⟨S12, .f32⟩ : BufTy).Contents (Elt F) → (⟨S12, .f32⟩ : BufTy).Contents (Elt F) → (⟨S12, .f32⟩ : BufTy).Contents (Elt F)),
    binary main_v34 main_v34 main_v44 (mulf : (⟨S12, .f32⟩ : BufTy).Contents (Elt F) → (⟨S12, .f32⟩ : BufTy).Contents (Elt F) → (⟨S12, .f32⟩ : BufTy).Contents (Elt F)),
    binary main_v44 main_arg4 main_v45 (mulf : (⟨S12, .f32⟩ : BufTy).Contents (Elt F) → (⟨S12, .f32⟩ : BufTy).Contents (Elt F) → (⟨S12, .f32⟩ : BufTy).Contents (Elt F)),
    binary main_v45 main_v10 main_v46 (mulf : (⟨S12, .f32⟩ : BufTy).Contents (Elt F) → (⟨S12, .f32⟩ : BufTy).Contents (Elt F) → (⟨S12, .f32⟩ : BufTy).Contents (Elt F)),
    binary main_v46 main_v37 main_v47 (Host.divf : (⟨S12, .f32⟩ : BufTy).Contents (Elt F) → (⟨S12, .f32⟩ : BufTy).Contents (Elt F) → (⟨S12, .f32⟩ : BufTy).Contents (Elt F)),
    binary main_v43 main_v47 main_v48 (addf : (⟨S12, .f32⟩ : BufTy).Contents (Elt F) → (⟨S12, .f32⟩ : BufTy).Contents (Elt F) → (⟨S12, .f32⟩ : BufTy).Contents (Elt F)),
    nullary main_cst_17 (constant S_ .f32 0x00000000#32),
    unary main_cst_17 main_v49 (broadcastInDim S12 ![] bcast_S_S12 : (⟨S_, .f32⟩ : BufTy).Contents (Elt F) → (⟨S12, .f32⟩ : BufTy).Contents (Elt F)),
    binary main_v10 main_v49 main_v50 (cmpf .ogt : (⟨S12, .f32⟩ : BufTy).Contents (Elt F) → (⟨S12, .f32⟩ : BufTy).Contents (Elt F) → (⟨S12, .i1⟩ : BufTy).Contents (Elt F)),
    ternary main_v50 main_v40 main_arg1 main_v51 (select : (⟨S12, .i1⟩ : BufTy).Contents (Elt F) → (⟨S12, .f32⟩ : BufTy).Contents (Elt F) → (⟨S12, .f32⟩ : BufTy).Contents (Elt F) → (⟨S12, .f32⟩ : BufTy).Contents (Elt F)),
    binary main_v48 main_v37 main_v52 (Host.divf : (⟨S12, .f32⟩ : BufTy).Contents (Elt F) → (⟨S12, .f32⟩ : BufTy).Contents (Elt F) → (⟨S12, .f32⟩ : BufTy).Contents (Elt F)),
    ternary main_v50 main_v52 main_arg2 main_v53 (select : (⟨S12, .i1⟩ : BufTy).Contents (Elt F) → (⟨S12, .f32⟩ : BufTy).Contents (Elt F) → (⟨S12, .f32⟩ : BufTy).Contents (Elt F) → (⟨S12, .f32⟩ : BufTy).Contents (Elt F)),
    nullary main_cst_18 (constant S_ .f32 0x322BCC77#32),
    unary main_cst_18 main_v54 (broadcastInDim S12 ![] bcast_S_S12 : (⟨S_, .f32⟩ : BufTy).Contents (Elt F) → (⟨S12, .f32⟩ : BufTy).Contents (Elt F)),
    binary main_v53 main_v54 main_v55 (addf : (⟨S12, .f32⟩ : BufTy).Contents (Elt F) → (⟨S12, .f32⟩ : BufTy).Contents (Elt F) → (⟨S12, .f32⟩ : BufTy).Contents (Elt F)),
    unary main_v55 main_v56 (Host.sqrt : (⟨S12, .f32⟩ : BufTy).Contents (Elt F) → (⟨S12, .f32⟩ : BufTy).Contents (Elt F)),
    ternary main_v50 main_v56 main_arg3 main_v57 (select : (⟨S12, .i1⟩ : BufTy).Contents (Elt F) → (⟨S12, .f32⟩ : BufTy).Contents (Elt F) → (⟨S12, .f32⟩ : BufTy).Contents (Elt F) → (⟨S12, .f32⟩ : BufTy).Contents (Elt F)),
    binary main_arg4 main_v10 main_v58 (addf : (⟨S12, .f32⟩ : BufTy).Contents (Elt F) → (⟨S12, .f32⟩ : BufTy).Contents (Elt F) → (⟨S12, .f32⟩ : BufTy).Contents (Elt F)),
    binary main_arg5 main_v31 main_v59 (minimumf : (⟨S12, .f32⟩ : BufTy).Contents (Elt F) → (⟨S12, .f32⟩ : BufTy).Contents (Elt F) → (⟨S12, .f32⟩ : BufTy).Contents (Elt F)),
    binary main_arg6 main_v33 main_v60 (maximumf : (⟨S12, .f32⟩ : BufTy).Contents (Elt F) → (⟨S12, .f32⟩ : BufTy).Contents (Elt F) → (⟨S12, .f32⟩ : BufTy).Contents (Elt F)),
    unary main_v51 main_v61 (broadcastInDim S1x12 ![1] bcast_S12_S1x12_1 : (⟨S12, .f32⟩ : BufTy).Contents (Elt F) → (⟨S1x12, .f32⟩ : BufTy).Contents (Elt F)),
    unary main_v53 main_v62 (broadcastInDim S1x12 ![1] bcast_S12_S1x12_1 : (⟨S12, .f32⟩ : BufTy).Contents (Elt F) → (⟨S1x12, .f32⟩ : BufTy).Contents (Elt F)),
    unary main_v57 main_v63 (broadcastInDim S1x12 ![1] bcast_S12_S1x12_1 : (⟨S12, .f32⟩ : BufTy).Contents (Elt F) → (⟨S1x12, .f32⟩ : BufTy).Contents (Elt F)),
    unary main_v58 main_v64 (broadcastInDim S1x12 ![1] bcast_S12_S1x12_1 : (⟨S12, .f32⟩ : BufTy).Contents (Elt F) → (⟨S1x12, .f32⟩ : BufTy).Contents (Elt F)),
    unary main_v59 main_v65 (broadcastInDim S1x12 ![1] bcast_S12_S1x12_1 : (⟨S12, .f32⟩ : BufTy).Contents (Elt F) → (⟨S1x12, .f32⟩ : BufTy).Contents (Elt F)),
    unary main_v60 main_v66 (broadcastInDim S1x12 ![1] bcast_S12_S1x12_1 : (⟨S12, .f32⟩ : BufTy).Contents (Elt F) → (⟨S1x12, .f32⟩ : BufTy).Contents (Elt F)),
    nary ![main_v61, main_v62, main_v63, main_v64, main_v65, main_v66] main_v67 (fun u => concatenate S6x12 0 [⟨S1x12, u 0⟩, ⟨S1x12, u 1⟩, ⟨S1x12, u 2⟩, ⟨S1x12, u 3⟩, ⟨S1x12, u 4⟩, ⟨S1x12, u 5⟩] concatenates_S1x12_S1x12_S1x12_S1x12_S1x12_S1x12_S6x12_d0) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., nullary_bufs_sub .., binary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., ternary_bufs_sub .., binary_bufs_sub .., ternary_bufs_sub .., nullary_bufs_sub .., unary_bufs_sub .., binary_bufs_sub .., unary_bufs_sub .., ternary_bufs_sub .., binary_bufs_sub .., binary_bufs_sub .., binary_bufs_sub .., unary_bufs_sub .., unary_bufs_sub .., unary_bufs_sub .., unary_bufs_sub .., unary_bufs_sub .., unary_bufs_sub .., nary_bufs_sub ..⟩

end Cert.ReferenceIdeal.RefRun

end
-- ==== Proof.RefTerms.lean ====
/-
  The reference's five per-channel statistics, spelt by its own operations at the extended reals, and its result as
  the shared update at them.

  The reference shifts the input by 1000, marks the entries whose shifted value is positive, clips the shifted value
  to [0, 10000], moves the channel axis in front and flattens the other three axes to one of 32·256·256 entries. Per
  channel it then sums the mark (as a float), the clipped value times the mark and its square times the mark, and takes
  the least and the greatest clipped value with +∞, respectively -∞, at the unmarked entries.
-/
import proofs.«170440_j6811818131595_2_alg».proof.Proof.Gen.ReferenceIdeal
import proofs.«170440_j6811818131595_2_alg».proof.Proof.StatsTail

noncomputable section

namespace Cert.ReferenceIdeal.RefRun

open Cert.ReferenceIdeal Cert.ReferenceIdeal.Gen Idealize.ShloMosaic

/-- The input shifted by 1000. -/
def shiftedR (x : FVec Ideal S32x12x256x256 .f32) : FVec Ideal S32x12x256x256 .f32 :=
  addf x (broadcastInDim S32x12x256x256 ![] bcast_S_S32x12x256x256 (constant (F := Ideal) S_ .f32 0x447A0000#32))

/-- Where the shifted input is positive, channel-major and flattened to [12, 32·256·256]. -/
def validR (x : FVec Ideal S32x12x256x256 .f32) : IVec S12x2097152 1 :=
  shapeCast _ (transpose S12x32x256x256 [1, 0, 2, 3] (cmpf .ogt (shiftedR x) (broadcastInDim S32x12x256x256 ![] bcast_S_S32x12x256x256 (constant (F := Ideal) S_ .f32 0x00000000#32))) transposes_S32x12x256x256_S12x32x256x256_1_0_2_3) shapeCasts_S12x32x256x256_S12x2097152

/-- The shifted input clipped to [0, 10000], channel-major and flattened. -/
def fixedR (x : FVec Ideal S32x12x256x256 .f32) : FVec Ideal S12x2097152 .f32 :=
  shapeCast _ (transpose S12x32x256x256 [1, 0, 2, 3] (minimumf (broadcastInDim S32x12x256x256 ![] bcast_S_S32x12x256x256 (id (constant (F := Ideal) S_ .f32 0x461C4000#32))) (maximumf (broadcastInDim S32x12x256x256 ![] bcast_S_S32x12x256x256 (id (constant (F := Ideal) S_ .f32 0x00000000#32))) (shiftedR x))) transposes_S32x12x256x256_S12x32x256x256_1_0_2_3) shapeCasts_S12x32x256x256_S12x2097152

/-- The validity mask as a float: 1 at a valid entry, 0 elsewhere. -/
def maskR (x : FVec Ideal S32x12x256x256 .f32) : FVec Ideal S12x2097152 .f32 := uitofp .f32 (validR x)

/-- The number of valid entries per channel. -/
def nR (x : FVec Ideal S32x12x256x256 .f32) : FVec Ideal S12 .f32 :=
  Host.reduceAdd (maskR x) (constant (F := Ideal) S_ .f32 0x00000000#32) reducesTo_S12x2097152_S12_d1 h_S_

/-- The sum of the fixed values per channel. -/
def sR (x : FVec Ideal S32x12x256x256 .f32) : FVec Ideal S12 .f32 :=
  Host.reduceAdd (mulf (fixedR x) (maskR x)) (constant (F := Ideal) S_ .f32 0x00000000#32) reducesTo_S12x2097152_S12_d1 h_S_

/-- The sum of their squares per channel. -/
def ssR (x : FVec Ideal S32x12x256x256 .f32) : FVec Ideal S12 .f32 :=
  Host.reduceAdd (mulf (mulf (fixedR x) (fixedR x)) (maskR x)) (constant (F := Ideal) S_ .f32 0x00000000#32) reducesTo_S12x2097152_S12_d1 h_S_

/-- The least fixed value among the valid entries per channel (+∞ at an invalid entry). -/
def loR (x : FVec Ideal S32x12x256x256 .f32) : FVec Ideal S12 .f32 :=
  Host.reduce (FloatOps.minimumf (F := Ideal) (φ := .f32)) (select (validR x) (fixedR x) (broadcastInDim S12x2097152 ![] bcast_S_S12x2097152 (id (constant (F := Ideal) S_ .f32 0x7F800000#32)))) (constant (F := Ideal) S_ .f32 0x7F800000#32) reducesTo_S12x2097152_S12_d1 h_S_

/-- The greatest fixed value among the valid entries per channel (-∞ at an invalid entry). -/
def hiR (x : FVec Ideal S32x12x256x256 .f32) : FVec Ideal S12 .f32 :=
  Host.reduce (FloatOps.maximumf (F := Ideal) (φ := .f32)) (select (validR x) (fixedR x) (broadcastInDim S12x2097152 ![] bcast_S_S12x2097152 (id (constant (F := Ideal) S_ .f32 0xFF800000#32)))) (constant (F := Ideal) S_ .f32 0xFF800000#32) reducesTo_S12x2097152_S12_d1 h_S_

/-- The reference's result: the shared update at its five statistics of the input and the six running arrays. -/
def refOut (x : FVec Ideal S32x12x256x256 .f32) (mean var std cnt minv maxv : FVec Ideal S12 .f32) : FVec Ideal S6x12 .f32 :=
  Cert.Stats.update bcast_S_S12 bcast_S12_S1x12_1 concatenates_S1x12_S1x12_S1x12_S1x12_S1x12_S1x12_S6x12_d0
    (nR x) (sR x) (ssR x) (loR x) (hiR x) mean var std cnt minv maxv

end Cert.ReferenceIdeal.RefRun

end
-- ==== Proof.RefRun.lean ====
/-
  The reference program's run, read back at the extended reals.

  The run of the list of the reference's host operations is a fold over the list; what the result buffer holds at the
  end is the composition of the operations' functions over the launch contents of the seven arguments: the shared
  update of the running arrays at the five per-channel statistics, as the reference spells them.
-/
import proofs.«170440_j6811818131595_2_alg».proof.Proof.RefOps
import proofs.«170440_j6811818131595_2_alg».proof.Proof.RefTerms
import proofs.«170440_j6811818131595_2_alg».proof.Proof.LibNary6

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 40400000 in
/-- On every device, from any memory with zero counters: every weakly fair execution of @main terminates with the
    result at `refOut` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (by
        simp (disch := decide) only [after_cons, after_nil, nary_result', Matrix.cons_val]
        refine (concatenate6_congr (b0 := ?b0) (b1 := ?b1) (b2 := ?b2) (b3 := ?b3) (b4 := ?b4) (b5 := ?b5) _ _ ?h0 ?h1 ?h2 ?h3 ?h4 ?h5).trans ?fin
        case h0 =>
          show @Eq ((Proc.devRef (τ := τ) (sig := sig) .tc main_v61).ty.Contents (Elt Ideal)) _ _
          after_results_simp
          rfl
        case h1 =>
          show @Eq ((Proc.devRef (τ := τ) (sig := sig) .tc main_v62).ty.Contents (Elt Ideal)) _ _
          after_results_simp
          rfl
        case h2 =>
          show @Eq ((Proc.devRef (τ := τ) (sig := sig) .tc main_v63).ty.Contents (Elt Ideal)) _ _
          after_results_simp
          rfl
        case h3 =>
          show @Eq ((Proc.devRef (τ := τ) (sig := sig) .tc main_v64).ty.Contents (Elt Ideal)) _ _
          after_results_simp
          rfl
        case h4 =>
          show @Eq ((Proc.devRef (τ := τ) (sig := sig) .tc main_v65).ty.Contents (Elt Ideal)) _ _
          after_results_simp
          rfl
        case h5 =>
          show @Eq ((Proc.devRef (τ := τ) (sig := sig) .tc main_v66).ty.Contents (Elt Ideal)) _ _
          after_results_simp
          rfl
        case fin => rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.RefStats.lean ====
/-
  The reference's five statistics read at a channel.

  The reference moves the channel axis in front and flattens batch, row and column into one axis of 32·256·256
  entries, row-major: entry k of channel c is the input at batch k / 65536, row k / 256 % 256, column k % 256. Each
  statistic is a reduction over that axis; read at a channel it is the sum, the infimum or the supremum over the flat
  position of the entry's mask, fixed value, squared fixed value, or fixed value where valid, and re-indexed by
  (batch, row, column) it is the statistic of the specification.
-/
import proofs.«170440_j6811818131595_2_alg».proof.Proof.RefTerms
import proofs.«170440_j6811818131595_2_alg».proof.Proof.StatsSpec
import proofs.«170440_j6811818131595_2_alg».proof.Proof.StatsMathSums
import proofs.«170440_j6811818131595_2_alg».proof.Proof.StatsMathOrder
import Idealize.ShloMosaic.Lib.IdealHost
import Idealize.ShloMosaic.Lib.Pipeline.Value

noncomputable section

namespace Cert.ReferenceIdeal.RefRun

open Cert.ReferenceIdeal Cert.ReferenceIdeal.Gen Idealize.ShloMosaic Idealize.ShloMosaic.ValueIdx

/-- The batch, row and column of a flat position, row-major. -/
def fb (k : Fin 2097152) : Fin 32 := ⟨k.val / 65536, by omega⟩
def fh (k : Fin 2097152) : Fin 256 := ⟨k.val / 256 % 256, by omega⟩
def fw (k : Fin 2097152) : Fin 256 := ⟨k.val % 256, by omega⟩

/-- An array with the channel axis moved in front and the other three flattened, read at (c, k). -/
theorem flat_apply {α : Type} (y : S32x12x256x256.Idx → α) (c : Fin 12) (k : Fin 2097152) :
    shapeCast S12x2097152 (transpose S12x32x256x256 [1, 0, 2, 3] y transposes_S32x12x256x256_S12x32x256x256_1_0_2_3)
        shapeCasts_S12x32x256x256_S12x2097152 (ix2 c k)
      = y (ix4 (fb k) c (fh k) (fw k)) := by
  refine (shapeCast_apply _ _ (ix2 c k) (ix4 c (fb k) (fh k) (fw k)) ?_).trans ?_
  · rw [Shape.rowMajor_val_two, Shape.rowMajor_val_four]
    show ((c.val * 32 + k.val / 65536) * 256 + k.val / 256 % 256) * 256 + k.val % 256 = c.val * 2097152 + k.val
    omega
  · exact transpose_apply _ _ _ (ix4 c (fb k) (fh k) (fw k)) (ix4 (fb k) c (fh k) (fw k))
      (fun b => match b with | ⟨0, _⟩ => rfl | ⟨1, _⟩ => rfl | ⟨2, _⟩ => rfl | ⟨3, _⟩ => rfl)

theorem reducesD1 : S12x2097152.Reduces [1] S12 := by decide

theorem lift_eq (c : Fin 12) (k : Fin 2097152) : reducesD1.lift (ix1 c) k = ix2 c k := by
  funext d
  match d with
  | ⟨0, _⟩ => exact Fin.ext rfl
  | ⟨1, _⟩ => exact Fin.ext rfl

/-- A sum over the flattened axis from a zero initial value, read at a channel. -/
theorem reduceAdd_read (y : FVec Ideal S12x2097152 .f32) (c : Fin 12) :
    Host.reduceAdd y (constant (F := Ideal) S_ .f32 0x00000000#32) reducesTo_S12x2097152_S12_d1 h_S_ (ix1 c)
      = ∑ k : Fin 2097152, y (ix2 c k) := by
  refine (Ideal.hostReduceAdd_single reducesTo_S12x2097152_S12_d1 reducesD1 y _ (ix1 c)).trans ?_
  rw [show (constant (F := Ideal) S_ .f32 0x00000000#32) (Shape.Idx.first h_S_) = 0 from Ideal.ofBits_zero_f32, zero_add]
  exact Finset.sum_congr rfl (fun k _ => congrArg y (lift_eq c k))

/-- The input as a function of batch, channel, row and column. -/
def arrOf (X : FVec Ideal S32x12x256x256 .f32) : Cert.Stats.Arr := fun b c h w => X (ix4 b c h w)

theorem shiftedR_apply (X : FVec Ideal S32x12x256x256 .f32) (b : Fin 32) (c : Fin 12) (h w : Fin 256) :
    shiftedR X (ix4 b c h w) = Cert.Stats.shifted (arrOf X b c h w) := rfl

theorem fixedR_apply (X : FVec Ideal S32x12x256x256 .f32) (c : Fin 12) (k : Fin 2097152) :
    fixedR X (ix2 c k) = Cert.Stats.fixed (arrOf X (fb k) c (fh k) (fw k)) :=
  (flat_apply _ c k).trans rfl

theorem validR_apply (X : FVec Ideal S32x12x256x256 .f32) (c : Fin 12) (k : Fin 2097152) :
    validR X (ix2 c k)
      = Ideal.cmp .ogt (Cert.Stats.shifted (arrOf X (fb k) c (fh k) (fw k))) (Ideal.ofBits .f32 0x00000000#32) :=
  (flat_apply _ c k).trans rfl

theorem maskR_apply (X : FVec Ideal S32x12x256x256 .f32) (c : Fin 12) (k : Fin 2097152) :
    maskR X (ix2 c k) = Cert.Stats.mask (arrOf X (fb k) c (fh k) (fw k)) := by
  show FloatOps.uitofp (F := Ideal) .f32 (validR X (ix2 c k)) = _
  rw [validR_apply]
  unfold Cert.Stats.mask Ideal.cmp
  by_cases hp : Ideal.ofBits .f32 0x00000000#32 < Cert.Stats.shifted (arrOf X (fb k) c (fh k) (fw k))
  · rw [if_pos hp]
    show (((BitVec.ofBool (decide _)).toNat : ℝ) : EReal) = 1
    rw [decide_eq_true hp]
    simp
  · rw [if_neg hp]
    show (((BitVec.ofBool (decide _)).toNat : ℝ) : EReal) = 0
    rw [decide_eq_false hp]
    simp

/-- A select on the validity bit is the `if` on validity. -/
theorem select_valid (X : FVec Ideal S32x12x256x256 .f32) (c : Fin 12) (k : Fin 2097152) (a e : EReal) :
    Scalar.select (validR X (ix2 c k)) a e
      = if Ideal.ofBits .f32 0x00000000#32 < Cert.Stats.shifted (arrOf X (fb k) c (fh k) (fw k)) then a else e := by
  rw [validR_apply]
  unfold Ideal.cmp
  by_cases hp : Ideal.ofBits .f32 0x00000000#32 < Cert.Stats.shifted (arrOf X (fb k) c (fh k) (fw k))
  · rw [if_pos hp]
    show Scalar.select (BitVec.ofBool (decide _)) a e = a
    rw [decide_eq_true hp]; exact select_one a e
  · rw [if_neg hp]
    show Scalar.select (BitVec.ofBool (decide _)) a e = e
    rw [decide_eq_false hp]; exact select_zero a e

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- A minimum over the flattened axis from +∞, read at a channel. -/
theorem reduceMin_read (y : FVec Ideal S12x2097152 .f32) (c : Fin 12) :
    Host.reduce (FloatOps.minimumf (F := Ideal) (φ := .f32)) y (constant (F := Ideal) S_ .f32 0x7F800000#32)
        reducesTo_S12x2097152_S12_d1 h_S_ (ix1 c)
      = Finset.univ.inf fun k : Fin 2097152 => y (ix2 c k) := by
  refine (Host.reduce_eq_fold_single _ y _ reducesTo_S12x2097152_S12_d1 reducesD1 h_S_ (ix1 c)).trans ?_
  rw [show (constant (F := Ideal) S_ .f32 0x7F800000#32) (Shape.Idx.first h_S_) = ⊤ from ofBits_posInf]
  rw [show (y ∘ reducesD1.lift (ix1 c)) = fun k : Fin 2097152 => y (ix2 c k) from funext fun k => congrArg y (lift_eq c k)]
  rfl

/-- A maximum over the flattened axis from -∞, read at a channel. -/
theorem reduceMax_read (y : FVec Ideal S12x2097152 .f32) (c : Fin 12) :
    Host.reduce (FloatOps.maximumf (F := Ideal) (φ := .f32)) y (constant (F := Ideal) S_ .f32 0xFF800000#32)
        reducesTo_S12x2097152_S12_d1 h_S_ (ix1 c)
      = Finset.univ.sup fun k : Fin 2097152 => y (ix2 c k) := by
  refine (Host.reduce_eq_fold_single _ y _ reducesTo_S12x2097152_S12_d1 reducesD1 h_S_ (ix1 c)).trans ?_
  rw [show (constant (F := Ideal) S_ .f32 0xFF800000#32) (Shape.Idx.first h_S_) = ⊥ from ofBits_negInf]
  rw [show (y ∘ reducesD1.lift (ix1 c)) = fun k : Fin 2097152 => y (ix2 c k) from funext fun k => congrArg y (lift_eq c k)]
  rfl

/-! ## The five statistics at a channel -/

theorem nR_apply (X : FVec Ideal S32x12x256x256 .f32) (c : Fin 12) :
    nR X (ix1 c) = Cert.Stats.count (arrOf X) c := by
  refine (reduceAdd_read (maskR X) c).trans ?_
  rw [show (fun k : Fin 2097152 => maskR X (ix2 c k))
        = fun k : Fin 2097152 => Cert.Stats.mask (arrOf X (fb k) c (fh k) (fw k)) from funext fun k => maskR_apply X c k]
  exact Cert.Stats.sum_flat fun b h w => Cert.Stats.mask (arrOf X b c h w)

theorem sR_apply (X : FVec Ideal S32x12x256x256 .f32) (c : Fin 12) :
    sR X (ix1 c) = Cert.Stats.total (arrOf X) c := by
  refine (reduceAdd_read (mulf (fixedR X) (maskR X)) c).trans ?_
  rw [show (fun k : Fin 2097152 => mulf (fixedR X) (maskR X) (ix2 c k))
        = fun k : Fin 2097152 => Cert.Stats.fixed (arrOf X (fb k) c (fh k) (fw k)) from funext fun k => by
      show fixedR X (ix2 c k) * maskR X (ix2 c k) = _
      rw [fixedR_apply, maskR_apply, Cert.Stats.fixed_mul_mask]]
  exact Cert.Stats.sum_flat fun b h w => Cert.Stats.fixed (arrOf X b c h w)

theorem ssR_apply (X : FVec Ideal S32x12x256x256 .f32) (c : Fin 12) :
    ssR X (ix1 c) = Cert.Stats.totalSq (arrOf X) c := by
  refine (reduceAdd_read (mulf (mulf (fixedR X) (fixedR X)) (maskR X)) c).trans ?_
  rw [show (fun k : Fin 2097152 => mulf (mulf (fixedR X) (fixedR X)) (maskR X) (ix2 c k))
        = fun k : Fin 2097152 => Cert.Stats.fixed (arrOf X (fb k) c (fh k) (fw k)) * Cert.Stats.fixed (arrOf X (fb k) c (fh k) (fw k))
      from funext fun k => by
        show fixedR X (ix2 c k) * fixedR X (ix2 c k) * maskR X (ix2 c k) = _
        rw [fixedR_apply, maskR_apply, Cert.Stats.fixed_sq_mul_mask]]
  exact Cert.Stats.sum_flat fun b h w => Cert.Stats.fixed (arrOf X b c h w) * Cert.Stats.fixed (arrOf X b c h w)

theorem loR_apply (X : FVec Ideal S32x12x256x256 .f32) (c : Fin 12) :
    loR X (ix1 c) = Cert.Stats.least (arrOf X) c := by
  refine (reduceMin_read _ c).trans ?_
  rw [show (fun k : Fin 2097152 => select (validR X) (fixedR X)
          (broadcastInDim S12x2097152 ![] bcast_S_S12x2097152 (id (constant (F := Ideal) S_ .f32 0x7F800000#32))) (ix2 c k))
        = fun k : Fin 2097152 =>
            if Ideal.ofBits .f32 0x00000000#32 < Cert.Stats.shifted (arrOf X (fb k) c (fh k) (fw k))
            then Cert.Stats.fixed (arrOf X (fb k) c (fh k) (fw k)) else ⊤
      from funext fun k => by
        show Scalar.select (validR X (ix2 c k)) (fixedR X (ix2 c k)) (Ideal.ofBits .f32 0x7F800000#32) = _
        rw [select_valid, fixedR_apply, ofBits_posInf]]
  exact Cert.Stats.inf_flat fun b h w =>
    if Ideal.ofBits .f32 0x00000000#32 < Cert.Stats.shifted (arrOf X b c h w) then Cert.Stats.fixed (arrOf X b c h w) else ⊤

theorem hiR_apply (X : FVec Ideal S32x12x256x256 .f32) (c : Fin 12) :
    hiR X (ix1 c) = Cert.Stats.greatest (arrOf X) c := by
  refine (reduceMax_read _ c).trans ?_
  rw [show (fun k : Fin 2097152 => select (validR X) (fixedR X)
          (broadcastInDim S12x2097152 ![] bcast_S_S12x2097152 (id (constant (F := Ideal) S_ .f32 0xFF800000#32))) (ix2 c k))
        = fun k : Fin 2097152 =>
            if Ideal.ofBits .f32 0x00000000#32 < Cert.Stats.shifted (arrOf X (fb k) c (fh k) (fw k))
            then Cert.Stats.fixed (arrOf X (fb k) c (fh k) (fw k)) else ⊥
      from funext fun k => by
        show Scalar.select (validR X (ix2 c k)) (fixedR X (ix2 c k)) (Ideal.ofBits .f32 0xFF800000#32) = _
        rw [select_valid, fixedR_apply, ofBits_negInf]]
  exact Cert.Stats.sup_flat fun b h w =>
    if Ideal.ofBits .f32 0x00000000#32 < Cert.Stats.shifted (arrOf X b c h w) then Cert.Stats.fixed (arrOf X b c h w) else ⊥

/-- The five statistics as functions of the channel index. -/
theorem stats_eq (X : FVec Ideal S32x12x256x256 .f32) (x : Cert.Stats.Arr) (hx : ∀ b c h w, X (ix4 b c h w) = x b c h w) :
    nR X = (fun j => Cert.Stats.count x (j 0)) ∧ sR X = (fun j => Cert.Stats.total x (j 0))
      ∧ ssR X = (fun j => Cert.Stats.totalSq x (j 0)) ∧ loR X = (fun j => Cert.Stats.least x (j 0))
      ∧ hiR X = (fun j => Cert.Stats.greatest x (j 0)) := by
  have e : arrOf X = x := funext fun b => funext fun c => funext fun h => funext fun w => hx b c h w
  subst e
  refine ⟨funext fun j => ?_, funext fun j => ?_, funext fun j => ?_, funext fun j => ?_, funext fun j => ?_⟩
  · rw [eq_ix1 j]; exact nR_apply X (j 0)
  · rw [eq_ix1 j]; exact sR_apply X (j 0)
  · rw [eq_ix1 j]; exact ssR_apply X (j 0)
  · rw [eq_ix1 j]; exact loR_apply X (j 0)
  · rw [eq_ix1 j]; exact hiR_apply X (j 0)

/-- The reference's result is the shared update at the specification's five statistics of the input. -/
theorem refOut_eq (X : FVec Ideal S32x12x256x256 .f32) (x : Cert.Stats.Arr) (hx : ∀ b c h w, X (ix4 b c h w) = x b c h w)
    (mean var std cnt minv maxv : FVec Ideal S12 .f32) :
    refOut X mean var std cnt minv maxv
      = Cert.Stats.update bcast_S_S12 bcast_S12_S1x12_1 concatenates_S1x12_S1x12_S1x12_S1x12_S1x12_S1x12_S6x12_d0
          (fun j => Cert.Stats.count x (j 0)) (fun j => Cert.Stats.total x (j 0)) (fun j => Cert.Stats.totalSq x (j 0))
          (fun j => Cert.Stats.least x (j 0)) (fun j => Cert.Stats.greatest x (j 0)) mean var std cnt minv maxv := by
  obtain ⟨h1, h2, h3, h4, h5⟩ := stats_eq X x hx
  unfold refOut
  rw [h1, h2, h3, h4, h5]

end Cert.ReferenceIdeal.RefRun

end
-- ==== Proof.lean ====
/-
  Masked per-channel running statistics: a kernel that streams the input f32[32,12,256,256] once, sixteen blocks of two
  batch slices, folding per channel the count of valid entries (entry + 1000 positive), the sum and the sum of squares of
  the entries shifted by 1000 and clipped to [0, 10000], their least value over the valid entries and their greatest value
  over ALL entries into five accumulators per half of the batch, followed by host operations that add up the two halves,
  repair the greatest value to -∞ where no entry is valid, and update six running arrays; against a reference that
  computes the same five statistics by masked reductions over one flattened axis and applies the same update.

  Over the extended reals the two agree: sums, minima and maxima do not depend on the order or grouping of their terms;
  an invalid entry's clipped value is 0, so masking the sums changes nothing; and where some entry is valid the greatest
  clipped value over all entries is attained at a valid one (valid entries are positive, invalid ones 0), while where none
  is the repaired value -∞ is the masked maximum of nothing. No input needs to be finite for this.

  The three frames: the kernel (at the bit-exact and at the ideal instance) runs its region point by point — at the first
  point of a half the accumulators are reset, at a later point they hold what the point before left — and then its
  eighty-three host operations, none of which writes an argument; the reference is a straight line of host operations.
  The ideal pass rewrote nothing, so the kernel's idealization is the kernel's own text read at the ideal instance.
-/
import proofs.«170440_j6811818131595_2_alg».proof.Defs
import proofs.«170440_j6811818131595_2_alg».proof.Proof.Gen.Kernel
import proofs.«170440_j6811818131595_2_alg».proof.Proof.Gen.KernelIdeal
import proofs.«170440_j6811818131595_2_alg».proof.Proof.Gen.ReferenceIdeal
import proofs.«170440_j6811818131595_2_alg».proof.Proof.Gen.Pre_finite_inputs
import proofs.«170440_j6811818131595_2_alg».proof.Proof.KFrame
import proofs.«170440_j6811818131595_2_alg».proof.Proof.KTail
import proofs.«170440_j6811818131595_2_alg».proof.Proof.KIFrame
import proofs.«170440_j6811818131595_2_alg».proof.Proof.KITail
import proofs.«170440_j6811818131595_2_alg».proof.Proof.KIValue
import proofs.«170440_j6811818131595_2_alg».proof.Proof.RefRun
import proofs.«170440_j6811818131595_2_alg».proof.Proof.RefStats
import Idealize.ShloMosaic.Adequacy
import Idealize.ShloMosaic.Init

noncomputable section

namespace Cert.Proof

open Idealize.ShloMosaic Idealize.ShloMosaic.TcCoe Idealize.SL.Sem

/-- The kernel as printed runs to the end and leaves its seven arguments unchanged. -/
theorem frame_k : Cert.frame_Kernel := fun m ρ _ =>
  Cert.Kernel.Fr.frame_of m ρ (Cert.Kernel.Fr.dats m) (Cert.Kernel.Fr.A_eq m) (Cert.Kernel.Fr.run_main m ρ)

/-- So does its idealization. -/
theorem frame_ki : Cert.frame_KernelIdeal := fun m ρ _ =>
  Cert.KernelIdeal.Fr.frame_of m ρ (Cert.KernelIdeal.Fr.dats m) (Cert.KernelIdeal.Fr.A_eq m) (Cert.KernelIdeal.Fr.run_main m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefRun.run m ρ)

/-- Run from memories that agree on the arguments, the idealized kernel and the idealized reference end with the same
    result: the shared update applied to the same five statistics of the same input. -/
theorem algebraic : Cert.algebraic_KernelIdeal_ReferenceIdeal := by
  intro m ρ m' ρ' _ hagree
  refine ⟨fun c => Cert.KernelIdeal.Fr.result m c, Cert.KernelIdeal.Fr.run_value m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6⟩ := hagree c
  rw [e0, e1, e2, e3, e4, e5, e6]
  refine (Cert.ReferenceIdeal.RefRun.refOut_eq _ (Cert.KernelIdeal.Fr.xin m c) (fun _ _ _ _ => rfl) _ _ _ _ _ _).trans ?_
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
